-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x5 : Shape := ⟨2, ![262144, 5]⟩
abbrev S262144x6 : Shape := ⟨2, ![262144, 6]⟩
abbrev S2x4000000 : Shape := ⟨2, ![2, 4000000]⟩
abbrev S2x2000000 : Shape := ⟨2, ![2, 2000000]⟩
abbrev S2000000 : Shape := ⟨1, ![2000000]⟩
abbrev S3x5x64 : Shape := ⟨3, ![3, 5, 64]⟩
abbrev S64 : Shape := ⟨1, ![64]⟩
abbrev S4x64x64 : Shape := ⟨3, ![4, 64, 64]⟩
abbrev S64x64 : Shape := ⟨2, ![64, 64]⟩
abbrev S6x64 : Shape := ⟨2, ![6, 64]⟩
abbrev S64x8 : Shape := ⟨2, ![64, 8]⟩
abbrev S8 : Shape := ⟨1, ![8]⟩
abbrev S_ : Shape := ⟨0, ![]⟩

class Facts : Prop where
  bcast_S_S262144x5 : S_.BroadcastsInDim S262144x5 (![] : Fin 0 → Fin S262144x5.rank)
  reducesTo_S262144x5_S_d0_1 : S262144x5.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S2000000 : S_.BroadcastsInDim S2000000 (![] : Fin 0 → Fin S2000000.rank)
  reducesTo_S2000000_S_d0 : S2000000.ReducesTo [0] S_
  bcast_S_S3x5x64 : S_.BroadcastsInDim S3x5x64 (![] : Fin 0 → Fin S3x5x64.rank)
  reducesTo_S3x5x64_S_d0_1_2 : S3x5x64.ReducesTo [0, 1, 2] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S64x64 : S_.BroadcastsInDim S64x64 (![] : Fin 0 → Fin S64x64.rank)
  reducesTo_S64x64_S_d0_1 : S64x64.ReducesTo [0, 1] S_
  bcast_S_S6x64 : S_.BroadcastsInDim S6x64 (![] : Fin 0 → Fin S6x64.rank)
  reducesTo_S6x64_S_d0_1 : S6x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg18 : FVec F S8 .f32) (main_v63 : IVec S_ 1) (main_v67 : IVec S_ 1) : IVec S_ 1 :=
  let main_v68 : IVec S_ 1 := andi main_v63 main_v67
  let main_v69 : FVec F S8 .f32 := Host.absf main_arg18
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg15 : FVec F S64 .f32) (main_arg16 : FVec F S64x64 .f32) (main_arg17 : FVec F S64x8 .f32) (main_arg18 : FVec F S8 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x8 .f32 := Host.absf main_arg17
  let main_cst_24 : FVec F S_ .f32 := constant S_ .f32 0x7F800000#32
  let main_v65 : FVec F S64x8 .f32 := broadcastInDim S64x8 ![] bcast_S_S64x8 main_cst_24
  let main_v66 : IVec S64x8 1 := cmpf .olt main_v64 main_v65
  let main_c_25 : IVec S_ 1 := constantI S_ 1 1#1
  let main_v67 : IVec S_ 1 := (fun x v => Host.reduce IntOp.andi x v reducesTo_S64x8_S_d0_1 h_S_) main_v66 main_c_25
  fn_part4 (F := F) main_arg18 main_v63 main_v67

def fn_part2 {F : FTy → Type} [FloatOps F] (main_arg11 : FVec F S64x64 .f32) (main_arg12 : FVec F S64 .f32) (main_arg13 : FVec F S6x64 .f32) (main_arg14 : FVec F S64x64 .f32) (main_arg15 : FVec F S64 .f32) (main_arg16 : FVec F S64x64 .f32) (main_arg17 : FVec F S64x8 .f32) (main_arg18 : FVec F S8 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S6x64 .f32 := Host.absf main_arg13
  let main_cst_16 : FVec F S_ .f32 := constant S_ .f32 0x7F800000#32
  let main_v45 : FVec F S6x64 .f32 := broadcastInDim S6x64 ![] bcast_S_S6x64 main_cst_16
  let main_v46 : IVec S6x64 1 := cmpf .olt main_v44 main_v45
  let main_c_17 : IVec S_ 1 := constantI S_ 1 1#1
  let main_v47 : IVec S_ 1 := (fun x v => Host.reduce IntOp.andi x v reducesTo_S6x64_S_d0_1 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_v48 main_v49 main_v50

def fn_part1 {F : FTy → Type} [FloatOps F] (main_arg8 : FVec F S64 .f32) (main_arg9 : FVec F S4x64x64 .f32) (main_arg10 : FVec F S64 .f32) (main_arg11 : FVec F S64x64 .f32) (main_arg12 : FVec F S64 .f32) (main_arg13 : FVec F S6x64 .f32) (main_arg14 : FVec F S64x64 .f32) (main_arg15 : FVec F S64 .f32) (main_arg16 : FVec F S64x64 .f32) (main_arg17 : FVec F S64x8 .f32) (main_arg18 : FVec F S8 .f32) (main_v13 : IVec S_ 1) (main_v16 : IVec S3x5x64 1) : IVec S_ 1 :=
  let main_c_5 : IVec S_ 1 := constantI S_ 1 1#1
  let main_v17 : IVec S_ 1 := (fun x v => Host.reduce IntOp.andi x v reducesTo_S3x5x64_S_d0_1_2 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg9
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S262144x5 .f32) (main_arg1 : FVec F S262144x6 .f32) (main_arg2 : IVec S2x4000000 32) (main_arg3 : IVec S2x2000000 32) (main_arg4 : IVec S2x2000000 32) (main_arg5 : IVec S2x2000000 32) (main_arg6 : FVec F S2000000 .f32) (main_arg7 : FVec F S3x5x64 .f32) (main_arg8 : FVec F S64 .f32) (main_arg9 : FVec F S4x64x64 .f32) (main_arg10 : FVec F S64 .f32) (main_arg11 : FVec F S64x64 .f32) (main_arg12 : FVec F S64 .f32) (main_arg13 : FVec F S6x64 .f32) (main_arg14 : FVec F S64x64 .f32) (main_arg15 : FVec F S64 .f32) (main_arg16 : FVec F S64x64 .f32) (main_arg17 : FVec F S64x8 .f32) (main_arg18 : FVec F S8 .f32) : IVec S_ 1 :=
  let main_v0 : FVec F S262144x5 .f32 := Host.absf main_arg0
  let main_cst : FVec F S_ .f32 := constant S_ .f32 0x7F800000#32
  let main_v1 : FVec F S262144x5 .f32 := broadcastInDim S262144x5 ![] bcast_S_S262144x5 main_cst
  let main_v2 : IVec S262144x5 1 := cmpf .olt main_v0 main_v1
  let main_c : IVec S_ 1 := constantI S_ 1 1#1
  let main_v3 : IVec S_ 1 := (fun x v => Host.reduce IntOp.andi x v reducesTo_S262144x5_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S2000000 .f32 := Host.absf main_arg6
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S3x5x64 .f32 := Host.absf main_arg7
  let main_cst_4 : FVec F S_ .f32 := constant S_ .f32 0x7F800000#32
  let main_v15 : FVec F S3x5x64 .f32 := broadcastInDim S3x5x64 ![] bcast_S_S3x5x64 main_cst_4
  let main_v16 : IVec S3x5x64 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S262144x5 : Shape := ⟨2, ![262144, 5]⟩
abbrev S262144x6 : Shape := ⟨2, ![262144, 6]⟩
abbrev S2x4000000 : Shape := ⟨2, ![2, 4000000]⟩
abbrev S2x2000000 : Shape := ⟨2, ![2, 2000000]⟩
abbrev S2000000 : Shape := ⟨1, ![2000000]⟩
abbrev S3x5x64 : Shape := ⟨3, ![3, 5, 64]⟩
abbrev S64 : Shape := ⟨1, ![64]⟩
abbrev S4x64x64 : Shape := ⟨3, ![4, 64, 64]⟩
abbrev S64x64 : Shape := ⟨2, ![64, 64]⟩
abbrev S6x64 : Shape := ⟨2, ![6, 64]⟩
abbrev S64x8 : Shape := ⟨2, ![64, 8]⟩
abbrev S8 : Shape := ⟨1, ![8]⟩
abbrev S1x4000000 : Shape := ⟨2, ![1, 4000000]⟩
abbrev S4000000 : Shape := ⟨1, ![4000000]⟩
abbrev S_ : Shape := ⟨0, ![]⟩
abbrev S262144 : Shape := ⟨1, ![262144]⟩
abbrev S4000000x1 : Shape := ⟨2, ![4000000, 1]⟩
abbrev S4000000x5 : Shape := ⟨2, ![4000000, 5]⟩
abbrev S1x5x64 : Shape := ⟨3, ![1, 5, 64]⟩
abbrev S5x64 : Shape := ⟨2, ![5, 64]⟩
abbrev S1x64 : Shape := ⟨2, ![1, 64]⟩
abbrev S262144x64 : Shape := ⟨2, ![262144, 64]⟩
abbrev S4096x5 : Shape := ⟨2, ![4096, 5]⟩
abbrev S4096x64 : Shape := ⟨2, ![4096, 64]⟩
abbrev S1x2000000 : Shape := ⟨2, ![1, 2000000]⟩
abbrev S2000000x1 : Shape := ⟨2, ![2000000, 1]⟩
abbrev S2000000x64 : Shape := ⟨2, ![2000000, 64]⟩
abbrev S262144x1 : Shape := ⟨2, ![262144, 1]⟩
abbrev S4096x6 : Shape := ⟨2, ![4096, 6]⟩
abbrev S1x64x64 : Shape := ⟨3, ![1, 64, 64]⟩
abbrev S1x8 : Shape := ⟨2, ![1, 8]⟩
abbrev S262144x8 : Shape := ⟨2, ![262144, 8]⟩
abbrev S4096x8 : Shape := ⟨2, ![4096, 8]⟩

abbrev nBuf : Space → Nat
  | .hbm => 250
  | .vmem => 43
  | .smem => 0
  | _ => 0

abbrev hbmTy0_0 (i : Nat) : BufTy := match i % 128 with
  | 0 => ⟨S262144x5, .f32⟩
  | 1 => ⟨S262144x6, .f32⟩
  | 2 => ⟨S2x4000000, .i32⟩
  | 3 => ⟨S2x2000000, .i32⟩
  | 4 => ⟨S2x2000000, .i32⟩
  | 5 => ⟨S2x2000000, .i32⟩
  | 6 => ⟨S2000000, .f32⟩
  | 7 => ⟨S3x5x64, .f32⟩
  | 8 => ⟨S64, .f32⟩
  | 9 => ⟨S4x64x64, .f32⟩
  | 10 => ⟨S64, .f32⟩
  | 11 => ⟨S64x64, .f32⟩
  | 12 => ⟨S64, .f32⟩
  | 13 => ⟨S6x64, .f32⟩
  | 14 => ⟨S64x64, .f32⟩
  | 15 => ⟨S64, .f32⟩
  | 16 => ⟨S64x64, .f32⟩
  | 17 => ⟨S64x8, .f32⟩
  | 18 => ⟨S8, .f32⟩
  | 19 => ⟨S1x4000000, .i32⟩
  | 20 => ⟨S4000000, .i32⟩
  | 21 => ⟨S1x4000000, .i32⟩
  | 22 => ⟨S4000000, .i32⟩
  | 23 => ⟨S_, .f32⟩
  | 24 => ⟨S4000000, .f32⟩
  | 25 => ⟨S_, .f32⟩
  | 26 => ⟨S262144, .f32⟩
  | 27 => ⟨S4000000x1, .i32⟩
  | 28 => ⟨S262144, .f32⟩
  | 29 => ⟨S_, .f32⟩
  | 30 => ⟨S262144, .f32⟩
  | 31 => ⟨S262144, .i1⟩
  | 32 => ⟨S_, .f32⟩
  | 33 => ⟨S262144, .f32⟩
  | 34 => ⟨S262144, .f32⟩
  | 35 => ⟨S262144, .f32⟩
  | 36 => ⟨S_, .f32⟩
  | 37 => ⟨S_, .f32⟩
  | 38 => ⟨S262144, .f32⟩
  | 39 => ⟨S262144, .f32⟩
  | 40 => ⟨S_, .i32⟩
  | 41 => ⟨S4000000, .i32⟩
  | 42 => ⟨S4000000, .i1⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S4000000, .f32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000, .f32⟩
  | 58 => ⟨S4000000, .f32⟩
  | 59 => ⟨S4000000x1, .f32⟩
  | 60 => ⟨S_, .i32⟩
  | 61 => ⟨S4000000, .i32⟩
  | 62 => ⟨S4000000, .i1⟩
  | 63 => ⟨S_, .i32⟩
  | 64 => ⟨S4000000, .i32⟩
  | 65 => ⟨S4000000, .i32⟩
  | 66 => ⟨S4000000, .i32⟩
  | 67 => ⟨S4000000x1, .i32⟩
  | 68 => ⟨S4000000x5, .f32⟩
  | 69 => ⟨S4000000x5, .f32⟩
  | 70 => ⟨S4000000x5, .f32⟩
  | 71 => ⟨S_, .f32⟩
  | 72 => ⟨S262144x5, .f32⟩
  | 73 => ⟨S4000000x1, .i32⟩
  | 74 => ⟨S262144x5, .f32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S4000000x5, .f32⟩
  | 84 => ⟨S4000000x5, .f32⟩
  | 85 => ⟨S4000000x5, .f32⟩
  | 86 => ⟨S_, .f32⟩
  | 87 => ⟨S262144x5, .f32⟩
  | 88 => ⟨S4000000x1, .i32⟩
  | 89 => ⟨S262144x5, .f32⟩
  | 90 => ⟨S1x5x64, .f32⟩
  | 91 => ⟨S5x64, .f32⟩
  | 92 => ⟨S1x5x64, .f32⟩
  | 93 => ⟨S5x64, .f32⟩
  | 94 => ⟨S1x5x64, .f32⟩
  | 95 => ⟨S5x64, .f32⟩
  | 96 => ⟨S1x64, .f32⟩
  | 97 => ⟨S262144x64, .bf16⟩
  | 98 => ⟨S1x2000000, .i32⟩
  | 99 => ⟨S2000000, .i32⟩
  | 100 => ⟨S1x2000000, .i32⟩
  | 101 => ⟨S2000000, .i32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .bf16⟩
  | 112 => ⟨S2000000x64, .f32⟩
  | 113 => ⟨S2000000x64, .f32⟩
  | 114 => ⟨S2000000x64, .f32⟩
  | 115 => ⟨S_, .f32⟩
  | 116 => ⟨S262144x64, .f32⟩
  | 117 => ⟨S2000000x1, .i32⟩
  | 118 => ⟨S262144x64, .f32⟩
  | 119 => ⟨S1x2000000, .i32⟩
  | 120 => ⟨S2000000, .i32⟩
  | 121 => ⟨S1x2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S262144x5, .f32⟩

abbrev hbmTy0_1 (i : Nat) : BufTy := match i % 128 with
  | 0 => ⟨S2000000, .i32⟩
  | 1 => ⟨S2000000, .i32⟩
  | 2 => ⟨S2000000x1, .i32⟩
  | 3 => ⟨S2000000x64, .bf16⟩
  | 4 => ⟨S2000000x64, .f32⟩
  | 5 => ⟨S_, .f32⟩
  | 6 => ⟨S262144x64, .f32⟩
  | 7 => ⟨S2000000x1, .i32⟩
  | 8 => ⟨S262144x64, .f32⟩
  | 9 => ⟨S_, .f32⟩
  | 10 => ⟨S2000000, .f32⟩
  | 11 => ⟨S_, .f32⟩
  | 12 => ⟨S262144, .f32⟩
  | 13 => ⟨S2000000x1, .i32⟩
  | 14 => ⟨S262144, .f32⟩
  | 15 => ⟨S_, .f32⟩
  | 16 => ⟨S262144, .f32⟩
  | 17 => ⟨S262144, .f32⟩
  | 18 => ⟨S262144x1, .f32⟩
  | 19 => ⟨S262144x64, .f32⟩
  | 20 => ⟨S262144x64, .f32⟩
  | 21 => ⟨S1x64, .f32⟩
  | 22 => ⟨S1x64, .f32⟩
  | 23 => ⟨S262144x64, .bf16⟩
  | 24 => ⟨S1x2000000, .i32⟩
  | 25 => ⟨S2000000, .i32⟩
  | 26 => ⟨S1x2000000, .i32⟩
  | 27 => ⟨S2000000, .i32⟩
  | 28 => ⟨S_, .f32⟩
  | 29 => ⟨S2000000, .f32⟩
  | 30 => ⟨S_, .f32⟩
  | 31 => ⟨S262144, .f32⟩
  | 32 => ⟨S2000000x1, .i32⟩
  | 33 => ⟨S262144, .f32⟩
  | 34 => ⟨S_, .f32⟩
  | 35 => ⟨S262144, .f32⟩
  | 36 => ⟨S262144, .i1⟩
  | 37 => ⟨S_, .f32⟩
  | 38 => ⟨S262144, .f32⟩
  | 39 => ⟨S262144, .f32⟩
  | 40 => ⟨S262144, .f32⟩
  | 41 => ⟨S_, .f32⟩
  | 42 => ⟨S_, .f32⟩
  | 43 => ⟨S262144, .f32⟩
  | 44 => ⟨S262144, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000, .f32⟩
  | 63 => ⟨S2000000, .f32⟩
  | 64 => ⟨S2000000x1, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .bf16⟩
  | 74 => ⟨S2000000x64, .f32⟩
  | 75 => ⟨S2000000x64, .f32⟩
  | 76 => ⟨S2000000x64, .f32⟩
  | 77 => ⟨S_, .f32⟩
  | 78 => ⟨S262144x64, .f32⟩
  | 79 => ⟨S2000000x1, .i32⟩
  | 80 => ⟨S262144x64, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S2000000x64, .f32⟩
  | 90 => ⟨S2000000x64, .f32⟩
  | 91 => ⟨S2000000x64, .f32⟩
  | 92 => ⟨S_, .f32⟩
  | 93 => ⟨S262144x64, .f32⟩
  | 94 => ⟨S2000000x1, .i32⟩
  | 95 => ⟨S262144x64, .f32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S2000000x1, .i32⟩
  | 104 => ⟨S2000000x64, .f32⟩
  | 105 => ⟨S2000000x64, .f32⟩
  | 106 => ⟨S2000000x64, .f32⟩
  | 107 => ⟨S_, .f32⟩
  | 108 => ⟨S262144x64, .f32⟩
  | 109 => ⟨S2000000x1, .i32⟩
  | 110 => ⟨S262144x64, .f32⟩
  | 111 => ⟨S1x64x64, .f32⟩
  | 112 => ⟨S64x64, .f32⟩
  | 113 => ⟨S1x64x64, .f32⟩
  | 114 => ⟨S64x64, .f32⟩
  | 115 => ⟨S1x64x64, .f32⟩
  | 116 => ⟨S64x64, .f32⟩
  | 117 => ⟨S1x64x64, .f32⟩
  | 118 => ⟨S64x64, .f32⟩
  | 119 => ⟨S1x64, .f32⟩
  | 120 => ⟨S1x8, .f32⟩
  | 121 => ⟨S262144x8, .f32⟩
  | _ => ⟨S262144x5, .f32⟩

abbrev hbmTy (i : Nat) : BufTy := match i / 128 with
  | 0 => hbmTy0_0 i
  | 1 => hbmTy0_1 i
  | _ => ⟨S262144x5, .f32⟩

abbrev bufTy : (tb : Table) → Fin (tcTables nBuf tb) → BufTy
  | .hbm, ⟨i, _⟩ => hbmTy i
  | .local _ .vmem, ⟨0, _⟩ => ⟨S4096x5, .f32⟩
  | .local _ .vmem, ⟨1, _⟩ => ⟨S4096x5, .f32⟩
  | .local _ .vmem, ⟨2, _⟩ => ⟨S4096x5, .f32⟩
  | .local _ .vmem, ⟨3, _⟩ => ⟨S4096x5, .f32⟩
  | .local _ .vmem, ⟨4, _⟩ => ⟨S4096x5, .f32⟩
  | .local _ .vmem, ⟨5, _⟩ => ⟨S4096x5, .f32⟩
  | .local _ .vmem, ⟨6, _⟩ => ⟨S5x64, .f32⟩
  | .local _ .vmem, ⟨7, _⟩ => ⟨S5x64, .f32⟩
  | .local _ .vmem, ⟨8, _⟩ => ⟨S5x64, .f32⟩
  | .local _ .vmem, ⟨9, _⟩ => ⟨S1x64, .f32⟩
  | .local _ .vmem, ⟨10, _⟩ => ⟨S4096x64, .bf16⟩
  | .local _ .vmem, ⟨11, _⟩ => ⟨S4096x64, .bf16⟩
  | .local _ .vmem, ⟨12, _⟩ => ⟨S4096x64, .f32⟩
  | .local _ .vmem, ⟨13, _⟩ => ⟨S4096x64, .f32⟩
  | .local _ .vmem, ⟨14, _⟩ => ⟨S4096x6, .f32⟩
  | .local _ .vmem, ⟨15, _⟩ => ⟨S4096x6, .f32⟩
  | .local _ .vmem, ⟨16, _⟩ => ⟨S4096x64, .f32⟩
  | .local _ .vmem, ⟨17, _⟩ => ⟨S4096x64, .f32⟩
  | .local _ .vmem, ⟨18, _⟩ => ⟨S64x64, .f32⟩
  | .local _ .vmem, ⟨19, _⟩ => ⟨S1x64, .f32⟩
  | .local _ .vmem, ⟨20, _⟩ => ⟨S6x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S4096x64, .bf16⟩
  | .local _ .vmem, ⟨25, _⟩ => ⟨S4096x64, .bf16⟩
  | .local _ .vmem, ⟨26, _⟩ => ⟨S4096x64, .bf16⟩
  | .local _ .vmem, ⟨27, _⟩ => ⟨S4096x64, .bf16⟩
  | .local _ .vmem, ⟨28, _⟩ => ⟨S4096x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x64, .f32⟩
  | .local _ .vmem, ⟨34, _⟩ => ⟨S64x64, .f32⟩
  | .local _ .vmem, ⟨35, _⟩ => ⟨S64x64, .f32⟩
  | .local _ .vmem, ⟨36, _⟩ => ⟨S64x64, .f32⟩
  | .local _ .vmem, ⟨37, _⟩ => ⟨S64x64, .f32⟩
  | .local _ .vmem, ⟨38, _⟩ => ⟨S1x64, .f32⟩
  | .local _ .vmem, ⟨39, _⟩ => ⟨S64x8, .f32⟩
  | .local _ .vmem, ⟨40, _⟩ => ⟨S1x8, .f32⟩
  | .local _ .vmem, ⟨41, _⟩ => ⟨S4096x8, .f32⟩
  | .local _ .vmem, ⟨42, _⟩ => ⟨S4096x8, .f32⟩
  | _, _ => ⟨S262144x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_7 : Ref sig .tc := ⟨.hbm, 60, rfl⟩
abbrev main_v30 : Ref sig .tc := ⟨.hbm, 61, rfl⟩
abbrev main_v31 : Ref sig .tc := ⟨.hbm, 62, rfl⟩
abbrev main_c_8 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_10 : Ref sig .tc := ⟨.hbm, 75, rfl⟩
abbrev main_v42 : Ref sig .tc := ⟨.hbm, 76, rfl⟩
abbrev main_v43 : Ref sig .tc := ⟨.hbm, 77, rfl⟩
abbrev main_c_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_13 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_16 : Ref sig .tc := ⟨.hbm, 123, rfl⟩
abbrev main_v84 : Ref sig .tc := ⟨.hbm, 124, rfl⟩
abbrev main_v85 : Ref sig .tc := ⟨.hbm, 125, rfl⟩
abbrev main_c_17 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_cst_23 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_v116 : Ref sig .tc := ⟨.hbm, 164, rfl⟩
abbrev main_cst_25 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_26 : Ref sig .tc := ⟨.hbm, 169, rfl⟩
abbrev main_call1_v0 : Ref sig .tc := ⟨.hbm, 170, rfl⟩
abbrev main_call1_v1 : Ref sig .tc := ⟨.hbm, 171, rfl⟩
abbrev main_v120 : Ref sig .tc := ⟨.hbm, 172, rfl⟩
abbrev main_c_27 : Ref sig .tc := ⟨.hbm, 173, rfl⟩
abbrev main_v121 : Ref sig .tc := ⟨.hbm, 174, rfl⟩
abbrev main_v122 : Ref sig .tc := ⟨.hbm, 175, rfl⟩
abbrev main_c_28 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_29 : Ref sig .tc := ⟨.hbm, 182, rfl⟩
abbrev main_v128 : Ref sig .tc := ⟨.hbm, 183, rfl⟩
abbrev main_v129 : Ref sig .tc := ⟨.hbm, 184, rfl⟩
abbrev main_c_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_c_31 : Ref sig .tc := ⟨.hbm, 193, rfl⟩
abbrev main_v137 : Ref sig .tc := ⟨.hbm, 194, rfl⟩
abbrev main_v138 : Ref sig .tc := ⟨.hbm, 195, rfl⟩
abbrev main_c_32 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_33 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_c_34 : Ref sig .tc := ⟨.hbm, 209, rfl⟩
abbrev main_v150 : Ref sig .tc := ⟨.hbm, 210, rfl⟩
abbrev main_v151 : Ref sig .tc := ⟨.hbm, 211, rfl⟩
abbrev main_c_35 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_36 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_c_37 : Ref sig .tc := ⟨.hbm, 224, rfl⟩
abbrev main_v162 : Ref sig .tc := ⟨.hbm, 225, rfl⟩
abbrev main_v163 : Ref sig .tc := ⟨.hbm, 226, rfl⟩
abbrev main_c_38 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_cst_39 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg11_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem11_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S6x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x8 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x8 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4096x8 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S262144 : S_.BroadcastsInDim S262144 (![] : Fin 0 → Fin S262144.rank)
  bcast_S4000000_S4000000x1_0 : S4000000.BroadcastsInDim S4000000x1 (![0] : Fin 1 → Fin S4000000x1.rank)
  bcast_S4000000x1_S4000000x5_0_1 : S4000000x1.BroadcastsInDim S4000000x5 (![0, 1] : Fin 2 → Fin S4000000x5.rank)
  bcast_S_S262144x5 : S_.BroadcastsInDim S262144x5 (![] : Fin 0 → Fin S262144x5.rank)
  slices_S3x5x64_S1x5x64_0_0_0 : S3x5x64.Slices ![0, 0, 0] S1x5x64
  shapeCasts_S1x5x64_S5x64 : S1x5x64.ShapeCasts S5x64
  slices_S3x5x64_S1x5x64_1_0_0 : S3x5x64.Slices ![1, 0, 0] S1x5x64
  slices_S3x5x64_S1x5x64_2_0_0 : S3x5x64.Slices ![2, 0, 0] S1x5x64
  shapeCasts_S64_S1x64 : S64.ShapeCasts S1x64
  inb_S4096x5_S4096x5_0_0 : ∀ a, (![0, 0] : Fin 2 → Nat) a + S4096x5.size a ≤ S4096x5.size a
  h_S4096x5 : 0 < S4096x5.numel
  bitsLt_bf16_f32 : FTy.bits .bf16 < FTy.bits .f32
  shapeCasts_S4096x5_S4096x5 : S4096x5.ShapeCasts S4096x5
  inb_S5x64_S5x64_0_0 : ∀ a, (![0, 0] : Fin 2 → Nat) a + S5x64.size a ≤ S5x64.size a
  h_S5x64 : 0 < S5x64.numel
  shapeCasts_S5x64_S5x64 : S5x64.ShapeCasts S5x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S4096x64_S4096x64 : S4096x64.ShapeCasts S4096x64
  inb_S4096x6_S4096x6_0_0 : ∀ a, (![0, 0] : Fin 2 → Nat) a + S4096x6.size a ≤ S4096x6.size a
  h_S4096x6 : 0 < S4096x6.numel
  inb_S64x64_S64x64_0_0 : ∀ a, (![0, 0] : Fin 2 → Nat) a + S64x64.size a ≤ S64x64.size a
  h_S64x64 : 0 < S64x64.numel
  inb_S6x64_S6x64_0_0 : ∀ a, (![0, 0] : Fin 2 → Nat) a + S6x64.size a ≤ S6x64.size a
  h_S6x64 : 0 < S6x64.numel
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  shapeCasts_S8_S1x8 : S8.ShapeCasts S1x8
  shapeCasts_S64x64_S64x64 : S64x64.ShapeCasts S64x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  inb_S4096x8_S4096x8_0_0 : ∀ a, (![0, 0] : Fin 2 → Nat) a + S4096x8.size a ≤ S4096x8.size a
  h_S4096x8 : 0 < S4096x8.numel
  scatter_S262144_S4000000x1_S4000000_n_0_0_1_wf : ScatterDims.WF S262144 S4000000x1 S4000000 [] [0] [0] 1
  gather_S262144_S4000000x1_S4000000_n_0_n_n_0_1_1_wf : GatherDims.WF S262144 S4000000x1 S4000000 [] [0] [] [0] [] 1 ![1]
  gather_S262144x5_S4000000x1_S4000000x5_1_0_n_n_0_1_15_wf : GatherDims.WF S262144x5 S4000000x1 S4000000x5 [1] [0] [] [0] [] 1 ![1, 5]
  scatter_S262144x5_S4000000x1_S4000000x5_1_0_0_1_wf : ScatterDims.WF S262144x5 S4000000x1 S4000000x5 [1] [0] [0] 1
  dot_S4096x5_S5x64_S4096x64_1_0_0_1_n_n_wf : DotDims.WF S4096x5 S5x64 S4096x64 [1] [0] [0] [1] [] []
  gather_S262144x64_S2000000x1_S2000000x64_1_0_n_n_0_1_164_wf : GatherDims.WF S262144x64 S2000000x1 S2000000x64 [1] [0] [] [0] [] 1 ![1, 64]
  scatter_S262144x64_S2000000x1_S2000000x64_1_0_0_1_wf : ScatterDims.WF S262144x64 S2000000x1 S2000000x64 [1] [0] [0] 1
  scatter_S262144_S2000000x1_S2000000_n_0_0_1_wf : ScatterDims.WF S262144 S2000000x1 S2000000 [] [0] [0] 1
  dot_S4096x64_S64x64_S4096x64_1_0_0_1_n_n_wf : DotDims.WF S4096x64 S64x64 S4096x64 [1] [0] [0] [1] [] []
  dot_S4096x6_S6x64_S4096x64_1_0_0_1_n_n_wf : DotDims.WF S4096x6 S6x64 S4096x64 [1] [0] [0] [1] [] []
  gather_S262144_S2000000x1_S2000000_n_0_n_n_0_1_1_wf : GatherDims.WF S262144 S2000000x1 S2000000 [] [0] [] [0] [] 1 ![1]
  dot_S4096x64_S64x8_S4096x8_1_0_0_1_n_n_wf : DotDims.WF S4096x64 S64x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5.size a ≤ S262144x5.size a
  hwx0_0 : ∀ i : grid0.Coords, EltTy.bits .f32 = 32 ∨ (Rect.block (s := S262144x5) S4096x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x5.size a ≤ S262144x5.size a
  hwx0_1 : ∀ i : grid0.Coords, EltTy.bits .f32 = 32 ∨ (Rect.block (s := S262144x5) S4096x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x5.size a ≤ S262144x5.size a
  hwx0_2 : ∀ i : grid0.Coords, EltTy.bits .f32 = 32 ∨ (Rect.block (s := S262144x5) S4096x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64.size a ≤ S5x64.size a
  hwx0_3 : ∀ i : grid0.Coords, EltTy.bits .f32 = 32 ∨ (Rect.block (s := S5x64) S5x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x64.size a ≤ S5x64.size a
  hwx0_4 : ∀ i : grid0.Coords, EltTy.bits .f32 = 32 ∨ (Rect.block (s := S5x64) S5x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64.size a ≤ S5x64.size a
  hwx0_5 : ∀ i : grid0.Coords, EltTy.bits .f32 = 32 ∨ (Rect.block (s := S5x64) S5x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x64.size a ≤ S262144x64.size a
  hwx0_7 : ∀ i : grid0.Coords, EltTy.bits .bf16 = 32 ∨ (Rect.block (s := S262144x64) S4096x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S262144x64.size a
  hwx1_0 : ∀ i : grid1.Coords, EltTy.bits .f32 = 32 ∨ (Rect.block (s := S262144x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x6.size a ≤ S262144x6.size a
  hwx1_1 : ∀ i : grid1.Coords, EltTy.bits .f32 = 32 ∨ (Rect.block (s := S262144x6) S4096x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S262144x64.size a
  hwx1_2 : ∀ i : grid1.Coords, EltTy.bits .f32 = 32 ∨ (Rect.block (s := S262144x64) S4096x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S6x64.size a ≤ S6x64.size a
  hwx1_5 : ∀ i : grid1.Coords, EltTy.bits .f32 = 32 ∨ (Rect.block (s := S6x64) S6x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x64.size a ≤ S262144x64.size a
  hwx1_9 : ∀ i : grid1.Coords, EltTy.bits .bf16 = 32 ∨ (Rect.block (s := S262144x64) S4096x64.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S262144x64.size a
  hwx2_0 : ∀ i : grid2.Coords, EltTy.bits .bf16 = 32 ∨ (Rect.block (s := S262144x64) S4096x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S262144x64.size a
  hwx2_1 : ∀ i : grid2.Coords, EltTy.bits .f32 = 32 ∨ (Rect.block (s := S262144x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S262144x64.size a
  hwx2_2 : ∀ i : grid2.Coords, EltTy.bits .f32 = 32 ∨ (Rect.block (s := S262144x64) S4096x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S262144x64.size a
  hwx2_3 : ∀ i : grid2.Coords, EltTy.bits .f32 = 32 ∨ (Rect.block (s := S262144x64) S4096x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x8.size a ≤ S64x8.size a
  hwx2_9 : ∀ i : grid2.Coords, EltTy.bits .f32 = 32 ∨ (Rect.block (s := S64x8) S64x8.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x8.size a ≤ S1x8.size a
  hwx2_10 : ∀ i : grid2.Coords, EltTy.bits .f32 = 32 ∨ (Rect.block (s := S1x8) S1x8.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4096x8.size a ≤ S262144x8.size a
  hwx2_11 : ∀ i : grid2.Coords, EltTy.bits .f32 = 32 ∨ (Rect.block (s := S262144x8) S4096x8.size (cc2_transform_11 i) (hinb2_11 i)).WholeWords (EltTy.packing .f32)

variable [Facts₀]

def scatter_S262144_S4000000x1_S4000000_n_0_0_1 : ScatterDims S262144 S4000000x1 S4000000 where
  updateWindowDims := []
  insertedWindowDims := [0]
  scatterDimsToOperandDims := [0]
  indexVectorDim := 1
  wf := scatter_S262144_S4000000x1_S4000000_n_0_0_1_wf
def gather_S262144_S4000000x1_S4000000_n_0_n_n_0_1_1 : GatherDims S262144 S4000000x1 S4000000 where
  offsetDims := []
  collapsedSliceDims := [0]
  operandBatchingDims := []
  startIndicesBatchingDims := []
  startIndexMap := [0]
  indexVectorDim := 1
  sliceSizes := ![1]
  wf := gather_S262144_S4000000x1_S4000000_n_0_n_n_0_1_1_wf
def gather_S262144x5_S4000000x1_S4000000x5_1_0_n_n_0_1_15 : GatherDims S262144x5 S4000000x1 S4000000x5 where
  offsetDims := [1]
  collapsedSliceDims := [0]
  operandBatchingDims := []
  startIndicesBatchingDims := []
  startIndexMap := [0]
  indexVectorDim := 1
  sliceSizes := ![1, 5]
  wf := gather_S262144x5_S4000000x1_S4000000x5_1_0_n_n_0_1_15_wf
def scatter_S262144x5_S4000000x1_S4000000x5_1_0_0_1 : ScatterDims S262144x5 S4000000x1 S4000000x5 where
  updateWindowDims := [1]
  insertedWindowDims := [0]
  scatterDimsToOperandDims := [0]
  indexVectorDim := 1
  wf := scatter_S262144x5_S4000000x1_S4000000x5_1_0_0_1_wf
def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def gather_S262144x64_S2000000x1_S2000000x64_1_0_n_n_0_1_164 : GatherDims S262144x64 S2000000x1 S2000000x64 where
  offsetDims := [1]
  collapsedSliceDims := [0]
  operandBatchingDims := []
  startIndicesBatchingDims := []
  startIndexMap := [0]
  indexVectorDim := 1
  sliceSizes := ![1, 64]
  wf := gather_S262144x64_S2000000x1_S2000000x64_1_0_n_n_0_1_164_wf
def scatter_S262144x64_S2000000x1_S2000000x64_1_0_0_1 : ScatterDims S262144x64 S2000000x1 S2000000x64 where
  updateWindowDims := [1]
  insertedWindowDims := [0]
  scatterDimsToOperandDims := [0]
  indexVectorDim := 1
  wf := scatter_S262144x64_S2000000x1_S2000000x64_1_0_0_1_wf
def scatter_S262144_S2000000x1_S2000000_n_0_0_1 : ScatterDims S262144 S2000000x1 S2000000 where
  updateWindowDims := []
  insertedWindowDims := [0]
  scatterDimsToOperandDims := [0]
  indexVectorDim := 1
  wf := scatter_S262144_S2000000x1_S2000000_n_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x6_S6x64_S4096x64_1_0_0_1_n_n : DotDims S4096x6 S6x64 S4096x64 where
  lhsContracting := [1]
  rhsContracting := [0]
  lhsNonContracting := [0]
  rhsNonContracting := [1]
  lhsBatch := []
  rhsBatch := []
  wf := dot_S4096x6_S6x64_S4096x64_1_0_0_1_n_n_wf
def gather_S262144_S2000000x1_S2000000_n_0_n_n_0_1_1 : GatherDims S262144 S2000000x1 S2000000 where
  offsetDims := []
  collapsedSliceDims := [0]
  operandBatchingDims := []
  startIndicesBatchingDims := []
  startIndexMap := [0]
  indexVectorDim := 1
  sliceSizes := ![1]
  wf := gather_S262144_S2000000x1_S2000000_n_0_n_n_0_1_1_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf

abbrev win0_0 : Pipeline.Window sig grid0 :=
  Pipeline.Window.ofSpec (Memref.whole main_arg0) S4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4096x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S4096x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S5x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S5x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S5x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S4096x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v79) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v103) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v104) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S6x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v105) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v106) S4096x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v106) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v149) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v161) S4096x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v173) S4096x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v175) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v177) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v179) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v181) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v182) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg17) S64x8.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v183) S1x8.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v184) S4096x8.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S262144x5 : Shape := ⟨2, ![262144, 5]⟩
abbrev S262144x6 : Shape := ⟨2, ![262144, 6]⟩
abbrev S2x4000000 : Shape := ⟨2, ![2, 4000000]⟩
abbrev S2x2000000 : Shape := ⟨2, ![2, 2000000]⟩
abbrev S2000000 : Shape := ⟨1, ![2000000]⟩
abbrev S3x5x64 : Shape := ⟨3, ![3, 5, 64]⟩
abbrev S64 : Shape := ⟨1, ![64]⟩
abbrev S4x64x64 : Shape := ⟨3, ![4, 64, 64]⟩
abbrev S64x64 : Shape := ⟨2, ![64, 64]⟩
abbrev S6x64 : Shape := ⟨2, ![6, 64]⟩
abbrev S64x8 : Shape := ⟨2, ![64, 8]⟩
abbrev S8 : Shape := ⟨1, ![8]⟩
abbrev S1x4000000 : Shape := ⟨2, ![1, 4000000]⟩
abbrev S4000000 : Shape := ⟨1, ![4000000]⟩
abbrev S_ : Shape := ⟨0, ![]⟩
abbrev S262144 : Shape := ⟨1, ![262144]⟩
abbrev S4000000x1 : Shape := ⟨2, ![4000000, 1]⟩
abbrev S1x5x64 : Shape := ⟨3, ![1, 5, 64]⟩
abbrev S5x64 : Shape := ⟨2, ![5, 64]⟩
abbrev S262144x64 : Shape := ⟨2, ![262144, 64]⟩
abbrev S4000000x5 : Shape := ⟨2, ![4000000, 5]⟩
abbrev S1x64 : Shape := ⟨2, ![1, 64]⟩
abbrev S1x2000000 : Shape := ⟨2, ![1, 2000000]⟩
abbrev S2000000x1 : Shape := ⟨2, ![2000000, 1]⟩
abbrev S2000000x64 : Shape := ⟨2, ![2000000, 64]⟩
abbrev S262144x1 : Shape := ⟨2, ![262144, 1]⟩
abbrev S1x64x64 : Shape := ⟨3, ![1, 64, 64]⟩
abbrev S262144x8 : Shape := ⟨2, ![262144, 8]⟩
abbrev S1x8 : Shape := ⟨2, ![1, 8]⟩

abbrev nBuf : Space → Nat
  | .hbm => 285
  | .vmem => 0
  | .smem => 0
  | _ => 0

abbrev hbmTy0_0 (i : Nat) : BufTy := match i % 128 with
  | 0 => ⟨S262144x5, .f32⟩
  | 1 => ⟨S262144x6, .f32⟩
  | 2 => ⟨S2x4000000, .i32⟩
  | 3 => ⟨S2x2000000, .i32⟩
  | 4 => ⟨S2x2000000, .i32⟩
  | 5 => ⟨S2x2000000, .i32⟩
  | 6 => ⟨S2000000, .f32⟩
  | 7 => ⟨S3x5x64, .f32⟩
  | 8 => ⟨S64, .f32⟩
  | 9 => ⟨S4x64x64, .f32⟩
  | 10 => ⟨S64, .f32⟩
  | 11 => ⟨S64x64, .f32⟩
  | 12 => ⟨S64, .f32⟩
  | 13 => ⟨S6x64, .f32⟩
  | 14 => ⟨S64x64, .f32⟩
  | 15 => ⟨S64, .f32⟩
  | 16 => ⟨S64x64, .f32⟩
  | 17 => ⟨S64x8, .f32⟩
  | 18 => ⟨S8, .f32⟩
  | 19 => ⟨S1x4000000, .i32⟩
  | 20 => ⟨S4000000, .i32⟩
  | 21 => ⟨S1x4000000, .i32⟩
  | 22 => ⟨S4000000, .i32⟩
  | 23 => ⟨S_, .f32⟩
  | 24 => ⟨S4000000, .f32⟩
  | 25 => ⟨S_, .f32⟩
  | 26 => ⟨S262144, .f32⟩
  | 27 => ⟨S4000000x1, .i32⟩
  | 28 => ⟨S262144, .f32⟩
  | 29 => ⟨S_, .f32⟩
  | 30 => ⟨S262144, .f32⟩
  | 31 => ⟨S262144, .i1⟩
  | 32 => ⟨S_, .f32⟩
  | 33 => ⟨S262144, .f32⟩
  | 34 => ⟨S262144, .f32⟩
  | 35 => ⟨S262144, .f32⟩
  | 36 => ⟨S_, .f32⟩
  | 37 => ⟨S_, .f32⟩
  | 38 => ⟨S262144, .f32⟩
  | 39 => ⟨S262144, .f32⟩
  | 40 => ⟨S_, .i32⟩
  | 41 => ⟨S4000000, .i32⟩
  | 42 => ⟨S4000000, .i1⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S4000000, .f32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000, .f32⟩
  | 58 => ⟨S4000000, .f32⟩
  | 59 => ⟨S4000000x1, .f32⟩
  | 60 => ⟨S1x5x64, .f32⟩
  | 61 => ⟨S5x64, .f32⟩
  | 62 => ⟨S262144x64, .f32⟩
  | 63 => ⟨S_, .i32⟩
  | 64 => ⟨S4000000, .i32⟩
  | 65 => ⟨S4000000, .i1⟩
  | 66 => ⟨S_, .i32⟩
  | 67 => ⟨S4000000, .i32⟩
  | 68 => ⟨S4000000, .i32⟩
  | 69 => ⟨S4000000, .i32⟩
  | 70 => ⟨S4000000x1, .i32⟩
  | 71 => ⟨S4000000x5, .f32⟩
  | 72 => ⟨S4000000x5, .f32⟩
  | 73 => ⟨S4000000x5, .f32⟩
  | 74 => ⟨S_, .f32⟩
  | 75 => ⟨S262144x5, .f32⟩
  | 76 => ⟨S4000000x1, .i32⟩
  | 77 => ⟨S262144x5, .f32⟩
  | 78 => ⟨S1x5x64, .f32⟩
  | 79 => ⟨S5x64, .f32⟩
  | 80 => ⟨S262144x64, .f32⟩
  | 81 => ⟨S262144x64, .f32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000x5, .f32⟩
  | 91 => ⟨S4000000x5, .f32⟩
  | 92 => ⟨S4000000x5, .f32⟩
  | 93 => ⟨S_, .f32⟩
  | 94 => ⟨S262144x5, .f32⟩
  | 95 => ⟨S4000000x1, .i32⟩
  | 96 => ⟨S262144x5, .f32⟩
  | 97 => ⟨S1x5x64, .f32⟩
  | 98 => ⟨S5x64, .f32⟩
  | 99 => ⟨S262144x64, .f32⟩
  | 100 => ⟨S262144x64, .f32⟩
  | 101 => ⟨S1x64, .f32⟩
  | 102 => ⟨S262144x64, .f32⟩
  | 103 => ⟨S262144x64, .f32⟩
  | 104 => ⟨S_, .f32⟩
  | 105 => ⟨S262144x64, .f32⟩
  | 106 => ⟨S262144x64, .f32⟩
  | 107 => ⟨S1x2000000, .i32⟩
  | 108 => ⟨S2000000, .i32⟩
  | 109 => ⟨S1x2000000, .i32⟩
  | 110 => ⟨S2000000, .i32⟩
  | 111 => ⟨S2000000x1, .f32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x64, .f32⟩
  | 121 => ⟨S2000000x64, .f32⟩
  | 122 => ⟨S2000000x64, .f32⟩
  | 123 => ⟨S_, .f32⟩
  | 124 => ⟨S262144x64, .f32⟩
  | 125 => ⟨S2000000x1, .i32⟩
  | 126 => ⟨S262144x64, .f32⟩
  | 127 => ⟨S262144x64, .f32⟩
  | _ => ⟨S262144x5, .f32⟩

abbrev hbmTy0_1 (i : Nat) : BufTy := match i % 128 with
  | 0 => ⟨S1x64, .f32⟩
  | 1 => ⟨S262144x64, .f32⟩
  | 2 => ⟨S262144x64, .f32⟩
  | 3 => ⟨S262144x64, .f32⟩
  | 4 => ⟨S262144x64, .f32⟩
  | 5 => ⟨S_, .f32⟩
  | 6 => ⟨S262144x64, .f32⟩
  | 7 => ⟨S262144x64, .f32⟩
  | 8 => ⟨S1x2000000, .i32⟩
  | 9 => ⟨S2000000, .i32⟩
  | 10 => ⟨S1x2000000, .i32⟩
  | 11 => ⟨S2000000, .i32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x64, .f32⟩
  | 21 => ⟨S_, .f32⟩
  | 22 => ⟨S262144x64, .f32⟩
  | 23 => ⟨S2000000x1, .i32⟩
  | 24 => ⟨S262144x64, .f32⟩
  | 25 => ⟨S_, .f32⟩
  | 26 => ⟨S2000000, .f32⟩
  | 27 => ⟨S_, .f32⟩
  | 28 => ⟨S262144, .f32⟩
  | 29 => ⟨S2000000x1, .i32⟩
  | 30 => ⟨S262144, .f32⟩
  | 31 => ⟨S_, .f32⟩
  | 32 => ⟨S262144, .f32⟩
  | 33 => ⟨S262144, .f32⟩
  | 34 => ⟨S262144x1, .f32⟩
  | 35 => ⟨S262144x64, .f32⟩
  | 36 => ⟨S262144x64, .f32⟩
  | 37 => ⟨S262144x64, .f32⟩
  | 38 => ⟨S1x64, .f32⟩
  | 39 => ⟨S262144x64, .f32⟩
  | 40 => ⟨S262144x64, .f32⟩
  | 41 => ⟨S262144x64, .f32⟩
  | 42 => ⟨S262144x64, .f32⟩
  | 43 => ⟨S_, .f32⟩
  | 44 => ⟨S262144x64, .f32⟩
  | 45 => ⟨S262144x64, .f32⟩
  | 46 => ⟨S1x2000000, .i32⟩
  | 47 => ⟨S2000000, .i32⟩
  | 48 => ⟨S1x2000000, .i32⟩
  | 49 => ⟨S2000000, .i32⟩
  | 50 => ⟨S_, .f32⟩
  | 51 => ⟨S2000000, .f32⟩
  | 52 => ⟨S_, .f32⟩
  | 53 => ⟨S262144, .f32⟩
  | 54 => ⟨S2000000x1, .i32⟩
  | 55 => ⟨S262144, .f32⟩
  | 56 => ⟨S_, .f32⟩
  | 57 => ⟨S262144, .f32⟩
  | 58 => ⟨S262144, .i1⟩
  | 59 => ⟨S_, .f32⟩
  | 60 => ⟨S262144, .f32⟩
  | 61 => ⟨S262144, .f32⟩
  | 62 => ⟨S262144, .f32⟩
  | 63 => ⟨S_, .f32⟩
  | 64 => ⟨S_, .f32⟩
  | 65 => ⟨S262144, .f32⟩
  | 66 => ⟨S262144, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000, .f32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S2000000x1, .i32⟩
  | 84 => ⟨S2000000, .f32⟩
  | 85 => ⟨S2000000, .f32⟩
  | 86 => ⟨S2000000x1, .f32⟩
  | 87 => ⟨S1x64x64, .f32⟩
  | 88 => ⟨S64x64, .f32⟩
  | 89 => ⟨S262144x64, .f32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x64, .f32⟩
  | 99 => ⟨S2000000x64, .f32⟩
  | 100 => ⟨S2000000x64, .f32⟩
  | 101 => ⟨S_, .f32⟩
  | 102 => ⟨S262144x64, .f32⟩
  | 103 => ⟨S2000000x1, .i32⟩
  | 104 => ⟨S262144x64, .f32⟩
  | 105 => ⟨S1x64x64, .f32⟩
  | 106 => ⟨S64x64, .f32⟩
  | 107 => ⟨S262144x64, .f32⟩
  | 108 => ⟨S262144x64, .f32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000x64, .f32⟩
  | 118 => ⟨S2000000x64, .f32⟩
  | 119 => ⟨S2000000x64, .f32⟩
  | 120 => ⟨S_, .f32⟩
  | 121 => ⟨S262144x64, .f32⟩
  | 122 => ⟨S2000000x1, .i32⟩
  | 123 => ⟨S262144x64, .f32⟩
  | 124 => ⟨S1x64x64, .f32⟩
  | 125 => ⟨S64x64, .f32⟩
  | 126 => ⟨S262144x64, .f32⟩
  | 127 => ⟨S262144x64, .f32⟩
  | _ => ⟨S262144x5, .f32⟩

abbrev hbmTy0_2 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S2000000x64, .f32⟩
  | 9 => ⟨S2000000x64, .f32⟩
  | 10 => ⟨S2000000x64, .f32⟩
  | 11 => ⟨S_, .f32⟩
  | 12 => ⟨S262144x64, .f32⟩
  | 13 => ⟨S2000000x1, .i32⟩
  | 14 => ⟨S262144x64, .f32⟩
  | 15 => ⟨S1x64x64, .f32⟩
  | 16 => ⟨S64x64, .f32⟩
  | 17 => ⟨S262144x64, .f32⟩
  | 18 => ⟨S262144x64, .f32⟩
  | 19 => ⟨S1x64, .f32⟩
  | 20 => ⟨S262144x64, .f32⟩
  | 21 => ⟨S262144x64, .f32⟩
  | 22 => ⟨S_, .f32⟩
  | 23 => ⟨S262144x64, .f32⟩
  | 24 => ⟨S262144x64, .f32⟩
  | 25 => ⟨S262144x8, .f32⟩
  | 26 => ⟨S1x8, .f32⟩
  | 27 => ⟨S262144x8, .f32⟩
  | 28 => ⟨S262144x8, .f32⟩
  | _ => ⟨S262144x5, .f32⟩

abbrev hbmTy (i : Nat) : BufTy := match i / 128 with
  | 0 => hbmTy0_0 i
  | 1 => hbmTy0_1 i
  | 2 => hbmTy0_2 i
  | _ => ⟨S262144x5, .f32⟩

abbrev bufTy : (tb : Table) → Fin (tcTables nBuf tb) → BufTy
  | .hbm, ⟨i, _⟩ => hbmTy i
  | _, _ => ⟨S262144x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call1_cst : Ref sig .tc := ⟨.hbm, 104, rfl⟩
abbrev main_call1_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_13 : Ref sig .tc := ⟨.hbm, 112, rfl⟩
abbrev main_v74 : Ref sig .tc := ⟨.hbm, 113, rfl⟩
abbrev main_v75 : Ref sig .tc := ⟨.hbm, 114, rfl⟩
abbrev main_c_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_15 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call2_cst : Ref sig .tc := ⟨.hbm, 133, rfl⟩
abbrev main_call2_v0 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_16 : Ref sig .tc := ⟨.hbm, 140, rfl⟩
abbrev main_v97 : Ref sig .tc := ⟨.hbm, 141, rfl⟩
abbrev main_v98 : Ref sig .tc := ⟨.hbm, 142, rfl⟩
abbrev main_c_17 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_18 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_19 : Ref sig .tc := ⟨.hbm, 153, rfl⟩
abbrev main_v107 : Ref sig .tc := ⟨.hbm, 154, rfl⟩
abbrev main_cst_20 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_21 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_call3_cst : Ref sig .tc := ⟨.hbm, 171, rfl⟩
abbrev main_call3_v0 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_22 : Ref sig .tc := ⟨.hbm, 178, rfl⟩
abbrev main_v127 : Ref sig .tc := ⟨.hbm, 179, rfl⟩
abbrev main_cst_23 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_24 : Ref sig .tc := ⟨.hbm, 184, rfl⟩
abbrev main_v131 : Ref sig .tc := ⟨.hbm, 185, rfl⟩
abbrev main_v132 : Ref sig .tc := ⟨.hbm, 186, rfl⟩
abbrev main_cst_25 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_26 : Ref sig .tc := ⟨.hbm, 191, rfl⟩
abbrev main_call4_v0 : Ref sig .tc := ⟨.hbm, 192, rfl⟩
abbrev main_call4_v1 : Ref sig .tc := ⟨.hbm, 193, rfl⟩
abbrev main_v136 : Ref sig .tc := ⟨.hbm, 194, rfl⟩
abbrev main_c_27 : Ref sig .tc := ⟨.hbm, 195, rfl⟩
abbrev main_v137 : Ref sig .tc := ⟨.hbm, 196, rfl⟩
abbrev main_v138 : Ref sig .tc := ⟨.hbm, 197, rfl⟩
abbrev main_c_28 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_c_29 : Ref sig .tc := ⟨.hbm, 204, rfl⟩
abbrev main_v144 : Ref sig .tc := ⟨.hbm, 205, rfl⟩
abbrev main_v145 : Ref sig .tc := ⟨.hbm, 206, rfl⟩
abbrev main_c_30 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_c_31 : Ref sig .tc := ⟨.hbm, 218, rfl⟩
abbrev main_v156 : Ref sig .tc := ⟨.hbm, 219, rfl⟩
abbrev main_v157 : Ref sig .tc := ⟨.hbm, 220, rfl⟩
abbrev main_c_32 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_33 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_c_34 : Ref sig .tc := ⟨.hbm, 237, rfl⟩
abbrev main_v172 : Ref sig .tc := ⟨.hbm, 238, rfl⟩
abbrev main_v173 : Ref sig .tc := ⟨.hbm, 239, rfl⟩
abbrev main_c_35 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_36 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_c_37 : Ref sig .tc := ⟨.hbm, 256, rfl⟩
abbrev main_v188 : Ref sig .tc := ⟨.hbm, 257, rfl⟩
abbrev main_v189 : Ref sig .tc := ⟨.hbm, 258, rfl⟩
abbrev main_c_38 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_39 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_call5_cst : Ref sig .tc := ⟨.hbm, 278, rfl⟩
abbrev main_call5_v0 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S262144 : S_.BroadcastsInDim S262144 (![] : Fin 0 → Fin S262144.rank)
  bcast_S4000000_S4000000x1_0 : S4000000.BroadcastsInDim S4000000x1 (![0] : Fin 1 → Fin S4000000x1.rank)
  slices_S3x5x64_S1x5x64_0_0_0 : S3x5x64.Slices ![0, 0, 0] S1x5x64
  shapeCasts_S1x5x64_S5x64 : S1x5x64.ShapeCasts S5x64
  bcast_S4000000x1_S4000000x5_0_1 : S4000000x1.BroadcastsInDim S4000000x5 (![0, 1] : Fin 2 → Fin S4000000x5.rank)
  bcast_S_S262144x5 : S_.BroadcastsInDim S262144x5 (![] : Fin 0 → Fin S262144x5.rank)
  slices_S3x5x64_S1x5x64_1_0_0 : S3x5x64.Slices ![1, 0, 0] S1x5x64
  slices_S3x5x64_S1x5x64_2_0_0 : S3x5x64.Slices ![2, 0, 0] S1x5x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  scatter_S262144_S4000000x1_S4000000_n_0_0_1_wf : ScatterDims.WF S262144 S4000000x1 S4000000 [] [0] [0] 1
  gather_S262144_S4000000x1_S4000000_n_0_n_n_0_1_1_wf : GatherDims.WF S262144 S4000000x1 S4000000 [] [0] [] [0] [] 1 ![1]
  dot_S262144x5_S5x64_S262144x64_1_0_0_1_n_n_wf : DotDims.WF S262144x5 S5x64 S262144x64 [1] [0] [0] [1] [] []
  gather_S262144x5_S4000000x1_S4000000x5_1_0_n_n_0_1_15_wf : GatherDims.WF S262144x5 S4000000x1 S4000000x5 [1] [0] [] [0] [] 1 ![1, 5]
  scatter_S262144x5_S4000000x1_S4000000x5_1_0_0_1_wf : ScatterDims.WF S262144x5 S4000000x1 S4000000x5 [1] [0] [0] 1
  gather_S262144x64_S2000000x1_S2000000x64_1_0_n_n_0_1_164_wf : GatherDims.WF S262144x64 S2000000x1 S2000000x64 [1] [0] [] [0] [] 1 ![1, 64]
  scatter_S262144x64_S2000000x1_S2000000x64_1_0_0_1_wf : ScatterDims.WF S262144x64 S2000000x1 S2000000x64 [1] [0] [0] 1
  dot_S262144x64_S64x64_S262144x64_1_0_0_1_n_n_wf : DotDims.WF S262144x64 S64x64 S262144x64 [1] [0] [0] [1] [] []
  dot_S262144x6_S6x64_S262144x64_1_0_0_1_n_n_wf : DotDims.WF S262144x6 S6x64 S262144x64 [1] [0] [0] [1] [] []
  scatter_S262144_S2000000x1_S2000000_n_0_0_1_wf : ScatterDims.WF S262144 S2000000x1 S2000000 [] [0] [0] 1
  gather_S262144_S2000000x1_S2000000_n_0_n_n_0_1_1_wf : GatherDims.WF S262144 S2000000x1 S2000000 [] [0] [] [0] [] 1 ![1]
  dot_S262144x64_S64x8_S262144x8_1_0_0_1_n_n_wf : DotDims.WF S262144x64 S64x8 S262144x8 [1] [0] [0] [1] [] []

variable [Facts₀]

def scatter_S262144_S4000000x1_S4000000_n_0_0_1 : ScatterDims S262144 S4000000x1 S4000000 where
  updateWindowDims := []
  insertedWindowDims := [0]
  scatterDimsToOperandDims := [0]
  indexVectorDim := 1
  wf := scatter_S262144_S4000000x1_S4000000_n_0_0_1_wf
def gather_S262144_S4000000x1_S4000000_n_0_n_n_0_1_1 : GatherDims S262144 S4000000x1 S4000000 where
  offsetDims := []
  collapsedSliceDims := [0]
  operandBatchingDims := []
  startIndicesBatchingDims := []
  startIndexMap := [0]
  indexVectorDim := 1
  sliceSizes := ![1]
  wf := gather_S262144_S4000000x1_S4000000_n_0_n_n_0_1_1_wf
def dot_S262144x5_S5x64_S262144x64_1_0_0_1_n_n : DotDims S262144x5 S5x64 S262144x64 where
  lhsContracting := [1]
  rhsContracting := [0]
  lhsNonContracting := [0]
  rhsNonContracting := [1]
  lhsBatch := []
  rhsBatch := []
  wf := dot_S262144x5_S5x64_S262144x64_1_0_0_1_n_n_wf
def gather_S262144x5_S4000000x1_S4000000x5_1_0_n_n_0_1_15 : GatherDims S262144x5 S4000000x1 S4000000x5 where
  offsetDims := [1]
  collapsedSliceDims := [0]
  operandBatchingDims := []
  startIndicesBatchingDims := []
  startIndexMap := [0]
  indexVectorDim := 1
  sliceSizes := ![1, 5]
  wf := gather_S262144x5_S4000000x1_S4000000x5_1_0_n_n_0_1_15_wf
def scatter_S262144x5_S4000000x1_S4000000x5_1_0_0_1 : ScatterDims S262144x5 S4000000x1 S4000000x5 where
  updateWindowDims := [1]
  insertedWindowDims := [0]
  scatterDimsToOperandDims := [0]
  indexVectorDim := 1
  wf := scatter_S262144x5_S4000000x1_S4000000x5_1_0_0_1_wf
def gather_S262144x64_S2000000x1_S2000000x64_1_0_n_n_0_1_164 : GatherDims S262144x64 S2000000x1 S2000000x64 where
  offsetDims := [1]
  collapsedSliceDims := [0]
  operandBatchingDims := []
  startIndicesBatchingDims := []
  startIndexMap := [0]
  indexVectorDim := 1
  sliceSizes := ![1, 64]
  wf := gather_S262144x64_S2000000x1_S2000000x64_1_0_n_n_0_1_164_wf
def scatter_S262144x64_S2000000x1_S2000000x64_1_0_0_1 : ScatterDims S262144x64 S2000000x1 S2000000x64 where
  updateWindowDims := [1]
  insertedWindowDims := [0]
  scatterDimsToOperandDims := [0]
  indexVectorDim := 1
  wf := scatter_S262144x64_S2000000x1_S2000000x64_1_0_0_1_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x6_S6x64_S262144x64_1_0_0_1_n_n : DotDims S262144x6 S6x64 S262144x64 where
  lhsContracting := [1]
  rhsContracting := [0]
  lhsNonContracting := [0]
  rhsNonContracting := [1]
  lhsBatch := []
  rhsBatch := []
  wf := dot_S262144x6_S6x64_S262144x64_1_0_0_1_n_n_wf
def scatter_S262144_S2000000x1_S2000000_n_0_0_1 : ScatterDims S262144 S2000000x1 S2000000 where
  updateWindowDims := []
  insertedWindowDims := [0]
  scatterDimsToOperandDims := [0]
  indexVectorDim := 1
  wf := scatter_S262144_S2000000x1_S2000000_n_0_0_1_wf
def gather_S262144_S2000000x1_S2000000_n_0_n_n_0_1_1 : GatherDims S262144 S2000000x1 S2000000 where
  offsetDims := []
  collapsedSliceDims := [0]
  operandBatchingDims := []
  startIndicesBatchingDims := []
  startIndexMap := [0]
  indexVectorDim := 1
  sliceSizes := ![1]
  wf := gather_S262144_S2000000x1_S2000000_n_0_n_n_0_1_1_wf
def dot_S262144x64_S64x8_S262144x8_1_0_0_1_n_n : DotDims S262144x64 S64x8 S262144x8 where
  lhsContracting := [1]
  rhsContracting := [0]
  lhsNonContracting := [0]
  rhsNonContracting := [1]
  lhsBatch := []
  rhsBatch := []
  wf := dot_S262144x64_S64x8_S262144x8_1_0_0_1_n_n_wf

class Facts : Prop extends Facts₀ where

variable [Facts]
-- ==== Proof.KRun.lean ====
/-
  The idealized kernel program's run, with its result named.

  Every weakly fair execution of the program from a memory with zero counters terminates without a fault, the result
  array ends at the contents the last boundary of the program's fold holds for it — the three regions' write-backs and
  the host stretches between them composed from the launch memory — and every argument array ends as launched. The
  run itself is the launch of the program's ten segments (seven host stretches and three regions); what is added to the
  frame statement is only that the result buffer, like every unscoped buffer, is read off the last thread state.
-/
import proofs.«142313_j62955630624977_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read off the last boundary's contents, the arguments as launched. -/
theorem run_result : θ_run defs (onTc (τ := τ) (main (F := F))) ⟨m, fun _ => 0, ρ⟩ (fun r => ∀ c : Dev nD,
      r.2.mem ((c.tc : Thread nD τ).loc main_v184) = W10 m ρ c (Proc.devRef .tc main_v184)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v184 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.KRun

end
-- ==== Proof.LibRowVector.lean ====
/-
  A vector made into a one-row matrix, two ways.

  Reshaping a vector of length n to a 1×n matrix and broadcasting it into a 1×n matrix along the second axis are the
  same array: both hold the vector's entry j at the position (0, j).
-/
import Idealize.ShloMosaic.Lib.Pipeline.Value
import Idealize.ShloMosaic.Lib.ValueIdx

noncomputable section

namespace Cert.LibRowVector

open Idealize.ShloMosaic Idealize.ShloMosaic.ValueIdx

variable {n : Nat} {α : Type}

/-- The reshape of a vector to one row is its broadcast to one row. -/
theorem reshape_eq_broadcast (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext j
  rw [shapeCast_addUnit_apply ![n] x h j]
  refine (broadcastInDim_apply (![1] : Fin 1 → Fin 2) h' x j (fun a => j a.succ) (fun a => ?_)).symm
  match a with
  | ⟨0, _⟩ =>
    show (j 1).val = if n = 1 then 0 else (j 1).val
    split
    · have hlt : (j 1).val < n := (j 1).isLt
      omega
    · rfl

end Cert.LibRowVector

end
-- ==== Proof.KTRefs.lean ====
/-
  The buffers of the two outlined selections carry their values unchanged.

  The kernel program's two `where` selections are printed as module-local functions whose operations read and write
  their buffers through a transport along the equation between a buffer's declared type and the value's type. For
  each of these buffers the two types are the same, so the transport is the identity in both directions.
-/
import proofs.«142313_j62955630624977_2_alg».proof.KernelIdeal
import Idealize.ShloMosaic.Lib.StableHlo
import Idealize.ShloMosaic.PureOps.Ideal

set_option maxRecDepth 16384

noncomputable section

namespace Cert.Bridge

open Cert.KernelIdeal
open Idealize.ShloMosaic Idealize.ShloMosaic.StableHlo

variable {F : FTy → Type} [FloatOps F]

theorem toBuf_main_cst_3 (p1 : main_cst_3.ty = (⟨S_, .f32⟩ : BufTy)) (p2 : main_cst_3.space ≠ .host) (p3 : main_cst_3.isScoped = false)
    (v : (⟨S_, .f32⟩ : BufTy).Contents (Elt F)) : (TRef.of main_cst_3 p1 p2 p3 : TRef sig ⟨S_, .f32⟩).toBuf v = v := rfl
theorem ofBuf_main_cst_3 (p1 : main_cst_3.ty = (⟨S_, .f32⟩ : BufTy)) (p2 : main_cst_3.space ≠ .host) (p3 : main_cst_3.isScoped = false)
    (v : (⟨S_, .f32⟩ : BufTy).Contents (Elt F)) : (TRef.of main_cst_3 p1 p2 p3 : TRef sig ⟨S_, .f32⟩).ofBuf v = v := rfl

theorem toBuf_main_call0_v0 (p1 : main_call0_v0.ty = (⟨S_, .f32⟩ : BufTy)) (p2 : main_call0_v0.space ≠ .host) (p3 : main_call0_v0.isScoped = false)
    (v : (⟨S_, .f32⟩ : BufTy).Contents (Elt F)) : (TRef.of main_call0_v0 p1 p2 p3 : TRef sig ⟨S_, .f32⟩).toBuf v = v := rfl
theorem ofBuf_main_call0_v0 (p1 : main_call0_v0.ty = (⟨S_, .f32⟩ : BufTy)) (p2 : main_call0_v0.space ≠ .host) (p3 : main_call0_v0.isScoped = false)
    (v : (⟨S_, .f32⟩ : BufTy).Contents (Elt F)) : (TRef.of main_call0_v0 p1 p2 p3 : TRef sig ⟨S_, .f32⟩).ofBuf v = v := rfl

theorem toBuf_main_call0_v1 (p1 : main_call0_v1.ty = (⟨S262144, .f32⟩ : BufTy)) (p2 : main_call0_v1.space ≠ .host) (p3 : main_call0_v1.isScoped = false)
    (v : (⟨S262144, .f32⟩ : BufTy).Contents (Elt F)) : (TRef.of main_call0_v1 p1 p2 p3 : TRef sig ⟨S262144, .f32⟩).toBuf v = v := rfl
theorem ofBuf_main_call0_v1 (p1 : main_call0_v1.ty = (⟨S262144, .f32⟩ : BufTy)) (p2 : main_call0_v1.space ≠ .host) (p3 : main_call0_v1.isScoped = false)
    (v : (⟨S262144, .f32⟩ : BufTy).Contents (Elt F)) : (TRef.of main_call0_v1 p1 p2 p3 : TRef sig ⟨S262144, .f32⟩).ofBuf v = v := rfl

theorem toBuf_main_v9 (p1 : main_v9.ty = (⟨S262144, .i1⟩ : BufTy)) (p2 : main_v9.space ≠ .host) (p3 : main_v9.isScoped = false)
    (v : (⟨S262144, .i1⟩ : BufTy).Contents (Elt F)) : (TRef.of main_v9 p1 p2 p3 : TRef sig ⟨S262144, .i1⟩).toBuf v = v := rfl
theorem ofBuf_main_v9 (p1 : main_v9.ty = (⟨S262144, .i1⟩ : BufTy)) (p2 : main_v9.space ≠ .host) (p3 : main_v9.isScoped = false)
    (v : (⟨S262144, .i1⟩ : BufTy).Contents (Elt F)) : (TRef.of main_v9 p1 p2 p3 : TRef sig ⟨S262144, .i1⟩).ofBuf v = v := rfl

theorem toBuf_main_v12 (p1 : main_v12.ty = (⟨S262144, .f32⟩ : BufTy)) (p2 : main_v12.space ≠ .host) (p3 : main_v12.isScoped = false)
    (v : (⟨S262144, .f32⟩ : BufTy).Contents (Elt F)) : (TRef.of main_v12 p1 p2 p3 : TRef sig ⟨S262144, .f32⟩).toBuf v = v := rfl
theorem ofBuf_main_v12 (p1 : main_v12.ty = (⟨S262144, .f32⟩ : BufTy)) (p2 : main_v12.space ≠ .host) (p3 : main_v12.isScoped = false)
    (v : (⟨S262144, .f32⟩ : BufTy).Contents (Elt F)) : (TRef.of main_v12 p1 p2 p3 : TRef sig ⟨S262144, .f32⟩).ofBuf v = v := rfl

theorem toBuf_main_v13 (p1 : main_v13.ty = (⟨S262144, .f32⟩ : BufTy)) (p2 : main_v13.space ≠ .host) (p3 : main_v13.isScoped = false)
    (v : (⟨S262144, .f32⟩ : BufTy).Contents (Elt F)) : (TRef.of main_v13 p1 p2 p3 : TRef sig ⟨S262144, .f32⟩).toBuf v = v := rfl
theorem ofBuf_main_v13 (p1 : main_v13.ty = (⟨S262144, .f32⟩ : BufTy)) (p2 : main_v13.space ≠ .host) (p3 : main_v13.isScoped = false)
    (v : (⟨S262144, .f32⟩ : BufTy).Contents (Elt F)) : (TRef.of main_v13 p1 p2 p3 : TRef sig ⟨S262144, .f32⟩).ofBuf v = v := rfl

theorem toBuf_main_cst_26 (p1 : main_cst_26.ty = (⟨S_, .f32⟩ : BufTy)) (p2 : main_cst_26.space ≠ .host) (p3 : main_cst_26.isScoped = false)
    (v : (⟨S_, .f32⟩ : BufTy).Contents (Elt F)) : (TRef.of main_cst_26 p1 p2 p3 : TRef sig ⟨S_, .f32⟩).toBuf v = v := rfl
theorem ofBuf_main_cst_26 (p1 : main_cst_26.ty = (⟨S_, .f32⟩ : BufTy)) (p2 : main_cst_26.space ≠ .host) (p3 : main_cst_26.isScoped = false)
    (v : (⟨S_, .f32⟩ : BufTy).Contents (Elt F)) : (TRef.of main_cst_26 p1 p2 p3 : TRef sig ⟨S_, .f32⟩).ofBuf v = v := rfl

theorem toBuf_main_call1_v0 (p1 : main_call1_v0.ty = (⟨S_, .f32⟩ : BufTy)) (p2 : main_call1_v0.space ≠ .host) (p3 : main_call1_v0.isScoped = false)
    (v : (⟨S_, .f32⟩ : BufTy).Contents (Elt F)) : (TRef.of main_call1_v0 p1 p2 p3 : TRef sig ⟨S_, .f32⟩).toBuf v = v := rfl
theorem ofBuf_main_call1_v0 (p1 : main_call1_v0.ty = (⟨S_, .f32⟩ : BufTy)) (p2 : main_call1_v0.space ≠ .host) (p3 : main_call1_v0.isScoped = false)
    (v : (⟨S_, .f32⟩ : BufTy).Contents (Elt F)) : (TRef.of main_call1_v0 p1 p2 p3 : TRef sig ⟨S_, .f32⟩).ofBuf v = v := rfl

theorem toBuf_main_call1_v1 (p1 : main_call1_v1.ty = (⟨S262144, .f32⟩ : BufTy)) (p2 : main_call1_v1.space ≠ .host) (p3 : main_call1_v1.isScoped = false)
    (v : (⟨S262144, .f32⟩ : BufTy).Contents (Elt F)) : (TRef.of main_call1_v1 p1 p2 p3 : TRef sig ⟨S262144, .f32⟩).toBuf v = v := rfl
theorem ofBuf_main_call1_v1 (p1 : main_call1_v1.ty = (⟨S262144, .f32⟩ : BufTy)) (p2 : main_call1_v1.space ≠ .host) (p3 : main_call1_v1.isScoped = false)
    (v : (⟨S262144, .f32⟩ : BufTy).Contents (Elt F)) : (TRef.of main_call1_v1 p1 p2 p3 : TRef sig ⟨S262144, .f32⟩).ofBuf v = v := rfl

theorem toBuf_main_v116 (p1 : main_v116.ty = (⟨S262144, .i1⟩ : BufTy)) (p2 : main_v116.space ≠ .host) (p3 : main_v116.isScoped = false)
    (v : (⟨S262144, .i1⟩ : BufTy).Contents (Elt F)) : (TRef.of main_v116 p1 p2 p3 : TRef sig ⟨S262144, .i1⟩).toBuf v = v := rfl
theorem ofBuf_main_v116 (p1 : main_v116.ty = (⟨S262144, .i1⟩ : BufTy)) (p2 : main_v116.space ≠ .host) (p3 : main_v116.isScoped = false)
    (v : (⟨S262144, .i1⟩ : BufTy).Contents (Elt F)) : (TRef.of main_v116 p1 p2 p3 : TRef sig ⟨S262144, .i1⟩).ofBuf v = v := rfl

theorem toBuf_main_v119 (p1 : main_v119.ty = (⟨S262144, .f32⟩ : BufTy)) (p2 : main_v119.space ≠ .host) (p3 : main_v119.isScoped = false)
    (v : (⟨S262144, .f32⟩ : BufTy).Contents (Elt F)) : (TRef.of main_v119 p1 p2 p3 : TRef sig ⟨S262144, .f32⟩).toBuf v = v := rfl
theorem ofBuf_main_v119 (p1 : main_v119.ty = (⟨S262144, .f32⟩ : BufTy)) (p2 : main_v119.space ≠ .host) (p3 : main_v119.isScoped = false)
    (v : (⟨S262144, .f32⟩ : BufTy).Contents (Elt F)) : (TRef.of main_v119 p1 p2 p3 : TRef sig ⟨S262144, .f32⟩).ofBuf v = v := rfl

theorem toBuf_main_v120 (p1 : main_v120.ty = (⟨S262144, .f32⟩ : BufTy)) (p2 : main_v120.space ≠ .host) (p3 : main_v120.isScoped = false)
    (v : (⟨S262144, .f32⟩ : BufTy).Contents (Elt F)) : (TRef.of main_v120 p1 p2 p3 : TRef sig ⟨S262144, .f32⟩).toBuf v = v := rfl
theorem ofBuf_main_v120 (p1 : main_v120.ty = (⟨S262144, .f32⟩ : BufTy)) (p2 : main_v120.space ≠ .host) (p3 : main_v120.isScoped = false)
    (v : (⟨S262144, .f32⟩ : BufTy).Contents (Elt F)) : (TRef.of main_v120 p1 p2 p3 : TRef sig ⟨S262144, .f32⟩).ofBuf v = v := rfl

end Cert.Bridge

end
-- ==== Proof.Bridge0.lean ====
/-
  The first region's operands, as the reference's stages of the launch arrays.

  Before the first region the kernel program computes, on the host, the vertex degrees of the game graph, the
  symmetric normalisation of its edges and two normalised neighbourhood sums of the game features (one hop and two
  hops), and slices the three weight matrices out of their stack. The reference program computes the same arrays by
  the same operations, so each operand of the region is, term for term, a stage of the reference's read-back applied
  to the same launch arrays. The computation is read one host stretch at a time, from any contents the stretch may
  start from: the edge endpoints and the degree terms; the selection of the inverse square root where the degree is
  positive; the normalisation and the two hops. The bias row is the one exception in spelling: the kernel program
  reshapes the bias vector to one row where the reference broadcasts it to one row, which is the same array.
-/
import proofs.«142313_j62955630624977_2_alg».proof.Proof.Gen.KernelIdeal.Frame
import proofs.«142313_j62955630624977_2_alg».proof.Proof.ReadPatched
import proofs.«142313_j62955630624977_2_alg».proof.Proof.LibRowVector
import proofs.«142313_j62955630624977_2_alg».proof.Proof.KTRefs
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

open Cert.ReferenceIdeal.Read

section Stretches

variable (V : Valuation τ sig (Elt Ideal)) (x2 : (⟨S2x4000000, .i32⟩ : BufTy).Contents (Elt Ideal)) (x0 : (⟨S262144x5, .f32⟩ : BufTy).Contents (Elt Ideal)) (x7 : (⟨S3x5x64, .f32⟩ : BufTy).Contents (Elt Ideal)) (x8 : (⟨S64, .f32⟩ : BufTy).Contents (Elt Ideal))

/-! ## The first stretch: edge endpoints, degrees, and the two branches of the selection -/

theorem s0_v1 (h : V (Proc.devRef .tc main_arg2) = x2) : StableHlo.after hostOps0 V (Proc.devRef .tc main_v1) = val_main_v1 (F := Ideal) x2 := by
  after_results_simp; rw [h]; rfl
theorem s0_v3 (h : V (Proc.devRef .tc main_arg2) = x2) : StableHlo.after hostOps0 V (Proc.devRef .tc main_v3) = val_main_v3 (F := Ideal) x2 := by
  after_results_simp; rw [h]; rfl
theorem s0_v9 (h : V (Proc.devRef .tc main_arg2) = x2) : StableHlo.after hostOps0 V (Proc.devRef .tc main_v9) = val_main_v9 (F := Ideal) x2 := by
  after_results_simp; rw [h]; rfl
theorem s0_v12 (h : V (Proc.devRef .tc main_arg2) = x2) : StableHlo.after hostOps0 V (Proc.devRef .tc main_v12) = val_main_v12 (F := Ideal) x2 := by
  after_results_simp; rw [h]; rfl
theorem s0_cst3 : StableHlo.after hostOps0 V (Proc.devRef .tc main_cst_3) = val_main_cst_3 (F := Ideal) := by
  after_results_simp; rfl

/-! ## The second stretch: the inverse square root of the degree where it is positive, zero elsewhere -/

theorem s1_keep_v1 : StableHlo.after hostOps0_1 V (Proc.devRef .tc main_v1) = V (Proc.devRef .tc main_v1) := by after_results_simp
theorem s1_keep_v3 : StableHlo.after hostOps0_1 V (Proc.devRef .tc main_v3) = V (Proc.devRef .tc main_v3) := by after_results_simp

theorem s1_v13 (h9 : V (Proc.devRef .tc main_v9) = val_main_v9 (F := Ideal) x2) (h12 : V (Proc.devRef .tc main_v12) = val_main_v12 (F := Ideal) x2)
    (hc : V (Proc.devRef .tc main_cst_3) = val_main_cst_3 (F := Ideal)) :
    StableHlo.after hostOps0_1 V (Proc.devRef .tc main_v13) = val_main_v13 (F := Ideal) x2 := by
  after_results_simp
  rw [h9, h12, hc]
  unfold val_main_v13 val_main_call0_v1 val_main_call0_v0
  generalize val_main_v9 (F := Ideal) x2 = a9
  generalize val_main_v12 (F := Ideal) x2 = a12
  generalize val_main_cst_3 (F := Ideal) = a3
  rw [toBuf_main_v13, ofBuf_main_v9, ofBuf_main_v12, ofBuf_main_call0_v1, toBuf_main_call0_v1, ofBuf_main_call0_v0,
    toBuf_main_call0_v0, ofBuf_main_cst_3]

/-! ## The third stretch: the edge normalisation, the two hops, the weights and the bias -/

theorem s2_v41 (h1 : V (Proc.devRef .tc main_v1) = val_main_v1 (F := Ideal) x2) (h3 : V (Proc.devRef .tc main_v3) = val_main_v3 (F := Ideal) x2)
    (h13 : V (Proc.devRef .tc main_v13) = val_main_v13 (F := Ideal) x2) (h0 : V (Proc.devRef .tc main_arg0) = x0) :
    StableHlo.after hostOps0_2 V (Proc.devRef .tc main_v41) = val_main_v44 (F := Ideal) x0 x2 := by
  after_results_simp
  rw [h1, h3, h13, h0]
  rfl

theorem s2_v53 (h1 : V (Proc.devRef .tc main_v1) = val_main_v1 (F := Ideal) x2) (h3 : V (Proc.devRef .tc main_v3) = val_main_v3 (F := Ideal) x2)
    (h13 : V (Proc.devRef .tc main_v13) = val_main_v13 (F := Ideal) x2) (h0 : V (Proc.devRef .tc main_arg0) = x0) :
    StableHlo.after hostOps0_2 V (Proc.devRef .tc main_v53) = val_main_v60 (F := Ideal) x0 x2 := by
  after_results_simp
  rw [h1, h3, h13, h0]
  rfl

theorem s2_v55 (h7 : V (Proc.devRef .tc main_arg7) = x7) : StableHlo.after hostOps0_2 V (Proc.devRef .tc main_v55) = val_main_v31 (F := Ideal) x7 := by
  after_results_simp; rw [h7]; rfl
theorem s2_v57 (h7 : V (Proc.devRef .tc main_arg7) = x7) : StableHlo.after hostOps0_2 V (Proc.devRef .tc main_v57) = val_main_v46 (F := Ideal) x7 := by
  after_results_simp; rw [h7]; rfl
theorem s2_v59 (h7 : V (Proc.devRef .tc main_arg7) = x7) : StableHlo.after hostOps0_2 V (Proc.devRef .tc main_v59) = val_main_v62 (F := Ideal) x7 := by
  after_results_simp; rw [h7]; rfl
theorem s2_v60 (h8 : V (Proc.devRef .tc main_arg8) = x8) : StableHlo.after hostOps0_2 V (Proc.devRef .tc main_v60) = val_main_v65 (F := Ideal) x8 := by
  after_results_simp; rw [h8]
  unfold val_main_v65
  exact Cert.LibRowVector.reshape_eq_broadcast _ _ _

end Stretches

/-! ## The contents the stretches start from -/

theorem W2_arg0 : W2 m ρ c (Proc.devRef .tc main_arg0) = (m ((c : Thread nD τ).loc main_arg0)) := by
  show StableHlo.after hostOps0_1 (StableHlo.after hostOps0 (W0 m ρ c)) (Proc.devRef .tc main_arg0) = _
  after_results_simp
theorem W2_arg2 : W2 m ρ c (Proc.devRef .tc main_arg2) = (m ((c : Thread nD τ).loc main_arg2)) := by
  show StableHlo.after hostOps0_1 (StableHlo.after hostOps0 (W0 m ρ c)) (Proc.devRef .tc main_arg2) = _
  after_results_simp
theorem W2_arg7 : W2 m ρ c (Proc.devRef .tc main_arg7) = (m ((c : Thread nD τ).loc main_arg7)) := by
  show StableHlo.after hostOps0_1 (StableHlo.after hostOps0 (W0 m ρ c)) (Proc.devRef .tc main_arg7) = _
  after_results_simp
theorem W2_arg8 : W2 m ρ c (Proc.devRef .tc main_arg8) = (m ((c : Thread nD τ).loc main_arg8)) := by
  show StableHlo.after hostOps0_1 (StableHlo.after hostOps0 (W0 m ρ c)) (Proc.devRef .tc main_arg8) = _
  after_results_simp

theorem W1_v1 : W1 m ρ c (Proc.devRef .tc main_v1) = val_main_v1 (F := Ideal) (m ((c : Thread nD τ).loc main_arg2)) := s0_v1 (W0 m ρ c) _ rfl
theorem W1_v3 : W1 m ρ c (Proc.devRef .tc main_v3) = val_main_v3 (F := Ideal) (m ((c : Thread nD τ).loc main_arg2)) := s0_v3 (W0 m ρ c) _ rfl
theorem W1_v9 : W1 m ρ c (Proc.devRef .tc main_v9) = val_main_v9 (F := Ideal) (m ((c : Thread nD τ).loc main_arg2)) := s0_v9 (W0 m ρ c) _ rfl
theorem W1_v12 : W1 m ρ c (Proc.devRef .tc main_v12) = val_main_v12 (F := Ideal) (m ((c : Thread nD τ).loc main_arg2)) := s0_v12 (W0 m ρ c) _ rfl
theorem W1_cst3 : W1 m ρ c (Proc.devRef .tc main_cst_3) = val_main_cst_3 (F := Ideal) := s0_cst3 (W0 m ρ c)
theorem W2_v1 : W2 m ρ c (Proc.devRef .tc main_v1) = val_main_v1 (F := Ideal) (m ((c : Thread nD τ).loc main_arg2)) := (s1_keep_v1 (W1 m ρ c)).trans (W1_v1 m ρ c)
theorem W2_v3 : W2 m ρ c (Proc.devRef .tc main_v3) = val_main_v3 (F := Ideal) (m ((c : Thread nD τ).loc main_arg2)) := (s1_keep_v3 (W1 m ρ c)).trans (W1_v3 m ρ c)
theorem W2_v13 : W2 m ρ c (Proc.devRef .tc main_v13) = val_main_v13 (F := Ideal) (m ((c : Thread nD τ).loc main_arg2)) :=
  s1_v13 (W1 m ρ c) _ (W1_v9 m ρ c) (W1_v12 m ρ c) (W1_cst3 m ρ c)

/-! ## The region's operands -/

/-- The one-hop normalised neighbourhood sum of the game features. -/
theorem in0_1 : V3 m ρ c main_v41 = val_main_v44 (F := Ideal) (m ((c : Thread nD τ).loc main_arg0)) (m ((c : Thread nD τ).loc main_arg2)) :=
  s2_v41 (W2 m ρ c) _ _ (W2_v1 m ρ c) (W2_v3 m ρ c) (W2_v13 m ρ c) (W2_arg0 m ρ c)
/-- The two-hop normalised neighbourhood sum of the game features. -/
theorem in0_2 : V3 m ρ c main_v53 = val_main_v60 (F := Ideal) (m ((c : Thread nD τ).loc main_arg0)) (m ((c : Thread nD τ).loc main_arg2)) :=
  s2_v53 (W2 m ρ c) _ _ (W2_v1 m ρ c) (W2_v3 m ρ c) (W2_v13 m ρ c) (W2_arg0 m ρ c)
/-- The first weight matrix of the stack. -/
theorem in0_3 : V3 m ρ c main_v55 = val_main_v31 (F := Ideal) (m ((c : Thread nD τ).loc main_arg7)) := s2_v55 (W2 m ρ c) _ (W2_arg7 m ρ c)
/-- The second weight matrix of the stack. -/
theorem in0_4 : V3 m ρ c main_v57 = val_main_v46 (F := Ideal) (m ((c : Thread nD τ).loc main_arg7)) := s2_v57 (W2 m ρ c) _ (W2_arg7 m ρ c)
/-- The third weight matrix of the stack. -/
theorem in0_5 : V3 m ρ c main_v59 = val_main_v62 (F := Ideal) (m ((c : Thread nD τ).loc main_arg7)) := s2_v59 (W2 m ρ c) _ (W2_arg7 m ρ c)
/-- The bias as one row. -/
theorem in0_6 : V3 m ρ c main_v60 = val_main_v65 (F := Ideal) (m ((c : Thread nD τ).loc main_arg8)) := s2_v60 (W2 m ρ c) _ (W2_arg8 m ρ c)

end Cert.Bridge

end
-- ==== Proof.KArgs.lean ====
/-
  The launch arrays read through the kernel program's fold.

  No host operation and no region of the kernel program writes one of its argument arrays, so at every boundary of
  the program's fold — the entry and exit of each region and the end of each host stretch — the buffer of an argument
  still holds its launch contents. A region either does not touch the array at all, or reads it through an input
  window, whose array the write-backs leave as entered.
-/
import proofs.«142313_j62955630624977_2_alg».proof.Proof.Gen.KernelIdeal.Frame
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry: through the three host stretches before it -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem W3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

theorem W3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp

theorem W3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp

theorem W3_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results_simp

theorem W3_arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results_simp

theorem W3_arg13 : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  after_results_simp

theorem W3_arg14 : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results_simp

theorem W3_arg15 : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results_simp

theorem W3_arg16 : W3 m ρ c (Proc.devRef .tc main_arg16) = m ((c : Thread nD τ).loc main_arg16) := by
  show StableHlo.after hostOps0_2 (StableHlo.after hostOps0_1 (StableHlo.after hostOps0 (W0 m ρ c))) (Proc.devRef .tc main_arg16) = _
  after_results_simp

theorem W3_arg17 : W3 m ρ c (Proc.devRef .tc main_arg17) = m ((c : Thread nD τ).loc main_arg17) := by
  show StableHlo.after hostOps0_2 (StableHlo.after hostOps0_1 (StableHlo.after hostOps0 (W0 m ρ c))) (Proc.devRef .tc main_arg17) = _
  after_results_simp

theorem W3_arg18 : W3 m ρ c (Proc.devRef .tc main_arg18) = m ((c : Thread nD τ).loc main_arg18) := by
  show StableHlo.after hostOps0_2 (StableHlo.after hostOps0_1 (StableHlo.after hostOps0 (W0 m ρ c))) (Proc.devRef .tc main_arg18) = _
  after_results_simp

/-! ## At the first region's exit: the region writes only its output window's array -/

theorem W4_arg1 : W4 m ρ c (Proc.devRef .tc main_arg1) = m ((c : Thread nD τ).loc main_arg1) :=
  (W4_of_ne m ρ c main_arg1 (by decide)).trans (W3_arg1 m ρ c)

theorem W4_arg3 : W4 m ρ c (Proc.devRef .tc main_arg3) = m ((c : Thread nD τ).loc main_arg3) :=
  (W4_of_ne m ρ c main_arg3 (by decide)).trans (W3_arg3 m ρ c)

theorem W4_arg4 : W4 m ρ c (Proc.devRef .tc main_arg4) = m ((c : Thread nD τ).loc main_arg4) :=
  (W4_of_ne m ρ c main_arg4 (by decide)).trans (W3_arg4 m ρ c)

theorem W4_arg5 : W4 m ρ c (Proc.devRef .tc main_arg5) = m ((c : Thread nD τ).loc main_arg5) :=
  (W4_of_ne m ρ c main_arg5 (by decide)).trans (W3_arg5 m ρ c)

theorem W4_arg6 : W4 m ρ c (Proc.devRef .tc main_arg6) = m ((c : Thread nD τ).loc main_arg6) :=
  (W4_of_ne m ρ c main_arg6 (by decide)).trans (W3_arg6 m ρ c)

theorem W4_arg9 : W4 m ρ c (Proc.devRef .tc main_arg9) = m ((c : Thread nD τ).loc main_arg9) :=
  (W4_of_ne m ρ c main_arg9 (by decide)).trans (W3_arg9 m ρ c)

theorem W4_arg10 : W4 m ρ c (Proc.devRef .tc main_arg10) = m ((c : Thread nD τ).loc main_arg10) :=
  (W4_of_ne m ρ c main_arg10 (by decide)).trans (W3_arg10 m ρ c)

theorem W4_arg11 : W4 m ρ c (Proc.devRef .tc main_arg11) = m ((c : Thread nD τ).loc main_arg11) :=
  (W4_of_ne m ρ c main_arg11 (by decide)).trans (W3_arg11 m ρ c)

theorem W4_arg12 : W4 m ρ c (Proc.devRef .tc main_arg12) = m ((c : Thread nD τ).loc main_arg12) :=
  (W4_of_ne m ρ c main_arg12 (by decide)).trans (W3_arg12 m ρ c)

theorem W4_arg13 : W4 m ρ c (Proc.devRef .tc main_arg13) = m ((c : Thread nD τ).loc main_arg13) :=
  (W4_of_ne m ρ c main_arg13 (by decide)).trans (W3_arg13 m ρ c)

theorem W4_arg14 : W4 m ρ c (Proc.devRef .tc main_arg14) = m ((c : Thread nD τ).loc main_arg14) :=
  (W4_of_ne m ρ c main_arg14 (by decide)).trans (W3_arg14 m ρ c)

theorem W4_arg15 : W4 m ρ c (Proc.devRef .tc main_arg15) = m ((c : Thread nD τ).loc main_arg15) :=
  (W4_of_ne m ρ c main_arg15 (by decide)).trans (W3_arg15 m ρ c)

theorem W4_arg16 : W4 m ρ c (Proc.devRef .tc main_arg16) = m ((c : Thread nD τ).loc main_arg16) :=
  (W4_of_ne m ρ c main_arg16 (by decide)).trans (W3_arg16 m ρ c)

theorem W4_arg17 : W4 m ρ c (Proc.devRef .tc main_arg17) = m ((c : Thread nD τ).loc main_arg17) :=
  (W4_of_ne m ρ c main_arg17 (by decide)).trans (W3_arg17 m ρ c)

theorem W4_arg18 : W4 m ρ c (Proc.devRef .tc main_arg18) = m ((c : Thread nD τ).loc main_arg18) :=
  (W4_of_ne m ρ c main_arg18 (by decide)).trans (W3_arg18 m ρ c)

/-! ## At the second region's entry: through the host stretch between the first two regions -/

theorem W5_arg1 : W5 m ρ c (Proc.devRef .tc main_arg1) = m ((c : Thread nD τ).loc main_arg1) := by
  show StableHlo.after hostOps1 (W4 m ρ c) (Proc.devRef .tc main_arg1) = _
  after_results_simp
  exact W4_arg1 m ρ c

theorem W5_arg11 : W5 m ρ c (Proc.devRef .tc main_arg11) = m ((c : Thread nD τ).loc main_arg11) := by
  show StableHlo.after hostOps1 (W4 m ρ c) (Proc.devRef .tc main_arg11) = _
  after_results_simp
  exact W4_arg11 m ρ c

theorem W5_arg13 : W5 m ρ c (Proc.devRef .tc main_arg13) = m ((c : Thread nD τ).loc main_arg13) := by
  show StableHlo.after hostOps1 (W4 m ρ c) (Proc.devRef .tc main_arg13) = _
  after_results_simp
  exact W4_arg13 m ρ c

theorem W5_arg14 : W5 m ρ c (Proc.devRef .tc main_arg14) = m ((c : Thread nD τ).loc main_arg14) := by
  show StableHlo.after hostOps1 (W4 m ρ c) (Proc.devRef .tc main_arg14) = _
  after_results_simp
  exact W4_arg14 m ρ c

theorem W5_arg16 : W5 m ρ c (Proc.devRef .tc main_arg16) = m ((c : Thread nD τ).loc main_arg16) := by
  show StableHlo.after hostOps1 (W4 m ρ c) (Proc.devRef .tc main_arg16) = _
  after_results_simp
  exact W4_arg16 m ρ c

theorem W5_arg5 : W5 m ρ c (Proc.devRef .tc main_arg5) = m ((c : Thread nD τ).loc main_arg5) := by
  show StableHlo.after hostOps1 (W4 m ρ c) (Proc.devRef .tc main_arg5) = _
  after_results_simp
  exact W4_arg5 m ρ c

theorem W5_arg9 : W5 m ρ c (Proc.devRef .tc main_arg9) = m ((c : Thread nD τ).loc main_arg9) := by
  show StableHlo.after hostOps1 (W4 m ρ c) (Proc.devRef .tc main_arg9) = _
  after_results_simp
  exact W4_arg9 m ρ c

theorem W5_arg10 : W5 m ρ c (Proc.devRef .tc main_arg10) = m ((c : Thread nD τ).loc main_arg10) := by
  show StableHlo.after hostOps1 (W4 m ρ c) (Proc.devRef .tc main_arg10) = _
  after_results_simp
  exact W4_arg10 m ρ c

theorem W5_arg17 : W5 m ρ c (Proc.devRef .tc main_arg17) = m ((c : Thread nD τ).loc main_arg17) := by
  show StableHlo.after hostOps1 (W4 m ρ c) (Proc.devRef .tc main_arg17) = _
  after_results_simp
  exact W4_arg17 m ρ c

theorem W5_arg18 : W5 m ρ c (Proc.devRef .tc main_arg18) = m ((c : Thread nD τ).loc main_arg18) := by
  show StableHlo.after hostOps1 (W4 m ρ c) (Proc.devRef .tc main_arg18) = _
  after_results_simp
  exact W4_arg18 m ρ c

/-! ## At the second region's exit -/

theorem W6_arg5 : W6 m ρ c (Proc.devRef .tc main_arg5) = m ((c : Thread nD τ).loc main_arg5) :=
  (W6_of_ne m ρ c main_arg5 (by decide)).trans (W5_arg5 m ρ c)

theorem W6_arg9 : W6 m ρ c (Proc.devRef .tc main_arg9) = m ((c : Thread nD τ).loc main_arg9) :=
  (W6_of_ne m ρ c main_arg9 (by decide)).trans (W5_arg9 m ρ c)

theorem W6_arg10 : W6 m ρ c (Proc.devRef .tc main_arg10) = m ((c : Thread nD τ).loc main_arg10) :=
  (W6_of_ne m ρ c main_arg10 (by decide)).trans (W5_arg10 m ρ c)

theorem W6_arg17 : W6 m ρ c (Proc.devRef .tc main_arg17) = m ((c : Thread nD τ).loc main_arg17) :=
  (W6_of_ne m ρ c main_arg17 (by decide)).trans (W5_arg17 m ρ c)

theorem W6_arg18 : W6 m ρ c (Proc.devRef .tc main_arg18) = m ((c : Thread nD τ).loc main_arg18) :=
  (W6_of_ne m ρ c main_arg18 (by decide)).trans (W5_arg18 m ρ c)

/-! ## At the third region's entry: through the three host stretches between the last two regions -/

theorem W9_arg17 : W9 m ρ c (Proc.devRef .tc main_arg17) = m ((c : Thread nD τ).loc main_arg17) := by
  show StableHlo.after hostOps2_2 (StableHlo.after hostOps2_1 (StableHlo.after hostOps2 (W6 m ρ c))) (Proc.devRef .tc main_arg17) = _
  after_results_simp
  exact W6_arg17 m ρ c

end Cert.Bridge

end
-- ==== Proof.Spec.lean ====
/-
  The three dense stages of the network as functions of whole arrays, entry by entry, on the extended reals.

  Each stage takes arrays with M rows (M is the number of graph vertices for a whole array, and the number of rows of a
  tile for one block) and full weight matrices, and produces an array with M rows; row r of the result depends only on
  row r of each row-indexed operand. A product of an M×K array with a K×N matrix is the textbook sum over k : Fin K.

  * `tagOne`  : the first topology-adaptive convolution's dense part, positive part of
                 ((h0·W0 + h1·W1) + h2·W2) + b.
  * `stateBC` : the bipartite graph convolution followed by the mean-aggregating one,
                 s1 = positive part of ((agg·Wrel + brel) + xs·Wroot), result = positive part of ((mean·Wl + bl) + s1·Wr).
  * `tagTwoLin`: the second topology-adaptive convolution's dense part followed by the output layer,
                 t = positive part of ((((h0·W0 + h1·W1) + h2·W2) + h3·W3) + b), result = t·L + lb.
-/
import Idealize.ShloMosaic.PureOps.Ideal
import Idealize.ShloMosaic.Lib.ValueIdx

noncomputable section

open scoped BigOperators

namespace Cert.Spec

open Idealize.ShloMosaic Idealize.ShloMosaic.ValueIdx

variable {M : Nat}

/-- An extended-real array of a rank-2 shape. -/
abbrev Arr2 (a b : Nat) : Type := (⟨2, ![a, b]⟩ : Shape).Idx → EReal

/-- The entry (r, j) of the product of an M×K array with a K×N matrix. -/
def mm {K N : Nat} (x : Arr2 M K) (w : Arr2 K N) (r : Fin M) (j : Fin N) : EReal :=
  ∑ k : Fin K, x (ix2 r k) * w (ix2 k j)

/-- The first convolution's dense part at the entry (r, j). -/
def tagOneAt (h0 h1 h2 : Arr2 M 5) (w0 w1 w2 : Arr2 5 64) (b : Arr2 1 64) (r : Fin M) (j : Fin 64) : EReal :=
  max ((((mm h0 w0 r j) + (mm h1 w1 r j)) + (mm h2 w2 r j)) + b (ix2 (0 : Fin 1) j)) 0

/-- The first convolution's dense part as an array. -/
def tagOne (h0 h1 h2 : Arr2 M 5) (w0 w1 w2 : Arr2 5 64) (b : Arr2 1 64) : Arr2 M 64 :=
  fun i => tagOneAt h0 h1 h2 w0 w1 w2 b (i 0) (i 1)

theorem tagOne_apply (h0 h1 h2 : Arr2 M 5) (w0 w1 w2 : Arr2 5 64) (b : Arr2 1 64) (r : Fin M) (j : Fin 64) :
    tagOne h0 h1 h2 w0 w1 w2 b (ix2 r j) = tagOneAt h0 h1 h2 w0 w1 w2 b r j := rfl

/-- The graph convolution's dense part at the entry (r, k): the intermediate state features. -/
def stateOneAt (agg : Arr2 M 64) (xs : Arr2 M 6) (wrel : Arr2 64 64) (brel : Arr2 1 64) (wroot : Arr2 6 64)
    (r : Fin M) (k : Fin 64) : EReal :=
  max (((mm agg wrel r k) + brel (ix2 (0 : Fin 1) k)) + (mm xs wroot r k)) 0

/-- The intermediate state features as an array. -/
def stateOne (agg : Arr2 M 64) (xs : Arr2 M 6) (wrel : Arr2 64 64) (brel : Arr2 1 64) (wroot : Arr2 6 64) : Arr2 M 64 :=
  fun i => stateOneAt agg xs wrel brel wroot (i 0) (i 1)

theorem stateOne_apply (agg : Arr2 M 64) (xs : Arr2 M 6) (wrel : Arr2 64 64) (brel : Arr2 1 64) (wroot : Arr2 6 64)
    (r : Fin M) (k : Fin 64) : stateOne agg xs wrel brel wroot (ix2 r k) = stateOneAt agg xs wrel brel wroot r k := rfl

/-- The fused graph-convolution and mean-aggregation dense parts at the entry (r, j). -/
def stateBCAt (agg : Arr2 M 64) (xs : Arr2 M 6) (mean : Arr2 M 64) (wrel : Arr2 64 64) (brel : Arr2 1 64)
    (wroot : Arr2 6 64) (wl : Arr2 64 64) (bl : Arr2 1 64) (wr : Arr2 64 64) (r : Fin M) (j : Fin 64) : EReal :=
  max (((mm mean wl r j) + bl (ix2 (0 : Fin 1) j)) + (mm (stateOne agg xs wrel brel wroot) wr r j)) 0

/-- The fused stage as an array. -/
def stateBC (agg : Arr2 M 64) (xs : Arr2 M 6) (mean : Arr2 M 64) (wrel : Arr2 64 64) (brel : Arr2 1 64)
    (wroot : Arr2 6 64) (wl : Arr2 64 64) (bl : Arr2 1 64) (wr : Arr2 64 64) : Arr2 M 64 :=
  fun i => stateBCAt agg xs mean wrel brel wroot wl bl wr (i 0) (i 1)

theorem stateBC_apply (agg : Arr2 M 64) (xs : Arr2 M 6) (mean : Arr2 M 64) (wrel : Arr2 64 64) (brel : Arr2 1 64)
    (wroot : Arr2 6 64) (wl : Arr2 64 64) (bl : Arr2 1 64) (wr : Arr2 64 64) (r : Fin M) (j : Fin 64) :
    stateBC agg xs mean wrel brel wroot wl bl wr (ix2 r j) = stateBCAt agg xs mean wrel brel wroot wl bl wr r j := rfl

/-- The second convolution's dense part at the entry (r, k). -/
def tagTwoAt (h0 h1 h2 h3 : Arr2 M 64) (w0 w1 w2 w3 : Arr2 64 64) (b : Arr2 1 64) (r : Fin M) (k : Fin 64) : EReal :=
  max (((((mm h0 w0 r k) + (mm h1 w1 r k)) + (mm h2 w2 r k)) + (mm h3 w3 r k)) + b (ix2 (0 : Fin 1) k)) 0

/-- The second convolution's dense part as an array. -/
def tagTwo (h0 h1 h2 h3 : Arr2 M 64) (w0 w1 w2 w3 : Arr2 64 64) (b : Arr2 1 64) : Arr2 M 64 :=
  fun i => tagTwoAt h0 h1 h2 h3 w0 w1 w2 w3 b (i 0) (i 1)

theorem tagTwo_apply (h0 h1 h2 h3 : Arr2 M 64) (w0 w1 w2 w3 : Arr2 64 64) (b : Arr2 1 64) (r : Fin M) (k : Fin 64) :
    tagTwo h0 h1 h2 h3 w0 w1 w2 w3 b (ix2 r k) = tagTwoAt h0 h1 h2 h3 w0 w1 w2 w3 b r k := rfl

/-- The second convolution's dense part followed by the output layer, at the entry (r, j). -/
def tagTwoLinAt (h0 h1 h2 h3 : Arr2 M 64) (w0 w1 w2 w3 : Arr2 64 64) (b : Arr2 1 64) (lw : Arr2 64 8) (lb : Arr2 1 8)
    (r : Fin M) (j : Fin 8) : EReal :=
  (mm (tagTwo h0 h1 h2 h3 w0 w1 w2 w3 b) lw r j) + lb (ix2 (0 : Fin 1) j)

/-- That stage as an array. -/
def tagTwoLin (h0 h1 h2 h3 : Arr2 M 64) (w0 w1 w2 w3 : Arr2 64 64) (b : Arr2 1 64) (lw : Arr2 64 8) (lb : Arr2 1 8) :
    Arr2 M 8 :=
  fun i => tagTwoLinAt h0 h1 h2 h3 w0 w1 w2 w3 b lw lb (i 0) (i 1)

theorem tagTwoLin_apply (h0 h1 h2 h3 : Arr2 M 64) (w0 w1 w2 w3 : Arr2 64 64) (b : Arr2 1 64) (lw : Arr2 64 8)
    (lb : Arr2 1 8) (r : Fin M) (j : Fin 8) :
    tagTwoLin h0 h1 h2 h3 w0 w1 w2 w3 b lw lb (ix2 r j) = tagTwoLinAt h0 h1 h2 h3 w0 w1 w2 w3 b lw lb r j := rfl

end Cert.Spec

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«142313_j62955630624977_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.RegVal0.lean ====
/-
  The first dense stage on the kernel side: after its region has run, the region's result array is `Cert.Spec.tagOne`
  of the seven arrays the region found, for any contents `V` the region is entered with.

  The region walks 64 row tiles of 4096 rows each. At tile t the body reads rows 4096·t … 4096·t + 4095 of the three
  row-indexed operands, the three 5×64 matrices and the one-row bias whole, and stores the positive part of
  ((x0·W0 + x1·W1) + x2·W2) + b, each product the sum over the five columns. Row r of a tile's result reads only row r
  of the tile's operands, which is row 4096·t + r of the arrays; so what point t writes back is tile t of ONE function
  of the whole arrays, and the 64 tiles cover all 262144 rows.
-/
import proofs.«142313_j62955630624977_2_alg».proof.Proof.Gen.KernelIdeal.Frame
import proofs.«142313_j62955630624977_2_alg».proof.Proof.Spec
import proofs.«142313_j62955630624977_2_alg».proof.Proof.LibMatmulNN
import proofs.«142313_j62955630624977_2_alg».proof.Proof.LibAffineBlock
import Idealize.ShloMosaic.Lib.Pipeline.Value
import Idealize.ShloMosaic.Lib.ValueLayout

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero word of the 32-bit format is the extended real zero. -/
theorem ofBits_zero : (FloatOps.ofBits (F := Ideal) FTy.f32 0x00000000#32) = (0 : EReal) := Ideal.ofBits_zero_f32

/-- The two zero offsets, however spelt. -/
theorem hz : (![0, 0] : Fin 2 → Nat) = fun _ => 0 := funext fun a => by fin_cases a <;> rfl

/-! ## The body's arithmetic at an entry -/

/-- The body's one stored value at the entry (r, j) of a tile: the positive part of the three products' sum plus the
    bias, each product the textbook sum over the five input features. -/
theorem pay0_apply (x0 x1 x2 : Vec Ideal S4096x5 .f32) (x3 x4 x5 : Vec Ideal S5x64 .f32) (x6 : Vec Ideal S1x64 .f32)
    (r : Fin 4096) (j : Fin 64) :
    k0_pay1 (F := Ideal) x0 x1 x2 x3 x4 x5 x6 (ix2 r j) = Cert.Spec.tagOneAt (M := 4096) x0 x1 x2 x3 x4 x5 x6 r j := by
  unfold k0_pay1
  simp only [shapeCast_self]
  rw [truncf_apply, maximumf_apply, broadcast_apply, addf_apply, broadcastTo_1b_ab_apply, addf_apply, addf_apply,
    Cert.LibMatmulNN.matmul_zero_apply' dot_S4096x5_S5x64_S4096x64_1_0_0_1_n_n rfl rfl rfl rfl rfl rfl,
    Cert.LibMatmulNN.matmul_zero_apply' dot_S4096x5_S5x64_S4096x64_1_0_0_1_n_n rfl rfl rfl rfl rfl rfl,
    Cert.LibMatmulNN.matmul_zero_apply' dot_S4096x5_S5x64_S4096x64_1_0_0_1_n_n rfl rfl rfl rfl rfl rfl,
    ofBits_zero]
  rfl

/-- What the body leaves in the output tile, at the entry (r, j): the one store covers the tile from offset zero and
    every load reads a whole tile. -/
theorem out0_7_apply (x0 x1 x2 : Vec Ideal S4096x5 .f32) (x3 x4 x5 : Vec Ideal S5x64 .f32) (x6 : Vec Ideal S1x64 .f32)
    (r : Fin 4096) (j : Fin 64) :
    out0_7 (F := Ideal) x0 x1 x2 x3 x4 x5 x6 (ix2 r j) = Cert.Spec.tagOneAt (M := 4096) x0 x1 x2 x3 x4 x5 x6 r j := by
  unfold out0_7
  rw [View.canon_unit_zero hz]
  simp only [View.ld_unit_zero (S := S4096x5) hz, View.ld_unit_zero (S := S5x64) hz, View.ld_unit_zero (S := S1x64) hz]
  exact pay0_apply x0 x1 x2 x3 x4 x5 x6 r j

/-- Row r of the result depends only on row r of the three row-indexed operands: two triples of arrays that agree on
    one row each give the same entry there. -/
theorem tagOneAt_rows {M M' : Nat} (h0 h1 h2 : Cert.Spec.Arr2 M 5) (g0 g1 g2 : Cert.Spec.Arr2 M' 5)
    (w0 w1 w2 : Cert.Spec.Arr2 5 64) (b : Cert.Spec.Arr2 1 64) (r : Fin M) (R : Fin M') (j : Fin 64)
    (e0 : ∀ k : Fin 5, h0 (ix2 r k) = g0 (ix2 R k)) (e1 : ∀ k : Fin 5, h1 (ix2 r k) = g1 (ix2 R k))
    (e2 : ∀ k : Fin 5, h2 (ix2 r k) = g2 (ix2 R k)) :
    Cert.Spec.tagOneAt h0 h1 h2 w0 w1 w2 b r j = Cert.Spec.tagOneAt g0 g1 g2 w0 w1 w2 b R j := by
  unfold Cert.Spec.tagOneAt Cert.Spec.mm
  simp only [e0, e1, e2]

/-! ## The windows' blocks over the grid -/

/-- The printed index maps over the 64 grid points: a row-tiled window's block index is (t, 0), a whole-matrix
    window's is (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Window 0's tile at point t is rows 4096·t … 4096·t + 4095 of its array. -/
theorem iblk0_0_apply (c : Dev nD) (t : Fin cfg0.N) (r : Fin 4096) (k : Fin 5) (R : Fin 262144)
    (hR : R.val = t.val * 4096 + r.val) :
    (iblk0 V c 0 t : S4096x5.Idx → EReal) (ix2 r k) = (V c (Pipeline.arrRef spec0 0) : S262144x5.Idx → EReal) (ix2 R k) := by
  unfold iblk0
  rw [View.read_apply]
  show (V c (Pipeline.arrRef spec0 0) : S262144x5.Idx → EReal) _ = _
  congr 1
  funext a
  apply Fin.ext
  have hi := (idx0 t).1
  match a with
  | ⟨0, _⟩ => show win0_0.index t (0 : Fin 2) * 4096 + 1 * r.val = R.val; rw [hi.1, hR]; omega
  | ⟨1, _⟩ => show win0_0.index t (1 : Fin 2) * 5 + 1 * k.val = k.val; rw [hi.2]; omega

/-- Window 1's tile at point t is rows 4096·t … 4096·t + 4095 of its array. -/
theorem iblk0_1_apply (c : Dev nD) (t : Fin cfg0.N) (r : Fin 4096) (k : Fin 5) (R : Fin 262144)
    (hR : R.val = t.val * 4096 + r.val) :
    (iblk0 V c 1 t : S4096x5.Idx → EReal) (ix2 r k) = (V c (Pipeline.arrRef spec0 1) : S262144x5.Idx → EReal) (ix2 R k) := by
  unfold iblk0
  rw [View.read_apply]
  show (V c (Pipeline.arrRef spec0 1) : S262144x5.Idx → EReal) _ = _
  congr 1
  funext a
  apply Fin.ext
  have hi := (idx0 t).2.1
  match a with
  | ⟨0, _⟩ => show win0_1.index t (0 : Fin 2) * 4096 + 1 * r.val = R.val; rw [hi.1, hR]; omega
  | ⟨1, _⟩ => show win0_1.index t (1 : Fin 2) * 5 + 1 * k.val = k.val; rw [hi.2]; omega

/-- Window 2's tile at point t is rows 4096·t … 4096·t + 4095 of its array. -/
theorem iblk0_2_apply (c : Dev nD) (t : Fin cfg0.N) (r : Fin 4096) (k : Fin 5) (R : Fin 262144)
    (hR : R.val = t.val * 4096 + r.val) :
    (iblk0 V c 2 t : S4096x5.Idx → EReal) (ix2 r k) = (V c (Pipeline.arrRef spec0 2) : S262144x5.Idx → EReal) (ix2 R k) := by
  unfold iblk0
  rw [View.read_apply]
  show (V c (Pipeline.arrRef spec0 2) : S262144x5.Idx → EReal) _ = _
  congr 1
  funext a
  apply Fin.ext
  have hi := (idx0 t).2.2.1
  match a with
  | ⟨0, _⟩ => show win0_2.index t (0 : Fin 2) * 4096 + 1 * r.val = R.val; rw [hi.1, hR]; omega
  | ⟨1, _⟩ => show win0_2.index t (1 : Fin 2) * 5 + 1 * k.val = k.val; rw [hi.2]; omega

/-- Window 3's block is its whole array at every point. -/
theorem iblk0_3_eq (c : Dev nD) (t : Fin cfg0.N) :
    (iblk0 V c 3 t : S5x64.Idx → EReal) = (V c (Pipeline.arrRef spec0 3) : S5x64.Idx → EReal) := by
  funext y
  unfold iblk0
  rw [View.read_apply]
  show (V c (Pipeline.arrRef spec0 3) : S5x64.Idx → EReal) _ = _
  congr 1
  funext a
  apply Fin.ext
  have hi := (idx0 t).2.2.2.1
  match a with
  | ⟨0, _⟩ => show win0_3.index t (0 : Fin 2) * 5 + 1 * (y 0).val = (y 0).val; rw [hi.1]; omega
  | ⟨1, _⟩ => show win0_3.index t (1 : Fin 2) * 64 + 1 * (y 1).val = (y 1).val; rw [hi.2]; omega

/-- Window 4's block is its whole array at every point. -/
theorem iblk0_4_eq (c : Dev nD) (t : Fin cfg0.N) :
    (iblk0 V c 4 t : S5x64.Idx → EReal) = (V c (Pipeline.arrRef spec0 4) : S5x64.Idx → EReal) := by
  funext y
  unfold iblk0
  rw [View.read_apply]
  show (V c (Pipeline.arrRef spec0 4) : S5x64.Idx → EReal) _ = _
  congr 1
  funext a
  apply Fin.ext
  have hi := (idx0 t).2.2.2.2.1
  match a with
  | ⟨0, _⟩ => show win0_4.index t (0 : Fin 2) * 5 + 1 * (y 0).val = (y 0).val; rw [hi.1]; omega
  | ⟨1, _⟩ => show win0_4.index t (1 : Fin 2) * 64 + 1 * (y 1).val = (y 1).val; rw [hi.2]; omega

/-- Window 5's block is its whole array at every point. -/
theorem iblk0_5_eq (c : Dev nD) (t : Fin cfg0.N) :
    (iblk0 V c 5 t : S5x64.Idx → EReal) = (V c (Pipeline.arrRef spec0 5) : S5x64.Idx → EReal) := by
  funext y
  unfold iblk0
  rw [View.read_apply]
  show (V c (Pipeline.arrRef spec0 5) : S5x64.Idx → EReal) _ = _
  congr 1
  funext a
  apply Fin.ext
  have hi := (idx0 t).2.2.2.2.2.1
  match a with
  | ⟨0, _⟩ => show win0_5.index t (0 : Fin 2) * 5 + 1 * (y 0).val = (y 0).val; rw [hi.1]; omega
  | ⟨1, _⟩ => show win0_5.index t (1 : Fin 2) * 64 + 1 * (y 1).val = (y 1).val; rw [hi.2]; omega

/-- Window 6's block is its whole array at every point. -/
theorem iblk0_6_eq (c : Dev nD) (t : Fin cfg0.N) :
    (iblk0 V c 6 t : S1x64.Idx → EReal) = (V c (Pipeline.arrRef spec0 6) : S1x64.Idx → EReal) := by
  funext y
  unfold iblk0
  rw [View.read_apply]
  show (V c (Pipeline.arrRef spec0 6) : S1x64.Idx → EReal) _ = _
  congr 1
  funext a
  apply Fin.ext
  have hi := (idx0 t).2.2.2.2.2.2.1
  match a with
  | ⟨0, _⟩ => show win0_6.index t (0 : Fin 2) * 1 + 1 * (y 0).val = (y 0).val; rw [hi.1]; omega
  | ⟨1, _⟩ => show win0_6.index t (1 : Fin 2) * 64 + 1 * (y 1).val = (y 1).val; rw [hi.2]; omega

/-! ## From tiles to the array -/

/-- The output tile's entry (r, j) at point t sits at row 4096·t + r of the array. -/
theorem emb0_7 (t : Fin cfg0.N) (r : Fin 4096) (j : Fin 64) (R : Fin 262144) (hR : R.val = t.val * 4096 + r.val) :
    ((cfg0.win 7).blk t).view.emb (ix2 r j) = (ix2 R j : S262144x64.Idx) := by
  funext a
  apply Fin.ext
  have hi := (idx0 t).2.2.2.2.2.2.2
  match a with
  | ⟨0, _⟩ => show win0_7.index t (0 : Fin 2) * 4096 + 1 * r.val = R.val; rw [hi.1, hR]; omega
  | ⟨1, _⟩ => show win0_7.index t (1 : Fin 2) * 64 + 1 * j.val = j.val; rw [hi.2]; omega

/-- The whole result array: the stage's function of the seven arrays the region finds. -/
abbrev G0 (c : Dev nD) : S262144x64.Idx → EReal :=
  Cert.Spec.tagOne (M := 262144) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (V c (Pipeline.arrRef spec0 6))

/-- What point t writes back is tile t of the whole result array: the body's value at (r, j) of the tile is the
    stage's value at row 4096·t + r, because that row of the result reads only that row of the operands. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  refine funext fun (y : S4096x64.Idx) => ?_
  obtain ⟨r, j, rfl⟩ : ∃ (r : Fin 4096) (j : Fin 64), y = ix2 r j := ⟨y 0, y 1, eq_ix2 y⟩
  have ht : t.val < 64 := lt_of_lt_of_eq t.isLt (N_0 : cfg0.N = 64)
  have hr := r.isLt
  obtain ⟨R, hR⟩ : ∃ R : Fin 262144, R.val = t.val * 4096 + r.val := ⟨⟨t.val * 4096 + r.val, by omega⟩, rfl⟩
  show out0_7 (iblk0 V c 0 t) (iblk0 V c 1 t) (iblk0 V c 2 t) (iblk0 V c 3 t) (iblk0 V c 4 t) (iblk0 V c 5 t) (iblk0 V c 6 t) (ix2 r j)
    = G0 V c (((cfg0.win 7).blk t).view.emb (ix2 r j))
  rw [emb0_7 t r j R hR]
  refine (out0_7_apply (iblk0 V c 0 t) (iblk0 V c 1 t) (iblk0 V c 2 t) (iblk0 V c 3 t) (iblk0 V c 4 t) (iblk0 V c 5 t) (iblk0 V c 6 t) r j).trans ?_
  rw [iblk0_3_eq V c t, iblk0_4_eq V c t, iblk0_5_eq V c t, iblk0_6_eq V c t]
  exact tagOneAt_rows _ _ _ _ _ _ _ _ _ _ r R j (fun k => iblk0_0_apply V c t r k R hR) (fun k => iblk0_1_apply V c t r k R hR)
    (fun k => iblk0_2_apply V c t r k R hR)

/-- An index of the result array is in point t's tile iff each coordinate is in the tile's range on its axis. -/
theorem mem_blk0 (t : Fin cfg0.N) (i : S262144x64.Idx) :
    i ∈ ((cfg0.win 7).blk t).view.set ↔ ∀ a : Fin 2, win0_7.index t a * S4096x64.size a ≤ (i a).val ∧ (i a).val < win0_7.index t a * S4096x64.size a + S4096x64.size a := by
  show i ∈ ((View.whole main_v61).slice (win0_7.rect t)).set ↔ _
  rw [View.set_slice_whole, Rect.mem_set_unit]
  exact Iff.rfl

/-- Every row is in some tile: row R is in tile R / 4096. -/
theorem cover0 (i : S262144x64.Idx) : ∃ t : Fin cfg0.N, (cfg0.win 7).flush t = true ∧ i ∈ ((cfg0.win 7).blk t).view.set := by
  have hi0 : (i 0).val < 262144 := (i 0).isLt
  have hi1 : (i 1).val < 64 := (i 1).isLt
  have hN : cfg0.N = 64 := N_0
  obtain ⟨t, ht⟩ : ∃ t : Fin cfg0.N, t.val = (i 0).val / 4096 := ⟨⟨(i 0).val / 4096, by rw [hN]; omega⟩, rfl⟩
  refine ⟨t, flush0_7 t, ?_⟩
  rw [mem_blk0]
  have hi := (idx0 t).2.2.2.2.2.2.2
  intro a
  match a with
  | ⟨0, _⟩ => show win0_7.index t (0 : Fin 2) * 4096 ≤ (i 0).val ∧ (i 0).val < win0_7.index t (0 : Fin 2) * 4096 + 4096; rw [hi.1, ht]; omega
  | ⟨1, _⟩ => show win0_7.index t (1 : Fin 2) * 64 ≤ (i 1).val ∧ (i 1).val < win0_7.index t (1 : Fin 2) * 64 + 64; rw [hi.2]; omega

/-- THE RESULT ARRAY after the region: entry by entry the positive part of ((h0·W0 + h1·W1) + h2·W2) + b of the seven
    arrays the region finds. -/
theorem final0 (c : Dev nD) : (dat0 (F := Ideal) V c).arrAt 7 cfg0.N
    = Cert.Spec.tagOne (M := 262144) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6)) :=
  (dat0 V c).arrAt_eq_of_cover 7 (G0 V c) (fun t _ => flushed0_eq V c t) cover0

end Cert.KernelIdeal.RegVal

end
-- ==== Proof.RefDense0.lean ====
/-
  The reference's first dense stage is the specification's first stage.

  The generated read-back gives the reference's value after its first positive part as a chain of operations: three
  host matrix products of a 262144×5 array with a 5×64 matrix, added left to right, plus a one-row bias broadcast over
  the rows, then the maximum with a broadcast zero. Read at the entry (r, j), each product is the sum over k of the left
  operand at (r, k) times the right operand at (k, j), the bias is the row's entry (0, j), and the maximum with the zero
  word is the positive part: the same expression, in the same association, that the specification writes.
-/
import proofs.«142313_j62955630624977_2_alg».proof.Proof.ReadPatched
import proofs.«142313_j62955630624977_2_alg».proof.Proof.Spec

noncomputable section

open scoped BigOperators

namespace Cert.ReferenceIdeal.RefDense

open Cert.ReferenceIdeal Cert.ReferenceIdeal.Gen Cert.ReferenceIdeal.Read Idealize.ShloMosaic
  Idealize.ShloMosaic.ValueIdx

/-! The index functions of the read-back at the entry (r, j), written with the coordinate constructors. -/

theorem lidx32 (r : Fin 262144) (j : Fin 64) (k : Fin 5) : lidx_main_v32 (ix2 r j) k = ix2 r k :=
  funext fun a => by match a with | ⟨0, _⟩ => rfl | ⟨1, _⟩ => rfl

theorem ridx32 (r : Fin 262144) (j : Fin 64) (k : Fin 5) : ridx_main_v32 (ix2 r j) k = ix2 k j :=
  funext fun a => by match a with | ⟨0, _⟩ => rfl | ⟨1, _⟩ => rfl

theorem lidx47 (r : Fin 262144) (j : Fin 64) (k : Fin 5) : lidx_main_v47 (ix2 r j) k = ix2 r k :=
  funext fun a => by match a with | ⟨0, _⟩ => rfl | ⟨1, _⟩ => rfl

theorem ridx47 (r : Fin 262144) (j : Fin 64) (k : Fin 5) : ridx_main_v47 (ix2 r j) k = ix2 k j :=
  funext fun a => by match a with | ⟨0, _⟩ => rfl | ⟨1, _⟩ => rfl

theorem lidx63 (r : Fin 262144) (j : Fin 64) (k : Fin 5) : lidx_main_v63 (ix2 r j) k = ix2 r k :=
  funext fun a => by match a with | ⟨0, _⟩ => rfl | ⟨1, _⟩ => rfl

theorem ridx63 (r : Fin 262144) (j : Fin 64) (k : Fin 5) : ridx_main_v63 (ix2 r j) k = ix2 k j :=
  funext fun a => by match a with | ⟨0, _⟩ => rfl | ⟨1, _⟩ => rfl

theorem bidx66 (r : Fin 262144) (j : Fin 64) : idx_main_v66 (ix2 r j) = ix2 (0 : Fin 1) j :=
  funext fun a => by match a with | ⟨0, _⟩ => rfl | ⟨1, _⟩ => rfl

/-- The reference's value after the first positive part is the specification's first stage of the vertex features, the
    two hop results, the three weight slices and the bias row. -/
theorem v68_eq (x0 : (⟨S262144x5, .f32⟩ : BufTy).Contents (Elt Ideal))
    (x2 : (⟨S2x4000000, .i32⟩ : BufTy).Contents (Elt Ideal))
    (x7 : (⟨S3x5x64, .f32⟩ : BufTy).Contents (Elt Ideal))
    (x8 : (⟨S64, .f32⟩ : BufTy).Contents (Elt Ideal)) :
    val_main_v68 (F := Ideal) x0 x2 x7 x8
      = Cert.Spec.tagOne (M := 262144) x0 (val_main_v44 x0 x2) (val_main_v60 x0 x2) (val_main_v31 x7) (val_main_v46 x7)
          (val_main_v62 x7) (val_main_v65 x8) := by
  funext i
  obtain ⟨r, j, rfl⟩ : ∃ (r : Fin 262144) (j : Fin 64), i = ix2 r j := ⟨i 0, i 1, eq_ix2 i⟩
  rw [val_main_v68_apply, val_main_v67_apply, val_main_v64_apply, val_main_v48_apply, val_main_v32_apply,
    val_main_v47_apply, val_main_v63_apply, val_main_v66_apply, val_main_call1_v0_apply, val_main_call1_cst_apply,
    Cert.Spec.tagOne_apply]
  generalize val_main_v44 (F := Ideal) x0 x2 = h1
  generalize val_main_v60 (F := Ideal) x0 x2 = h2
  generalize val_main_v31 (F := Ideal) x7 = w0
  generalize val_main_v46 (F := Ideal) x7 = w1
  generalize val_main_v62 (F := Ideal) x7 = w2
  generalize val_main_v65 (F := Ideal) x8 = b
  simp only [lidx32, ridx32, lidx47, ridx47, lidx63, ridx63, bidx66, Ideal.addf_def, Ideal.maximumf_def,
    Ideal.ofBits_def, Ideal.ofBits_zero_f32, Cert.Spec.tagOneAt, Cert.Spec.mm]

end Cert.ReferenceIdeal.RefDense

end
-- ==== Proof.Stage0.lean ====
/-
  The game features after the first region, as the reference's stage.

  The first region writes, tile by tile, the positive part of the three products' sum plus the bias; over the whole
  array that is the specification's first dense stage of the region's operands, which are the reference's stages of
  the launch arrays; and the reference's own game features are the same dense stage of the same operands.
-/
import proofs.«142313_j62955630624977_2_alg».proof.Proof.Bridge0
import proofs.«142313_j62955630624977_2_alg».proof.Proof.KArgs
import proofs.«142313_j62955630624977_2_alg».proof.Proof.RegVal0
import proofs.«142313_j62955630624977_2_alg».proof.Proof.RefDense0
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The first region's output array is the reference's game features. -/
theorem gameX : W4 m ρ c (Proc.devRef .tc main_v61)
    = Cert.ReferenceIdeal.Read.val_main_v68 (F := Ideal) (m ((c : Thread nD τ).loc main_arg0)) (m ((c : Thread nD τ).loc main_arg2)) (m ((c : Thread nD τ).loc main_arg7)) (m ((c : Thread nD τ).loc main_arg8)) := by
  refine ((W4_arr m ρ c 7).trans (Cert.KernelIdeal.RegVal.final0 (V3 m ρ) c)).trans ?_
  refine Eq.trans ?_ (Cert.ReferenceIdeal.RefDense.v68_eq (m ((c : Thread nD τ).loc main_arg0)) (m ((c : Thread nD τ).loc main_arg2)) (m ((c : Thread nD τ).loc main_arg7)) (m ((c : Thread nD τ).loc main_arg8))).symm
  show Cert.Spec.tagOne (V3 m ρ c main_arg0) (V3 m ρ c main_v41) (V3 m ρ c main_v53) (V3 m ρ c main_v55) (V3 m ρ c main_v57)
    (V3 m ρ c main_v59) (V3 m ρ c main_v60) = _
  rw [show V3 m ρ c main_arg0 = (m ((c : Thread nD τ).loc main_arg0)) from W3_arg0 m ρ c, in0_1 m ρ c, in0_2 m ρ c, in0_3 m ρ c, in0_4 m ρ c, in0_5 m ρ c, in0_6 m ρ c]

end Cert.Bridge

end
-- ==== Proof.Bridge1.lean ====
/-
  The second region's operands, as the reference's stages of the launch arrays.

  Between the first two regions the kernel program gathers the game features along the history edges, weights them by
  the edge attribute and adds them up per destination vertex, and gathers them along the incoming edges and averages
  them per destination vertex (the sum divided by the larger of the count and one). The reference does the same to its
  own game features, which are the same array; a gathered row read in a narrower float format and widened again is the
  same row at the ideal instance, where a change of format is the identity.
-/
import proofs.«142313_j62955630624977_2_alg».proof.Proof.Stage0
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The weighted sum of the game features over the history edges. -/
theorem in1_0 : V5 m ρ c main_v79
    = Cert.ReferenceIdeal.Read.val_main_v85 (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) := by
  show StableHlo.after hostOps1 (W4 m ρ c) (Proc.devRef .tc main_v79) = _
  after_results_simp
  rw [gameX m ρ c, W4_arg3 m ρ c, W4_arg6 m ρ c]
  rfl

/-- The mean of the game features over the incoming edges. -/
theorem in1_2 : V5 m ρ c main_v103
    = Cert.ReferenceIdeal.Read.val_main_v115 (F := Ideal) (m ((c : Thread nD τ).loc main_arg0)) (m ((c : Thread nD τ).loc main_arg2)) (m ((c : Thread nD τ).loc main_arg4)) (m ((c : Thread nD τ).loc main_arg7)) (m ((c : Thread nD τ).loc main_arg8)) := by
  show StableHlo.after hostOps1 (W4 m ρ c) (Proc.devRef .tc main_v103) = _
  after_results_simp
  rw [gameX m ρ c, W4_arg4 m ρ c]
  rfl

/-- The graph convolution's bias as one row. -/
theorem in1_4 : V5 m ρ c main_v104 = Cert.ReferenceIdeal.Read.val_main_v87 (F := Ideal) (m ((c : Thread nD τ).loc main_arg12)) := by
  show StableHlo.after hostOps1 (W4 m ρ c) (Proc.devRef .tc main_v104) = _
  after_results_simp
  rw [W4_arg12 m ρ c]
  unfold Cert.ReferenceIdeal.Read.val_main_v87
  exact Cert.LibRowVector.reshape_eq_broadcast _ _ _

/-- The mean aggregation's bias as one row. -/
theorem in1_7 : V5 m ρ c main_v105 = Cert.ReferenceIdeal.Read.val_main_v117 (F := Ideal) (m ((c : Thread nD τ).loc main_arg15)) := by
  show StableHlo.after hostOps1 (W4 m ρ c) (Proc.devRef .tc main_v105) = _
  after_results_simp
  rw [W4_arg15 m ρ c]
  unfold Cert.ReferenceIdeal.Read.val_main_v117
  exact Cert.LibRowVector.reshape_eq_broadcast _ _ _

end Cert.Bridge

end
-- ==== Proof.RegVal1.lean ====
/-
  The second dense stage on the kernel side: after its region has run, the region's result array is
  `Cert.Spec.stateBC` of the nine arrays the region found, for any contents `V` the region is entered with.

  The region walks 64 row tiles of 4096 rows each. At tile t the body reads rows 4096·t … 4096·t + 4095 of the three
  row-indexed operands (agg, xs, mean) and the four matrices and two one-row biases whole, forms the first layer
  s = positive part of ((agg·Wrel + brel) + xs·Wroot) and stores the positive part of ((mean·Wl + bl) + s·Wr); every
  product is the sum over the contracted columns. Row r of a tile's result reads only row r of the tile's operands —
  through the first layer too, whose row r reads only row r —, which is row 4096·t + r of the arrays; so what point t
  writes back is tile t of ONE function of the whole arrays, and the 64 tiles cover all 262144 rows.
-/
import proofs.«142313_j62955630624977_2_alg».proof.Proof.Gen.KernelIdeal.Frame
import proofs.«142313_j62955630624977_2_alg».proof.Proof.Spec
import proofs.«142313_j62955630624977_2_alg».proof.Proof.LibMatmulNN
import proofs.«142313_j62955630624977_2_alg».proof.Proof.LibAffineBlock
import Idealize.ShloMosaic.Lib.Pipeline.Value
import Idealize.ShloMosaic.Lib.ValueLayout

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero word of the 32-bit format is the extended real zero. -/
theorem ofBits_zero1 : (FloatOps.ofBits (F := Ideal) FTy.f32 0x00000000#32) = (0 : EReal) := Ideal.ofBits_zero_f32

/-- The two zero offsets, however spelt. -/
theorem hz1 : (![0, 0] : Fin 2 → Nat) = fun _ => 0 := funext fun a => by fin_cases a <;> rfl

/-! ## The body's arithmetic at an entry -/

/-- The body's first layer on a tile: the positive part of ((agg·Wrel + brel) + xs·Wroot). -/
def layer1 (agg : Vec Ideal S4096x64 .f32) (xs : Vec Ideal S4096x6 .f32) (wrel : Vec Ideal S64x64 .f32)
    (wroot : Vec Ideal S6x64 .f32) (brel : Vec Ideal S1x64 .f32) : FVec Ideal S4096x64 .bf16 :=
  truncf .bf16
    (maximumf
      (addf
        (addf
          (matmul dot_S4096x64_S64x64_S4096x64_1_0_0_1_n_n none (truncf .bf16 agg bitsLt_bf16_f32) (truncf .bf16 wrel bitsLt_bf16_f32)
            (constant S4096x64 .f32 0x00000000#32))
          (broadcastTo S4096x64 brel broadcasts_S1x64_S4096x64))
        (matmul dot_S4096x6_S6x64_S4096x64_1_0_0_1_n_n none (truncf .bf16 xs bitsLt_bf16_f32) (truncf .bf16 wroot bitsLt_bf16_f32)
          (constant S4096x64 .f32 0x00000000#32)))
      (broadcast S4096x64 (Scalar.ofBits .f32 0x00000000#32)))
    bitsLt_bf16_f32

/-- The first layer at the entry (r, k) of a tile. -/
theorem layer1_apply (agg : Vec Ideal S4096x64 .f32) (xs : Vec Ideal S4096x6 .f32) (wrel : Vec Ideal S64x64 .f32)
    (wroot : Vec Ideal S6x64 .f32) (brel : Vec Ideal S1x64 .f32) (r : Fin 4096) (k : Fin 64) :
    layer1 agg xs wrel wroot brel (ix2 r k) = Cert.Spec.stateOneAt (M := 4096) agg xs wrel brel wroot r k := by
  unfold layer1
  rw [truncf_apply, maximumf_apply, broadcast_apply, addf_apply, addf_apply, broadcastTo_1b_ab_apply,
    Cert.LibMatmulNN.matmul_zero_apply' dot_S4096x64_S64x64_S4096x64_1_0_0_1_n_n rfl rfl rfl rfl rfl rfl,
    Cert.LibMatmulNN.matmul_zero_apply' dot_S4096x6_S6x64_S4096x64_1_0_0_1_n_n rfl rfl rfl rfl rfl rfl,
    ofBits_zero1]
  rfl

/-- The body's computed value is its second layer over the first. -/
theorem k1_pay2_eq (agg : Vec Ideal S4096x64 .f32) (xs : Vec Ideal S4096x6 .f32) (mean : Vec Ideal S4096x64 .f32)
    (wrel : Vec Ideal S64x64 .f32) (wroot : Vec Ideal S6x64 .f32) (wl wr : Vec Ideal S64x64 .f32)
    (brel bl : Vec Ideal S1x64 .f32) :
    k1_pay2 (F := Ideal) agg xs mean wrel wroot wl wr brel bl
      = maximumf
          (addf
            (addf
              (matmul dot_S4096x64_S64x64_S4096x64_1_0_0_1_n_n none (truncf .bf16 mean bitsLt_bf16_f32) (truncf .bf16 wl bitsLt_bf16_f32)
                (constant S4096x64 .f32 0x00000000#32))
              (broadcastTo S4096x64 bl broadcasts_S1x64_S4096x64))
            (matmul dot_S4096x64_S64x64_S4096x64_1_0_0_1_n_n none (layer1 agg xs wrel wroot brel) (truncf .bf16 wr bitsLt_bf16_f32)
              (constant S4096x64 .f32 0x00000000#32)))
          (broadcast S4096x64 (Scalar.ofBits .f32 0x00000000#32)) := by
  unfold k1_pay2 layer1
  simp only [shapeCast_self]

/-- The body's one stored value at the entry (r, j) of a tile. -/
theorem pay1_apply (agg : Vec Ideal S4096x64 .f32) (xs : Vec Ideal S4096x6 .f32) (mean : Vec Ideal S4096x64 .f32)
    (wrel : Vec Ideal S64x64 .f32) (brel : Vec Ideal S1x64 .f32) (wroot : Vec Ideal S6x64 .f32)
    (wl : Vec Ideal S64x64 .f32) (bl : Vec Ideal S1x64 .f32) (wr : Vec Ideal S64x64 .f32) (r : Fin 4096) (j : Fin 64) :
    k1_pay1 (F := Ideal) (k1_pay2 agg xs mean wrel wroot wl wr brel bl) (ix2 r j)
      = Cert.Spec.stateBCAt (M := 4096) agg xs mean wrel brel wroot wl bl wr r j := by
  unfold k1_pay1
  rw [k1_pay2_eq, truncf_apply, maximumf_apply, broadcast_apply, addf_apply, addf_apply, broadcastTo_1b_ab_apply,
    Cert.LibMatmulNN.matmul_zero_apply' dot_S4096x64_S64x64_S4096x64_1_0_0_1_n_n rfl rfl rfl rfl rfl rfl,
    Cert.LibMatmulNN.matmul_zero_apply' dot_S4096x64_S64x64_S4096x64_1_0_0_1_n_n rfl rfl rfl rfl rfl rfl,
    ofBits_zero1]
  unfold Cert.Spec.stateBCAt Cert.Spec.mm
  simp only [truncf_apply, layer1_apply, Cert.Spec.stateOne_apply]

/-! ## The windows' blocks over the grid -/

/-- The printed index maps over the 64 grid points: a row-tiled window's block index is (t, 0), a whole-matrix
    window's is (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Window 0's tile at point t is rows 4096·t … 4096·t + 4095 of its array. -/
theorem iblk1_0_apply (c : Dev nD) (t : Fin cfg1.N) (r : Fin 4096) (k : Fin 64) (R : Fin 262144)
    (hR : R.val = t.val * 4096 + r.val) :
    (iblk1 V c 0 t : S4096x64.Idx → EReal) (ix2 r k) = (V c (Pipeline.arrRef spec1 0) : S262144x64.Idx → EReal) (ix2 R k) := by
  unfold iblk1
  rw [View.read_apply]
  show (V c (Pipeline.arrRef spec1 0) : S262144x64.Idx → EReal) _ = _
  congr 1
  funext a
  apply Fin.ext
  have hi := (idx1 t).1
  match a with
  | ⟨0, _⟩ => show win1_0.index t (0 : Fin 2) * 4096 + 1 * r.val = R.val; rw [hi.1, hR]; omega
  | ⟨1, _⟩ => show win1_0.index t (1 : Fin 2) * 64 + 1 * k.val = k.val; rw [hi.2]; omega

/-- Window 1's tile at point t is rows 4096·t … 4096·t + 4095 of its array. -/
theorem iblk1_1_apply (c : Dev nD) (t : Fin cfg1.N) (r : Fin 4096) (k : Fin 6) (R : Fin 262144)
    (hR : R.val = t.val * 4096 + r.val) :
    (iblk1 V c 1 t : S4096x6.Idx → EReal) (ix2 r k) = (V c (Pipeline.arrRef spec1 1) : S262144x6.Idx → EReal) (ix2 R k) := by
  unfold iblk1
  rw [View.read_apply]
  show (V c (Pipeline.arrRef spec1 1) : S262144x6.Idx → EReal) _ = _
  congr 1
  funext a
  apply Fin.ext
  have hi := (idx1 t).2.1
  match a with
  | ⟨0, _⟩ => show win1_1.index t (0 : Fin 2) * 4096 + 1 * r.val = R.val; rw [hi.1, hR]; omega
  | ⟨1, _⟩ => show win1_1.index t (1 : Fin 2) * 6 + 1 * k.val = k.val; rw [hi.2]; omega

/-- Window 2's tile at point t is rows 4096·t … 4096·t + 4095 of its array. -/
theorem iblk1_2_apply (c : Dev nD) (t : Fin cfg1.N) (r : Fin 4096) (k : Fin 64) (R : Fin 262144)
    (hR : R.val = t.val * 4096 + r.val) :
    (iblk1 V c 2 t : S4096x64.Idx → EReal) (ix2 r k) = (V c (Pipeline.arrRef spec1 2) : S262144x64.Idx → EReal) (ix2 R k) := by
  unfold iblk1
  rw [View.read_apply]
  show (V c (Pipeline.arrRef spec1 2) : S262144x64.Idx → EReal) _ = _
  congr 1
  funext a
  apply Fin.ext
  have hi := (idx1 t).2.2.1
  match a with
  | ⟨0, _⟩ => show win1_2.index t (0 : Fin 2) * 4096 + 1 * r.val = R.val; rw [hi.1, hR]; omega
  | ⟨1, _⟩ => show win1_2.index t (1 : Fin 2) * 64 + 1 * k.val = k.val; rw [hi.2]; omega

/-- Window 3's block is its whole array at every point. -/
theorem iblk1_3_eq (c : Dev nD) (t : Fin cfg1.N) :
    (iblk1 V c 3 t : S64x64.Idx → EReal) = (V c (Pipeline.arrRef spec1 3) : S64x64.Idx → EReal) := by
  funext y
  unfold iblk1
  rw [View.read_apply]
  show (V c (Pipeline.arrRef spec1 3) : S64x64.Idx → EReal) _ = _
  congr 1
  funext a
  apply Fin.ext
  have hi := (idx1 t).2.2.2.1
  match a with
  | ⟨0, _⟩ => show win1_3.index t (0 : Fin 2) * 64 + 1 * (y 0).val = (y 0).val; rw [hi.1]; omega
  | ⟨1, _⟩ => show win1_3.index t (1 : Fin 2) * 64 + 1 * (y 1).val = (y 1).val; rw [hi.2]; omega

/-- Window 4's block is its whole array at every point. -/
theorem iblk1_4_eq (c : Dev nD) (t : Fin cfg1.N) :
    (iblk1 V c 4 t : S1x64.Idx → EReal) = (V c (Pipeline.arrRef spec1 4) : S1x64.Idx → EReal) := by
  funext y
  unfold iblk1
  rw [View.read_apply]
  show (V c (Pipeline.arrRef spec1 4) : S1x64.Idx → EReal) _ = _
  congr 1
  funext a
  apply Fin.ext
  have hi := (idx1 t).2.2.2.2.1
  match a with
  | ⟨0, _⟩ => show win1_4.index t (0 : Fin 2) * 1 + 1 * (y 0).val = (y 0).val; rw [hi.1]; omega
  | ⟨1, _⟩ => show win1_4.index t (1 : Fin 2) * 64 + 1 * (y 1).val = (y 1).val; rw [hi.2]; omega

/-- Window 5's block is its whole array at every point. -/
theorem iblk1_5_eq (c : Dev nD) (t : Fin cfg1.N) :
    (iblk1 V c 5 t : S6x64.Idx → EReal) = (V c (Pipeline.arrRef spec1 5) : S6x64.Idx → EReal) := by
  funext y
  unfold iblk1
  rw [View.read_apply]
  show (V c (Pipeline.arrRef spec1 5) : S6x64.Idx → EReal) _ = _
  congr 1
  funext a
  apply Fin.ext
  have hi := (idx1 t).2.2.2.2.2.1
  match a with
  | ⟨0, _⟩ => show win1_5.index t (0 : Fin 2) * 6 + 1 * (y 0).val = (y 0).val; rw [hi.1]; omega
  | ⟨1, _⟩ => show win1_5.index t (1 : Fin 2) * 64 + 1 * (y 1).val = (y 1).val; rw [hi.2]; omega

/-- Window 6's block is its whole array at every point. -/
theorem iblk1_6_eq (c : Dev nD) (t : Fin cfg1.N) :
    (iblk1 V c 6 t : S64x64.Idx → EReal) = (V c (Pipeline.arrRef spec1 6) : S64x64.Idx → EReal) := by
  funext y
  unfold iblk1
  rw [View.read_apply]
  show (V c (Pipeline.arrRef spec1 6) : S64x64.Idx → EReal) _ = _
  congr 1
  funext a
  apply Fin.ext
  have hi := (idx1 t).2.2.2.2.2.2.1
  match a with
  | ⟨0, _⟩ => show win1_6.index t (0 : Fin 2) * 64 + 1 * (y 0).val = (y 0).val; rw [hi.1]; omega
  | ⟨1, _⟩ => show win1_6.index t (1 : Fin 2) * 64 + 1 * (y 1).val = (y 1).val; rw [hi.2]; omega

/-- Window 7's block is its whole array at every point. -/
theorem iblk1_7_eq (c : Dev nD) (t : Fin cfg1.N) :
    (iblk1 V c 7 t : S1x64.Idx → EReal) = (V c (Pipeline.arrRef spec1 7) : S1x64.Idx → EReal) := by
  funext y
  unfold iblk1
  rw [View.read_apply]
  show (V c (Pipeline.arrRef spec1 7) : S1x64.Idx → EReal) _ = _
  congr 1
  funext a
  apply Fin.ext
  have hi := (idx1 t).2.2.2.2.2.2.2.1
  match a with
  | ⟨0, _⟩ => show win1_7.index t (0 : Fin 2) * 1 + 1 * (y 0).val = (y 0).val; rw [hi.1]; omega
  | ⟨1, _⟩ => show win1_7.index t (1 : Fin 2) * 64 + 1 * (y 1).val = (y 1).val; rw [hi.2]; omega

/-- Window 8's block is its whole array at every point. -/
theorem iblk1_8_eq (c : Dev nD) (t : Fin cfg1.N) :
    (iblk1 V c 8 t : S64x64.Idx → EReal) = (V c (Pipeline.arrRef spec1 8) : S64x64.Idx → EReal) := by
  funext y
  unfold iblk1
  rw [View.read_apply]
  show (V c (Pipeline.arrRef spec1 8) : S64x64.Idx → EReal) _ = _
  congr 1
  funext a
  apply Fin.ext
  have hi := (idx1 t).2.2.2.2.2.2.2.2.1
  match a with
  | ⟨0, _⟩ => show win1_8.index t (0 : Fin 2) * 64 + 1 * (y 0).val = (y 0).val; rw [hi.1]; omega
  | ⟨1, _⟩ => show win1_8.index t (1 : Fin 2) * 64 + 1 * (y 1).val = (y 1).val; rw [hi.2]; omega

/-- What the body leaves in the output tile, at the entry (r, j): the one store covers the tile from offset zero and
    every load reads a whole tile. -/
theorem out1_9_apply (x0 : Vec Ideal S4096x64 .f32) (x1 : Vec Ideal S4096x6 .f32) (x2 : Vec Ideal S4096x64 .f32)
    (x3 : Vec Ideal S64x64 .f32) (x4 : Vec Ideal S1x64 .f32) (x5 : Vec Ideal S6x64 .f32) (x6 : Vec Ideal S64x64 .f32)
    (x7 : Vec Ideal S1x64 .f32) (x8 : Vec Ideal S64x64 .f32) (r : Fin 4096) (j : Fin 64) :
    out1_9 (F := Ideal) x0 x1 x2 x3 x4 x5 x6 x7 x8 (ix2 r j)
      = Cert.Spec.stateBCAt (M := 4096) x0 x1 x2 x3 x4 x5 x6 x7 x8 r j := by
  unfold out1_9
  rw [View.canon_unit_zero hz1]
  simp only [View.ld_unit_zero (S := S4096x64) hz1, View.ld_unit_zero (S := S4096x6) hz1, View.ld_unit_zero (S := S64x64) hz1,
    View.ld_unit_zero (S := S6x64) hz1, View.ld_unit_zero (S := S1x64) hz1]
  exact pay1_apply x0 x1 x2 x3 x4 x5 x6 x7 x8 r j

/-- Row r of the result depends only on row r of the three row-indexed operands. -/
theorem stateBCAt_rows {M M' : Nat} (agg : Cert.Spec.Arr2 M 64) (xs : Cert.Spec.Arr2 M 6) (mean : Cert.Spec.Arr2 M 64)
    (agg' : Cert.Spec.Arr2 M' 64) (xs' : Cert.Spec.Arr2 M' 6) (mean' : Cert.Spec.Arr2 M' 64)
    (wrel : Cert.Spec.Arr2 64 64) (brel : Cert.Spec.Arr2 1 64) (wroot : Cert.Spec.Arr2 6 64) (wl : Cert.Spec.Arr2 64 64)
    (bl : Cert.Spec.Arr2 1 64) (wr : Cert.Spec.Arr2 64 64) (r : Fin M) (R : Fin M') (j : Fin 64)
    (e0 : ∀ k : Fin 64, agg (ix2 r k) = agg' (ix2 R k)) (e1 : ∀ k : Fin 6, xs (ix2 r k) = xs' (ix2 R k))
    (e2 : ∀ k : Fin 64, mean (ix2 r k) = mean' (ix2 R k)) :
    Cert.Spec.stateBCAt agg xs mean wrel brel wroot wl bl wr r j
      = Cert.Spec.stateBCAt agg' xs' mean' wrel brel wroot wl bl wr R j := by
  unfold Cert.Spec.stateBCAt Cert.Spec.mm
  simp only [Cert.Spec.stateOne_apply]
  unfold Cert.Spec.stateOneAt Cert.Spec.mm
  simp only [e0, e1, e2]

/-! ## From tiles to the array -/

/-- The output tile's entry (r, j) at point t sits at row 4096·t + r of the array. -/
theorem emb1_9 (t : Fin cfg1.N) (r : Fin 4096) (j : Fin 64) (R : Fin 262144) (hR : R.val = t.val * 4096 + r.val) :
    ((cfg1.win 9).blk t).view.emb (ix2 r j) = (ix2 R j : S262144x64.Idx) := by
  funext a
  apply Fin.ext
  have hi := (idx1 t).2.2.2.2.2.2.2.2.2
  match a with
  | ⟨0, _⟩ => show win1_9.index t (0 : Fin 2) * 4096 + 1 * r.val = R.val; rw [hi.1, hR]; omega
  | ⟨1, _⟩ => show win1_9.index t (1 : Fin 2) * 64 + 1 * j.val = j.val; rw [hi.2]; omega

/-- The whole result array: the stage's function of the nine arrays the region finds. -/
abbrev G1 (c : Dev nD) : S262144x64.Idx → EReal :=
  Cert.Spec.stateBC (M := 262144) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))

/-- What point t writes back is tile t of the whole result array: the body's value at (r, j) of the tile is the
    stage's value at row 4096·t + r, because that row of the result reads only that row of the operands. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  refine funext fun (y : S4096x64.Idx) => ?_
  obtain ⟨r, j, rfl⟩ : ∃ (r : Fin 4096) (j : Fin 64), y = ix2 r j := ⟨y 0, y 1, eq_ix2 y⟩
  have ht : t.val < 64 := lt_of_lt_of_eq t.isLt (N_1 : cfg1.N = 64)
  have hr := r.isLt
  obtain ⟨R, hR⟩ : ∃ R : Fin 262144, R.val = t.val * 4096 + r.val := ⟨⟨t.val * 4096 + r.val, by omega⟩, rfl⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 r j)
    = G1 V c (((cfg1.win 9).blk t).view.emb (ix2 r j))
  rw [emb1_9 t r j R hR]
  refine (out1_9_apply (iblk1 V c 0 t) (iblk1 V c 1 t) (iblk1 V c 2 t) (iblk1 V c 3 t) (iblk1 V c 4 t) (iblk1 V c 5 t) (iblk1 V c 6 t) (iblk1 V c 7 t) (iblk1 V c 8 t) r j).trans ?_
  rw [iblk1_3_eq V c t, iblk1_4_eq V c t, iblk1_5_eq V c t, iblk1_6_eq V c t, iblk1_7_eq V c t, iblk1_8_eq V c t]
  exact stateBCAt_rows _ _ _ _ _ _ _ _ _ _ _ _ r R j (fun k => iblk1_0_apply V c t r k R hR) (fun k => iblk1_1_apply V c t r k R hR)
    (fun k => iblk1_2_apply V c t r k R hR)

/-- An index of the result array is in point t's tile iff each coordinate is in the tile's range on its axis. -/
theorem mem_blk1 (t : Fin cfg1.N) (i : S262144x64.Idx) :
    i ∈ ((cfg1.win 9).blk t).view.set ↔ ∀ a : Fin 2, win1_9.index t a * S4096x64.size a ≤ (i a).val ∧ (i a).val < win1_9.index t a * S4096x64.size a + S4096x64.size a := by
  show i ∈ ((View.whole main_v106).slice (win1_9.rect t)).set ↔ _
  rw [View.set_slice_whole, Rect.mem_set_unit]
  exact Iff.rfl

/-- Every row is in some tile: row R is in tile R / 4096. -/
theorem cover1 (i : S262144x64.Idx) : ∃ t : Fin cfg1.N, (cfg1.win 9).flush t = true ∧ i ∈ ((cfg1.win 9).blk t).view.set := by
  have hi0 : (i 0).val < 262144 := (i 0).isLt
  have hi1 : (i 1).val < 64 := (i 1).isLt
  have hN : cfg1.N = 64 := N_1
  obtain ⟨t, ht⟩ : ∃ t : Fin cfg1.N, t.val = (i 0).val / 4096 := ⟨⟨(i 0).val / 4096, by rw [hN]; omega⟩, rfl⟩
  refine ⟨t, flush1_9 t, ?_⟩
  rw [mem_blk1]
  have hi := (idx1 t).2.2.2.2.2.2.2.2.2
  intro a
  match a with
  | ⟨0, _⟩ => show win1_9.index t (0 : Fin 2) * 4096 ≤ (i 0).val ∧ (i 0).val < win1_9.index t (0 : Fin 2) * 4096 + 4096; rw [hi.1, ht]; omega
  | ⟨1, _⟩ => show win1_9.index t (1 : Fin 2) * 64 ≤ (i 1).val ∧ (i 1).val < win1_9.index t (1 : Fin 2) * 64 + 64; rw [hi.2]; omega

/-- THE RESULT ARRAY after the region: entry by entry the positive part of ((mean·Wl + bl) + s·Wr), where s is the
    positive part of ((agg·Wrel + brel) + xs·Wroot), of the nine arrays the region finds. -/
theorem final1 (c : Dev nD) : (dat1 (F := Ideal) V c).arrAt 9 cfg1.N
    = Cert.Spec.stateBC (M := 262144) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8)) :=
  (dat1 V c).arrAt_eq_of_cover 9 (G1 V c) (fun t _ => flushed1_eq V c t) cover1

end Cert.KernelIdeal.RegVal

end
-- ==== Proof.RefDense1.lean ====
/-
  The reference's second dense stage is the specification's fused second stage.

  The generated read-back gives two layers. The inner one is a product of the aggregated 262144×64 array with a 64×64
  matrix, plus a bias row broadcast over the rows, plus a product of the 262144×6 array with a 6×64 matrix, then the
  positive part: the specification's intermediate state features. The outer one is a product of the mean-aggregated
  array with a 64×64 matrix, plus a bias row, plus a product of the inner layer with a 64×64 matrix, then the positive
  part. Read at the entry (r, j), each product is the sum over k of the left operand at (r, k) times the right operand
  at (k, j); under the last product's sum the inner layer is read at (r, k), where it is the specification's inner layer
  at (r, k).
-/
import proofs.«142313_j62955630624977_2_alg».proof.Proof.ReadPatched
import proofs.«142313_j62955630624977_2_alg».proof.Proof.Spec

noncomputable section

open scoped BigOperators

namespace Cert.ReferenceIdeal.RefDense

open Cert.ReferenceIdeal Cert.ReferenceIdeal.Gen Cert.ReferenceIdeal.Read Idealize.ShloMosaic
  Idealize.ShloMosaic.ValueIdx

/-! The index functions of the read-back at the entry (r, j), written with the coordinate constructors. -/

theorem lidx86 (r : Fin 262144) (j : Fin 64) (k : Fin 64) : lidx_main_v86 (ix2 r j) k = ix2 r k :=
  funext fun a => by match a with | ⟨0, _⟩ => rfl | ⟨1, _⟩ => rfl

theorem ridx86 (r : Fin 262144) (j : Fin 64) (k : Fin 64) : ridx_main_v86 (ix2 r j) k = ix2 k j :=
  funext fun a => by match a with | ⟨0, _⟩ => rfl | ⟨1, _⟩ => rfl

theorem bidx88 (r : Fin 262144) (j : Fin 64) : idx_main_v88 (ix2 r j) = ix2 (0 : Fin 1) j :=
  funext fun a => by match a with | ⟨0, _⟩ => rfl | ⟨1, _⟩ => rfl

theorem lidx90 (r : Fin 262144) (j : Fin 64) (k : Fin 6) : lidx_main_v90 (ix2 r j) k = ix2 r k :=
  funext fun a => by match a with | ⟨0, _⟩ => rfl | ⟨1, _⟩ => rfl

theorem ridx90 (r : Fin 262144) (j : Fin 64) (k : Fin 6) : ridx_main_v90 (ix2 r j) k = ix2 k j :=
  funext fun a => by match a with | ⟨0, _⟩ => rfl | ⟨1, _⟩ => rfl

theorem lidx116 (r : Fin 262144) (j : Fin 64) (k : Fin 64) : lidx_main_v116 (ix2 r j) k = ix2 r k :=
  funext fun a => by match a with | ⟨0, _⟩ => rfl | ⟨1, _⟩ => rfl

theorem ridx116 (r : Fin 262144) (j : Fin 64) (k : Fin 64) : ridx_main_v116 (ix2 r j) k = ix2 k j :=
  funext fun a => by match a with | ⟨0, _⟩ => rfl | ⟨1, _⟩ => rfl

theorem bidx118 (r : Fin 262144) (j : Fin 64) : idx_main_v118 (ix2 r j) = ix2 (0 : Fin 1) j :=
  funext fun a => by match a with | ⟨0, _⟩ => rfl | ⟨1, _⟩ => rfl

theorem lidx120 (r : Fin 262144) (j : Fin 64) (k : Fin 64) : lidx_main_v120 (ix2 r j) k = ix2 r k :=
  funext fun a => by match a with | ⟨0, _⟩ => rfl | ⟨1, _⟩ => rfl

theorem ridx120 (r : Fin 262144) (j : Fin 64) (k : Fin 64) : ridx_main_v120 (ix2 r j) k = ix2 k j :=
  funext fun a => by match a with | ⟨0, _⟩ => rfl | ⟨1, _⟩ => rfl

/-- The reference's inner layer is the specification's intermediate state features of the aggregated array, the state
    inputs, the two weight matrices and the bias row. -/
theorem v92_eq (x0 : (⟨S262144x5, .f32⟩ : BufTy).Contents (Elt Ideal))
    (x1 : (⟨S262144x6, .f32⟩ : BufTy).Contents (Elt Ideal))
    (x2 : (⟨S2x4000000, .i32⟩ : BufTy).Contents (Elt Ideal))
    (x3 : (⟨S2x2000000, .i32⟩ : BufTy).Contents (Elt Ideal))
    (x6 : (⟨S2000000, .f32⟩ : BufTy).Contents (Elt Ideal))
    (x7 : (⟨S3x5x64, .f32⟩ : BufTy).Contents (Elt Ideal))
    (x8 : (⟨S64, .f32⟩ : BufTy).Contents (Elt Ideal))
    (x11 : (⟨S64x64, .f32⟩ : BufTy).Contents (Elt Ideal))
    (x12 : (⟨S64, .f32⟩ : BufTy).Contents (Elt Ideal))
    (x13 : (⟨S6x64, .f32⟩ : BufTy).Contents (Elt Ideal)) :
    val_main_v92 (F := Ideal) x0 x1 x2 x3 x6 x7 x8 x11 x12 x13
      = Cert.Spec.stateOne (M := 262144) (val_main_v85 x0 x2 x3 x6 x7 x8) x1 x11 (val_main_v87 x12) x13 := by
  funext i
  obtain ⟨r, j, rfl⟩ : ∃ (r : Fin 262144) (j : Fin 64), i = ix2 r j := ⟨i 0, i 1, eq_ix2 i⟩
  rw [val_main_v92_apply, val_main_v91_apply, val_main_v89_apply, val_main_v86_apply, val_main_v88_apply,
    val_main_v90_apply, val_main_call2_v0_apply, val_main_call2_cst_apply, Cert.Spec.stateOne_apply]
  generalize val_main_v85 (F := Ideal) x0 x2 x3 x6 x7 x8 = agg
  generalize val_main_v87 (F := Ideal) x12 = b
  simp only [lidx86, ridx86, bidx88, lidx90, ridx90, Ideal.addf_def, Ideal.maximumf_def, Ideal.ofBits_def,
    Ideal.ofBits_zero_f32, Cert.Spec.stateOneAt, Cert.Spec.mm]

/-- The reference's value after the second stage's outer positive part is the specification's fused second stage. -/
theorem v122_eq (x0 : (⟨S262144x5, .f32⟩ : BufTy).Contents (Elt Ideal))
    (x1 : (⟨S262144x6, .f32⟩ : BufTy).Contents (Elt Ideal))
    (x2 : (⟨S2x4000000, .i32⟩ : BufTy).Contents (Elt Ideal))
    (x3 : (⟨S2x2000000, .i32⟩ : BufTy).Contents (Elt Ideal))
    (x4 : (⟨S2x2000000, .i32⟩ : BufTy).Contents (Elt Ideal))
    (x6 : (⟨S2000000, .f32⟩ : BufTy).Contents (Elt Ideal))
    (x7 : (⟨S3x5x64, .f32⟩ : BufTy).Contents (Elt Ideal))
    (x8 : (⟨S64, .f32⟩ : BufTy).Contents (Elt Ideal))
    (x11 : (⟨S64x64, .f32⟩ : BufTy).Contents (Elt Ideal))
    (x12 : (⟨S64, .f32⟩ : BufTy).Contents (Elt Ideal))
    (x13 : (⟨S6x64, .f32⟩ : BufTy).Contents (Elt Ideal))
    (x14 : (⟨S64x64, .f32⟩ : BufTy).Contents (Elt Ideal))
    (x15 : (⟨S64, .f32⟩ : BufTy).Contents (Elt Ideal))
    (x16 : (⟨S64x64, .f32⟩ : BufTy).Contents (Elt Ideal)) :
    val_main_v122 (F := Ideal) x0 x1 x2 x3 x4 x6 x7 x8 x11 x12 x13 x14 x15 x16
      = Cert.Spec.stateBC (M := 262144) (val_main_v85 x0 x2 x3 x6 x7 x8) x1 (val_main_v115 x0 x2 x4 x7 x8) x11
          (val_main_v87 x12) x13 x14 (val_main_v117 x15) x16 := by
  funext i
  obtain ⟨r, j, rfl⟩ : ∃ (r : Fin 262144) (j : Fin 64), i = ix2 r j := ⟨i 0, i 1, eq_ix2 i⟩
  rw [val_main_v122_apply, val_main_v121_apply, val_main_v119_apply, val_main_v116_apply, val_main_v118_apply,
    val_main_v120_apply, val_main_call3_v0_apply, val_main_call3_cst_apply, v92_eq, Cert.Spec.stateBC_apply]
  generalize val_main_v85 (F := Ideal) x0 x2 x3 x6 x7 x8 = agg
  generalize val_main_v115 (F := Ideal) x0 x2 x4 x7 x8 = mean
  generalize val_main_v87 (F := Ideal) x12 = b
  generalize val_main_v117 (F := Ideal) x15 = bl
  simp only [lidx116, ridx116, bidx118, lidx120, ridx120, Ideal.addf_def, Ideal.maximumf_def, Ideal.ofBits_def,
    Ideal.ofBits_zero_f32, Cert.Spec.stateBCAt, Cert.Spec.mm]

end Cert.ReferenceIdeal.RefDense

end
-- ==== Proof.Stage1.lean ====
/-
  The state features after the second region, as the reference's stage.

  The second region writes, tile by tile, the fused graph convolution and mean aggregation of its operands; over the
  whole array that is the specification's second dense stage, and the reference's state features are the same dense
  stage of the same operands.
-/
import proofs.«142313_j62955630624977_2_alg».proof.Proof.Bridge1
import proofs.«142313_j62955630624977_2_alg».proof.Proof.RegVal1
import proofs.«142313_j62955630624977_2_alg».proof.Proof.RefDense1
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The second region's output array is the reference's state features. -/
theorem stateX : W6 m ρ c (Proc.devRef .tc main_v106)
    = Cert.ReferenceIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W6_arr m ρ c 9).trans (Cert.KernelIdeal.RegVal.final1 (V5 m ρ) c)).trans ?_
  refine Eq.trans ?_ (Cert.ReferenceIdeal.RefDense.v122_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).symm
  show Cert.Spec.stateBC (V5 m ρ c main_v79) (V5 m ρ c main_arg1) (V5 m ρ c main_v103) (V5 m ρ c main_arg11) (V5 m ρ c main_v104)
    (V5 m ρ c main_arg13) (V5 m ρ c main_arg14) (V5 m ρ c main_v105) (V5 m ρ c main_arg16) = _
  rw [in1_0 m ρ c, show V5 m ρ c main_arg1 = (m ((c : Thread nD τ).loc main_arg1)) from W5_arg1 m ρ c, in1_2 m ρ c,
    show V5 m ρ c main_arg11 = (m ((c : Thread nD τ).loc main_arg11)) from W5_arg11 m ρ c, in1_4 m ρ c,
    show V5 m ρ c main_arg13 = (m ((c : Thread nD τ).loc main_arg13)) from W5_arg13 m ρ c, show V5 m ρ c main_arg14 = (m ((c : Thread nD τ).loc main_arg14)) from W5_arg14 m ρ c,
    in1_7 m ρ c, show V5 m ρ c main_arg16 = (m ((c : Thread nD τ).loc main_arg16)) from W5_arg16 m ρ c]

end Cert.Bridge

end
-- ==== Proof.Bridge2S.lean ====
/-
  The arrays the last region reads, as the reference's stages, one host stretch at a time.

  Between the last two regions the kernel program computes, on the host, the vertex degrees of the state graph and the
  symmetric normalisation of its edges, three normalised neighbourhood sums of the state features (one, two and three
  hops: each hop gathers the previous array's rows at the edge sources, scales them by the edge weight and sums them at
  the edge targets), and slices the four weight matrices out of their stack. The reference program computes the same
  arrays by the same operations, so each array is, term for term, a stage of the reference's read-back. Each stretch is
  read from ANY contents it may start from, under hypotheses naming what the stretch reads: the edge endpoints and the
  degree terms; the selection of the inverse square root where the degree is positive, zero elsewhere; the
  normalisation, the three hops, the weights and the two bias rows. The state features the first hop gathers are named
  by a hypothesis; the kernel program holds them in the narrow float format and widens the gathered rows, which on the
  extended reals changes nothing. The bias rows differ in spelling only: the kernel program reshapes a bias vector to
  one row where the reference broadcasts it to one row, which is the same array.
-/
import proofs.«142313_j62955630624977_2_alg».proof.Proof.Gen.KernelIdeal.Frame
import proofs.«142313_j62955630624977_2_alg».proof.Proof.ReadPatched
import proofs.«142313_j62955630624977_2_alg».proof.Proof.LibRowVector
import proofs.«142313_j62955630624977_2_alg».proof.Proof.KTRefs
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

open Cert.ReferenceIdeal.Read

section Stretches2

variable (V : Valuation τ sig (Elt Ideal))
  (x0 : (⟨S262144x5, .f32⟩ : BufTy).Contents (Elt Ideal)) (x1 : (⟨S262144x6, .f32⟩ : BufTy).Contents (Elt Ideal))
  (x2 : (⟨S2x4000000, .i32⟩ : BufTy).Contents (Elt Ideal)) (x3 x4 x5 : (⟨S2x2000000, .i32⟩ : BufTy).Contents (Elt Ideal))
  (x6 : (⟨S2000000, .f32⟩ : BufTy).Contents (Elt Ideal)) (x7 : (⟨S3x5x64, .f32⟩ : BufTy).Contents (Elt Ideal))
  (x8 : (⟨S64, .f32⟩ : BufTy).Contents (Elt Ideal)) (x9 : (⟨S4x64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S6x64, .f32⟩ : BufTy).Contents (Elt Ideal))
  (x14 : (⟨S64x64, .f32⟩ : BufTy).Contents (Elt Ideal)) (x15 : (⟨S64, .f32⟩ : BufTy).Contents (Elt Ideal))
  (x16 : (⟨S64x64, .f32⟩ : BufTy).Contents (Elt Ideal)) (x18 : (⟨S8, .f32⟩ : BufTy).Contents (Elt Ideal))

/-! ## The first stretch: edge endpoints, degrees, and the two branches of the selection -/

theorem t0_v108 (h : V (Proc.devRef .tc main_arg5) = x5) : StableHlo.after hostOps2 V (Proc.devRef .tc main_v108) = val_main_v124 (F := Ideal) x5 := by
  after_results_simp; rw [h]; rfl
theorem t0_v110 (h : V (Proc.devRef .tc main_arg5) = x5) : StableHlo.after hostOps2 V (Proc.devRef .tc main_v110) = val_main_v126 (F := Ideal) x5 := by
  after_results_simp; rw [h]; rfl
theorem t0_v116 (h : V (Proc.devRef .tc main_arg5) = x5) : StableHlo.after hostOps2 V (Proc.devRef .tc main_v116) = val_main_v132 (F := Ideal) x5 := by
  after_results_simp; rw [h]; rfl
theorem t0_v119 (h : V (Proc.devRef .tc main_arg5) = x5) : StableHlo.after hostOps2 V (Proc.devRef .tc main_v119) = val_main_v135 (F := Ideal) x5 := by
  after_results_simp; rw [h]; rfl
theorem t0_cst26 : StableHlo.after hostOps2 V (Proc.devRef .tc main_cst_26) = val_main_cst_26 (F := Ideal) := by
  after_results_simp; rfl
theorem t0_keep_v106 : StableHlo.after hostOps2 V (Proc.devRef .tc main_v106) = V (Proc.devRef .tc main_v106) := by after_results_simp

/-! ## The second stretch: the inverse square root of the degree where it is positive, zero elsewhere -/

theorem t1_keep_v108 : StableHlo.after hostOps2_1 V (Proc.devRef .tc main_v108) = V (Proc.devRef .tc main_v108) := by after_results_simp
theorem t1_keep_v110 : StableHlo.after hostOps2_1 V (Proc.devRef .tc main_v110) = V (Proc.devRef .tc main_v110) := by after_results_simp
theorem t1_keep_v106 : StableHlo.after hostOps2_1 V (Proc.devRef .tc main_v106) = V (Proc.devRef .tc main_v106) := by after_results_simp

theorem t1_v120 (h116 : V (Proc.devRef .tc main_v116) = val_main_v132 (F := Ideal) x5) (h119 : V (Proc.devRef .tc main_v119) = val_main_v135 (F := Ideal) x5)
    (hc : V (Proc.devRef .tc main_cst_26) = val_main_cst_26 (F := Ideal)) :
    StableHlo.after hostOps2_1 V (Proc.devRef .tc main_v120) = val_main_v136 (F := Ideal) x5 := by
  after_results_simp
  rw [h116, h119, hc]
  unfold val_main_v136 val_main_call4_v1 val_main_call4_v0
  generalize val_main_v132 (F := Ideal) x5 = a116
  generalize val_main_v135 (F := Ideal) x5 = a119
  generalize val_main_cst_26 (F := Ideal) = a26
  rw [toBuf_main_v120, ofBuf_main_v116, ofBuf_main_v119, ofBuf_main_call1_v1, toBuf_main_call1_v1, ofBuf_main_call1_v0,
    toBuf_main_call1_v0, ofBuf_main_cst_26]

/-! ## The third stretch: the edge normalisation, the three hops, the weights and the two bias rows -/

theorem t2_v149 (h108 : V (Proc.devRef .tc main_v108) = val_main_v124 (F := Ideal) x5) (h110 : V (Proc.devRef .tc main_v110) = val_main_v126 (F := Ideal) x5)
    (h120 : V (Proc.devRef .tc main_v120) = val_main_v136 (F := Ideal) x5)
    (h106 : V (Proc.devRef .tc main_v106) = val_main_v122 (F := Ideal) x0 x1 x2 x3 x4 x6 x7 x8 x11 x12 x13 x14 x15 x16) :
    StableHlo.after hostOps2_2 V (Proc.devRef .tc main_v149) = val_main_v167 (F := Ideal) x0 x1 x2 x3 x4 x5 x6 x7 x8 x11 x12 x13 x14 x15 x16 := by
  after_results_simp
  rw [h108, h110, h120, h106]
  rfl

theorem t2_v161 (h108 : V (Proc.devRef .tc main_v108) = val_main_v124 (F := Ideal) x5) (h110 : V (Proc.devRef .tc main_v110) = val_main_v126 (F := Ideal) x5)
    (h120 : V (Proc.devRef .tc main_v120) = val_main_v136 (F := Ideal) x5)
    (h106 : V (Proc.devRef .tc main_v106) = val_main_v122 (F := Ideal) x0 x1 x2 x3 x4 x6 x7 x8 x11 x12 x13 x14 x15 x16) :
    StableHlo.after hostOps2_2 V (Proc.devRef .tc main_v161) = val_main_v183 (F := Ideal) x0 x1 x2 x3 x4 x5 x6 x7 x8 x11 x12 x13 x14 x15 x16 := by
  after_results_simp
  rw [h108, h110, h120, h106]
  rfl

theorem t2_v173 (h108 : V (Proc.devRef .tc main_v108) = val_main_v124 (F := Ideal) x5) (h110 : V (Proc.devRef .tc main_v110) = val_main_v126 (F := Ideal) x5)
    (h120 : V (Proc.devRef .tc main_v120) = val_main_v136 (F := Ideal) x5)
    (h106 : V (Proc.devRef .tc main_v106) = val_main_v122 (F := Ideal) x0 x1 x2 x3 x4 x6 x7 x8 x11 x12 x13 x14 x15 x16) :
    StableHlo.after hostOps2_2 V (Proc.devRef .tc main_v173) = val_main_v199 (F := Ideal) x0 x1 x2 x3 x4 x5 x6 x7 x8 x11 x12 x13 x14 x15 x16 := by
  after_results_simp
  rw [h108, h110, h120, h106]
  rfl

theorem t2_v175 (h9 : V (Proc.devRef .tc main_arg9) = x9) : StableHlo.after hostOps2_2 V (Proc.devRef .tc main_v175) = val_main_v154 (F := Ideal) x9 := by
  after_results_simp; rw [h9]; rfl
theorem t2_v177 (h9 : V (Proc.devRef .tc main_arg9) = x9) : StableHlo.after hostOps2_2 V (Proc.devRef .tc main_v177) = val_main_v169 (F := Ideal) x9 := by
  after_results_simp; rw [h9]; rfl
theorem t2_v179 (h9 : V (Proc.devRef .tc main_arg9) = x9) : StableHlo.after hostOps2_2 V (Proc.devRef .tc main_v179) = val_main_v185 (F := Ideal) x9 := by
  after_results_simp; rw [h9]; rfl
theorem t2_v181 (h9 : V (Proc.devRef .tc main_arg9) = x9) : StableHlo.after hostOps2_2 V (Proc.devRef .tc main_v181) = val_main_v201 (F := Ideal) x9 := by
  after_results_simp; rw [h9]; rfl
theorem t2_v182 (h10 : V (Proc.devRef .tc main_arg10) = x10) : StableHlo.after hostOps2_2 V (Proc.devRef .tc main_v182) = val_main_v204 (F := Ideal) x10 := by
  after_results_simp; rw [h10]
  unfold val_main_v204
  exact Cert.LibRowVector.reshape_eq_broadcast _ _ _
theorem t2_v183 (h18 : V (Proc.devRef .tc main_arg18) = x18) : StableHlo.after hostOps2_2 V (Proc.devRef .tc main_v183) = val_main_v209 (F := Ideal) x18 := by
  after_results_simp; rw [h18]
  unfold val_main_v209
  exact Cert.LibRowVector.reshape_eq_broadcast _ _ _
theorem t2_keep_v106 : StableHlo.after hostOps2_2 V (Proc.devRef .tc main_v106) = V (Proc.devRef .tc main_v106) := by after_results_simp

end Stretches2

end Cert.Bridge

end
-- ==== Proof.Bridge2.lean ====
/-
  The third region's operands, as the reference's stages of the launch arrays.

  Between the last two regions the kernel program computes the vertex degrees of the state graph, the symmetric
  normalisation of its edges and three normalised neighbourhood sums of the state features (one, two and three hops),
  and slices the four weight matrices out of their stack. The reference does the same to its own state features, which
  are the same array, by the same operations. Each of the three host stretches is read from the contents the previous
  one leaves: the second region's exit contents hold the state features and the launch arrays; the first stretch adds
  the edge endpoints and the degree terms; the second the selected inverse square roots; the third the hops, the
  weights and the bias rows.
-/
import proofs.«142313_j62955630624977_2_alg».proof.Proof.Stage1
import proofs.«142313_j62955630624977_2_alg».proof.Proof.Bridge2S
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

open Cert.ReferenceIdeal.Read

/-! ## After the first stretch -/

theorem W7_v106 : W7 m ρ c (Proc.devRef .tc main_v106) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (t0_keep_v106 (W6 m ρ c)).trans (stateX m ρ c)
theorem W7_v108 : W7 m ρ c (Proc.devRef .tc main_v108) = val_main_v124 (F := Ideal) (m ((c : Thread nD τ).loc main_arg5)) := t0_v108 (W6 m ρ c) _ (W6_arg5 m ρ c)
theorem W7_v110 : W7 m ρ c (Proc.devRef .tc main_v110) = val_main_v126 (F := Ideal) (m ((c : Thread nD τ).loc main_arg5)) := t0_v110 (W6 m ρ c) _ (W6_arg5 m ρ c)
theorem W7_v116 : W7 m ρ c (Proc.devRef .tc main_v116) = val_main_v132 (F := Ideal) (m ((c : Thread nD τ).loc main_arg5)) := t0_v116 (W6 m ρ c) _ (W6_arg5 m ρ c)
theorem W7_v119 : W7 m ρ c (Proc.devRef .tc main_v119) = val_main_v135 (F := Ideal) (m ((c : Thread nD τ).loc main_arg5)) := t0_v119 (W6 m ρ c) _ (W6_arg5 m ρ c)
theorem W7_cst26 : W7 m ρ c (Proc.devRef .tc main_cst_26) = val_main_cst_26 (F := Ideal) := t0_cst26 (W6 m ρ c)

/-! ## After the second stretch -/

theorem W8_v106 : W8 m ρ c (Proc.devRef .tc main_v106) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (t1_keep_v106 (W7 m ρ c)).trans (W7_v106 m ρ c)
theorem W8_v108 : W8 m ρ c (Proc.devRef .tc main_v108) = val_main_v124 (F := Ideal) (m ((c : Thread nD τ).loc main_arg5)) := (t1_keep_v108 (W7 m ρ c)).trans (W7_v108 m ρ c)
theorem W8_v110 : W8 m ρ c (Proc.devRef .tc main_v110) = val_main_v126 (F := Ideal) (m ((c : Thread nD τ).loc main_arg5)) := (t1_keep_v110 (W7 m ρ c)).trans (W7_v110 m ρ c)
theorem W8_v120 : W8 m ρ c (Proc.devRef .tc main_v120) = val_main_v136 (F := Ideal) (m ((c : Thread nD τ).loc main_arg5)) :=
  t1_v120 (W7 m ρ c) _ (W7_v116 m ρ c) (W7_v119 m ρ c) (W7_cst26 m ρ c)
theorem W8_arg9 : W8 m ρ c (Proc.devRef .tc main_arg9) = (m ((c : Thread nD τ).loc main_arg9)) := by
  show StableHlo.after hostOps2_1 (StableHlo.after hostOps2 (W6 m ρ c)) (Proc.devRef .tc main_arg9) = _
  after_results_simp
  exact W6_arg9 m ρ c
theorem W8_arg10 : W8 m ρ c (Proc.devRef .tc main_arg10) = (m ((c : Thread nD τ).loc main_arg10)) := by
  show StableHlo.after hostOps2_1 (StableHlo.after hostOps2 (W6 m ρ c)) (Proc.devRef .tc main_arg10) = _
  after_results_simp
  exact W6_arg10 m ρ c
theorem W8_arg18 : W8 m ρ c (Proc.devRef .tc main_arg18) = (m ((c : Thread nD τ).loc main_arg18)) := by
  show StableHlo.after hostOps2_1 (StableHlo.after hostOps2 (W6 m ρ c)) (Proc.devRef .tc main_arg18) = _
  after_results_simp
  exact W6_arg18 m ρ c

/-! ## The region's operands -/

/-- The state features themselves pass the host stretches untouched. -/
theorem in2_0 : V9 m ρ c main_v106 = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (t2_keep_v106 (W8 m ρ c)).trans (W8_v106 m ρ c)
/-- The one-hop normalised neighbourhood sum of the state features. -/
theorem in2_1 : V9 m ρ c main_v149 = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  t2_v149 (V := W8 m ρ c) (h108 := W8_v108 m ρ c) (h110 := W8_v110 m ρ c) (h120 := W8_v120 m ρ c) (h106 := W8_v106 m ρ c)
/-- The two-hop normalised neighbourhood sum of the state features. -/
theorem in2_2 : V9 m ρ c main_v161 = val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  t2_v161 (V := W8 m ρ c) (h108 := W8_v108 m ρ c) (h110 := W8_v110 m ρ c) (h120 := W8_v120 m ρ c) (h106 := W8_v106 m ρ c)
/-- The three-hop normalised neighbourhood sum of the state features. -/
theorem in2_3 : V9 m ρ c main_v173 = val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  t2_v173 (V := W8 m ρ c) (h108 := W8_v108 m ρ c) (h110 := W8_v110 m ρ c) (h120 := W8_v120 m ρ c) (h106 := W8_v106 m ρ c)
/-- The first weight matrix of the stack. -/
theorem in2_4 : V9 m ρ c main_v175 = val_main_v154 (F := Ideal) (m ((c : Thread nD τ).loc main_arg9)) := t2_v175 (W8 m ρ c) _ (W8_arg9 m ρ c)
/-- The second weight matrix of the stack. -/
theorem in2_5 : V9 m ρ c main_v177 = val_main_v169 (F := Ideal) (m ((c : Thread nD τ).loc main_arg9)) := t2_v177 (W8 m ρ c) _ (W8_arg9 m ρ c)
/-- The third weight matrix of the stack. -/
theorem in2_6 : V9 m ρ c main_v179 = val_main_v185 (F := Ideal) (m ((c : Thread nD τ).loc main_arg9)) := t2_v179 (W8 m ρ c) _ (W8_arg9 m ρ c)
/-- The fourth weight matrix of the stack. -/
theorem in2_7 : V9 m ρ c main_v181 = val_main_v201 (F := Ideal) (m ((c : Thread nD τ).loc main_arg9)) := t2_v181 (W8 m ρ c) _ (W8_arg9 m ρ c)
/-- The convolution's bias as one row. -/
theorem in2_8 : V9 m ρ c main_v182 = val_main_v204 (F := Ideal) (m ((c : Thread nD τ).loc main_arg10)) := t2_v182 (W8 m ρ c) _ (W8_arg10 m ρ c)
/-- The output layer's bias as one row. -/
theorem in2_10 : V9 m ρ c main_v183 = val_main_v209 (F := Ideal) (m ((c : Thread nD τ).loc main_arg18)) := t2_v183 (W8 m ρ c) _ (W8_arg18 m ρ c)

end Cert.Bridge

end
-- ==== Proof.RegVal2.lean ====
/-
  The third dense stage on the kernel side: after its region has run, the region's result array is
  `Cert.Spec.tagTwoLin` of the eleven arrays the region found, for any contents `V` the region is entered with.

  The region walks 64 row tiles of 4096 rows each. At tile t the body reads rows 4096·t … 4096·t + 4095 of the four
  row-indexed operands and the four 64×64 matrices, the 64×8 matrix and the two one-row biases whole, forms the first
  layer u = positive part of ((((h0·W0 + h1·W1) + h2·W2) + h3·W3) + b) and stores u·L + lb; every product is the sum
  over the 64 contracted columns. Row r of a tile's result reads only row r of the tile's operands — through the first
  layer too —, which is row 4096·t + r of the arrays; so what point t writes back is tile t of ONE function of the
  whole arrays, and the 64 tiles cover all 262144 rows.
-/
import proofs.«142313_j62955630624977_2_alg».proof.Proof.Gen.KernelIdeal.Frame
import proofs.«142313_j62955630624977_2_alg».proof.Proof.Spec
import proofs.«142313_j62955630624977_2_alg».proof.Proof.LibMatmulNN
import proofs.«142313_j62955630624977_2_alg».proof.Proof.LibAffineBlock
import Idealize.ShloMosaic.Lib.Pipeline.Value
import Idealize.ShloMosaic.Lib.ValueLayout

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero word of the 32-bit format is the extended real zero. -/
theorem ofBits_zero2 : (FloatOps.ofBits (F := Ideal) FTy.f32 0x00000000#32) = (0 : EReal) := Ideal.ofBits_zero_f32

/-- The two zero offsets, however spelt. -/
theorem hz2 : (![0, 0] : Fin 2 → Nat) = fun _ => 0 := funext fun a => by fin_cases a <;> rfl

/-! ## The body's arithmetic at an entry -/

/-- The body's first layer at the entry (r, k) of a tile: the positive part of the four products' sum plus the bias,
    each product the textbook sum over the 64 features. -/
theorem pay2_2_apply (h0 : Vec Ideal S4096x64 .bf16) (h1 h2 h3 : Vec Ideal S4096x64 .f32)
    (w0 w1 w2 w3 : Vec Ideal S64x64 .f32) (b : Vec Ideal S1x64 .f32) (r : Fin 4096) (k : Fin 64) :
    k2_pay2 (F := Ideal) h0 h1 h2 h3 w0 w1 w2 w3 b (ix2 r k)
      = Cert.Spec.tagTwoAt (M := 4096) h0 h1 h2 h3 w0 w1 w2 w3 b r k := by
  unfold k2_pay2
  simp only [shapeCast_self]
  rw [maximumf_apply, broadcast_apply, addf_apply, broadcastTo_1b_ab_apply, addf_apply, addf_apply, addf_apply,
    Cert.LibMatmulNN.matmul_zero_apply' dot_S4096x64_S64x64_S4096x64_1_0_0_1_n_n rfl rfl rfl rfl rfl rfl,
    Cert.LibMatmulNN.matmul_zero_apply' dot_S4096x64_S64x64_S4096x64_1_0_0_1_n_n rfl rfl rfl rfl rfl rfl,
    Cert.LibMatmulNN.matmul_zero_apply' dot_S4096x64_S64x64_S4096x64_1_0_0_1_n_n rfl rfl rfl rfl rfl rfl,
    Cert.LibMatmulNN.matmul_zero_apply' dot_S4096x64_S64x64_S4096x64_1_0_0_1_n_n rfl rfl rfl rfl rfl rfl,
    ofBits_zero2]
  rfl

/-- The body's output layer at the entry (r, j) of a tile: the product with the 64×8 matrix plus the bias. -/
theorem pay2_1_apply (v : FVec Ideal S4096x64 .f32) (lw : Vec Ideal S64x8 .f32) (lb : Vec Ideal S1x8 .f32)
    (r : Fin 4096) (j : Fin 8) :
    k2_pay1 (F := Ideal) v lw lb (ix2 r j) = (∑ k : Fin 64, v (ix2 r k) * lw (ix2 k j)) + lb (ix2 (0 : Fin 1) j) := by
  unfold k2_pay1
  simp only [shapeCast_self]
  rw [addf_apply, broadcastTo_1b_ab_apply,
    Cert.LibMatmulNN.matmul_zero_apply' dot_S4096x64_S64x8_S4096x8_1_0_0_1_n_n rfl rfl rfl rfl rfl rfl]
  rfl

/-- What the body leaves in the output tile, at the entry (r, j): the one store covers the tile from offset zero and
    every load reads a whole tile. -/
theorem out2_11_apply (x0 : Vec Ideal S4096x64 .bf16) (x1 x2 x3 : Vec Ideal S4096x64 .f32)
    (x4 x5 x6 x7 : Vec Ideal S64x64 .f32) (x8 : Vec Ideal S1x64 .f32) (x9 : Vec Ideal S64x8 .f32) (x10 : Vec Ideal S1x8 .f32)
    (r : Fin 4096) (j : Fin 8) :
    out2_11 (F := Ideal) x0 x1 x2 x3 x4 x5 x6 x7 x8 x9 x10 (ix2 r j)
      = Cert.Spec.tagTwoLinAt (M := 4096) x0 x1 x2 x3 x4 x5 x6 x7 x8 x9 x10 r j := by
  unfold out2_11
  rw [View.canon_unit_zero hz2]
  simp only [View.ld_unit_zero (S := S4096x64) hz2, View.ld_unit_zero (S := S64x64) hz2, View.ld_unit_zero (S := S1x64) hz2,
    View.ld_unit_zero (S := S64x8) hz2, View.ld_unit_zero (S := S1x8) hz2]
  rw [pay2_1_apply]
  unfold Cert.Spec.tagTwoLinAt Cert.Spec.mm
  simp only [pay2_2_apply, Cert.Spec.tagTwo_apply]

/-- Row r of the result depends only on row r of the four row-indexed operands. -/
theorem tagTwoLinAt_rows {M M' : Nat} (h0 h1 h2 h3 : Cert.Spec.Arr2 M 64) (g0 g1 g2 g3 : Cert.Spec.Arr2 M' 64)
    (w0 w1 w2 w3 : Cert.Spec.Arr2 64 64) (b : Cert.Spec.Arr2 1 64) (lw : Cert.Spec.Arr2 64 8) (lb : Cert.Spec.Arr2 1 8)
    (r : Fin M) (R : Fin M') (j : Fin 8)
    (e0 : ∀ k : Fin 64, h0 (ix2 r k) = g0 (ix2 R k)) (e1 : ∀ k : Fin 64, h1 (ix2 r k) = g1 (ix2 R k))
    (e2 : ∀ k : Fin 64, h2 (ix2 r k) = g2 (ix2 R k)) (e3 : ∀ k : Fin 64, h3 (ix2 r k) = g3 (ix2 R k)) :
    Cert.Spec.tagTwoLinAt h0 h1 h2 h3 w0 w1 w2 w3 b lw lb r j
      = Cert.Spec.tagTwoLinAt g0 g1 g2 g3 w0 w1 w2 w3 b lw lb R j := by
  unfold Cert.Spec.tagTwoLinAt Cert.Spec.mm
  simp only [Cert.Spec.tagTwo_apply]
  unfold Cert.Spec.tagTwoAt Cert.Spec.mm
  simp only [e0, e1, e2, e3]

/-! ## The windows' blocks over the grid -/

/-- The printed index maps over the 64 grid points: a row-tiled window's block index is (t, 0), a whole-matrix
    window's is (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-- Window 0's tile at point t is rows 4096·t … 4096·t + 4095 of its array. -/
theorem iblk2_0_apply (c : Dev nD) (t : Fin cfg2.N) (r : Fin 4096) (k : Fin 64) (R : Fin 262144)
    (hR : R.val = t.val * 4096 + r.val) :
    (iblk2 V c 0 t : S4096x64.Idx → EReal) (ix2 r k) = (V c (Pipeline.arrRef spec2 0) : S262144x64.Idx → EReal) (ix2 R k) := by
  unfold iblk2
  rw [View.read_apply]
  show (V c (Pipeline.arrRef spec2 0) : S262144x64.Idx → EReal) _ = _
  congr 1
  funext a
  apply Fin.ext
  have hi := (idx2 t).1
  match a with
  | ⟨0, _⟩ => show win2_0.index t (0 : Fin 2) * 4096 + 1 * r.val = R.val; rw [hi.1, hR]; omega
  | ⟨1, _⟩ => show win2_0.index t (1 : Fin 2) * 64 + 1 * k.val = k.val; rw [hi.2]; omega

/-- Window 1's tile at point t is rows 4096·t … 4096·t + 4095 of its array. -/
theorem iblk2_1_apply (c : Dev nD) (t : Fin cfg2.N) (r : Fin 4096) (k : Fin 64) (R : Fin 262144)
    (hR : R.val = t.val * 4096 + r.val) :
    (iblk2 V c 1 t : S4096x64.Idx → EReal) (ix2 r k) = (V c (Pipeline.arrRef spec2 1) : S262144x64.Idx → EReal) (ix2 R k) := by
  unfold iblk2
  rw [View.read_apply]
  show (V c (Pipeline.arrRef spec2 1) : S262144x64.Idx → EReal) _ = _
  congr 1
  funext a
  apply Fin.ext
  have hi := (idx2 t).2.1
  match a with
  | ⟨0, _⟩ => show win2_1.index t (0 : Fin 2) * 4096 + 1 * r.val = R.val; rw [hi.1, hR]; omega
  | ⟨1, _⟩ => show win2_1.index t (1 : Fin 2) * 64 + 1 * k.val = k.val; rw [hi.2]; omega

/-- Window 2's tile at point t is rows 4096·t … 4096·t + 4095 of its array. -/
theorem iblk2_2_apply (c : Dev nD) (t : Fin cfg2.N) (r : Fin 4096) (k : Fin 64) (R : Fin 262144)
    (hR : R.val = t.val * 4096 + r.val) :
    (iblk2 V c 2 t : S4096x64.Idx → EReal) (ix2 r k) = (V c (Pipeline.arrRef spec2 2) : S262144x64.Idx → EReal) (ix2 R k) := by
  unfold iblk2
  rw [View.read_apply]
  show (V c (Pipeline.arrRef spec2 2) : S262144x64.Idx → EReal) _ = _
  congr 1
  funext a
  apply Fin.ext
  have hi := (idx2 t).2.2.1
  match a with
  | ⟨0, _⟩ => show win2_2.index t (0 : Fin 2) * 4096 + 1 * r.val = R.val; rw [hi.1, hR]; omega
  | ⟨1, _⟩ => show win2_2.index t (1 : Fin 2) * 64 + 1 * k.val = k.val; rw [hi.2]; omega

/-- Window 3's tile at point t is rows 4096·t … 4096·t + 4095 of its array. -/
theorem iblk2_3_apply (c : Dev nD) (t : Fin cfg2.N) (r : Fin 4096) (k : Fin 64) (R : Fin 262144)
    (hR : R.val = t.val * 4096 + r.val) :
    (iblk2 V c 3 t : S4096x64.Idx → EReal) (ix2 r k) = (V c (Pipeline.arrRef spec2 3) : S262144x64.Idx → EReal) (ix2 R k) := by
  unfold iblk2
  rw [View.read_apply]
  show (V c (Pipeline.arrRef spec2 3) : S262144x64.Idx → EReal) _ = _
  congr 1
  funext a
  apply Fin.ext
  have hi := (idx2 t).2.2.2.1
  match a with
  | ⟨0, _⟩ => show win2_3.index t (0 : Fin 2) * 4096 + 1 * r.val = R.val; rw [hi.1, hR]; omega
  | ⟨1, _⟩ => show win2_3.index t (1 : Fin 2) * 64 + 1 * k.val = k.val; rw [hi.2]; omega

/-- Window 4's block is its whole array at every point. -/
theorem iblk2_4_eq (c : Dev nD) (t : Fin cfg2.N) :
    (iblk2 V c 4 t : S64x64.Idx → EReal) = (V c (Pipeline.arrRef spec2 4) : S64x64.Idx → EReal) := by
  funext y
  unfold iblk2
  rw [View.read_apply]
  show (V c (Pipeline.arrRef spec2 4) : S64x64.Idx → EReal) _ = _
  congr 1
  funext a
  apply Fin.ext
  have hi := (idx2 t).2.2.2.2.1
  match a with
  | ⟨0, _⟩ => show win2_4.index t (0 : Fin 2) * 64 + 1 * (y 0).val = (y 0).val; rw [hi.1]; omega
  | ⟨1, _⟩ => show win2_4.index t (1 : Fin 2) * 64 + 1 * (y 1).val = (y 1).val; rw [hi.2]; omega

/-- Window 5's block is its whole array at every point. -/
theorem iblk2_5_eq (c : Dev nD) (t : Fin cfg2.N) :
    (iblk2 V c 5 t : S64x64.Idx → EReal) = (V c (Pipeline.arrRef spec2 5) : S64x64.Idx → EReal) := by
  funext y
  unfold iblk2
  rw [View.read_apply]
  show (V c (Pipeline.arrRef spec2 5) : S64x64.Idx → EReal) _ = _
  congr 1
  funext a
  apply Fin.ext
  have hi := (idx2 t).2.2.2.2.2.1
  match a with
  | ⟨0, _⟩ => show win2_5.index t (0 : Fin 2) * 64 + 1 * (y 0).val = (y 0).val; rw [hi.1]; omega
  | ⟨1, _⟩ => show win2_5.index t (1 : Fin 2) * 64 + 1 * (y 1).val = (y 1).val; rw [hi.2]; omega

/-- Window 6's block is its whole array at every point. -/
theorem iblk2_6_eq (c : Dev nD) (t : Fin cfg2.N) :
    (iblk2 V c 6 t : S64x64.Idx → EReal) = (V c (Pipeline.arrRef spec2 6) : S64x64.Idx → EReal) := by
  funext y
  unfold iblk2
  rw [View.read_apply]
  show (V c (Pipeline.arrRef spec2 6) : S64x64.Idx → EReal) _ = _
  congr 1
  funext a
  apply Fin.ext
  have hi := (idx2 t).2.2.2.2.2.2.1
  match a with
  | ⟨0, _⟩ => show win2_6.index t (0 : Fin 2) * 64 + 1 * (y 0).val = (y 0).val; rw [hi.1]; omega
  | ⟨1, _⟩ => show win2_6.index t (1 : Fin 2) * 64 + 1 * (y 1).val = (y 1).val; rw [hi.2]; omega

/-- Window 7's block is its whole array at every point. -/
theorem iblk2_7_eq (c : Dev nD) (t : Fin cfg2.N) :
    (iblk2 V c 7 t : S64x64.Idx → EReal) = (V c (Pipeline.arrRef spec2 7) : S64x64.Idx → EReal) := by
  funext y
  unfold iblk2
  rw [View.read_apply]
  show (V c (Pipeline.arrRef spec2 7) : S64x64.Idx → EReal) _ = _
  congr 1
  funext a
  apply Fin.ext
  have hi := (idx2 t).2.2.2.2.2.2.2.1
  match a with
  | ⟨0, _⟩ => show win2_7.index t (0 : Fin 2) * 64 + 1 * (y 0).val = (y 0).val; rw [hi.1]; omega
  | ⟨1, _⟩ => show win2_7.index t (1 : Fin 2) * 64 + 1 * (y 1).val = (y 1).val; rw [hi.2]; omega

/-- Window 8's block is its whole array at every point. -/
theorem iblk2_8_eq (c : Dev nD) (t : Fin cfg2.N) :
    (iblk2 V c 8 t : S1x64.Idx → EReal) = (V c (Pipeline.arrRef spec2 8) : S1x64.Idx → EReal) := by
  funext y
  unfold iblk2
  rw [View.read_apply]
  show (V c (Pipeline.arrRef spec2 8) : S1x64.Idx → EReal) _ = _
  congr 1
  funext a
  apply Fin.ext
  have hi := (idx2 t).2.2.2.2.2.2.2.2.1
  match a with
  | ⟨0, _⟩ => show win2_8.index t (0 : Fin 2) * 1 + 1 * (y 0).val = (y 0).val; rw [hi.1]; omega
  | ⟨1, _⟩ => show win2_8.index t (1 : Fin 2) * 64 + 1 * (y 1).val = (y 1).val; rw [hi.2]; omega

/-- Window 9's block is its whole array at every point. -/
theorem iblk2_9_eq (c : Dev nD) (t : Fin cfg2.N) :
    (iblk2 V c 9 t : S64x8.Idx → EReal) = (V c (Pipeline.arrRef spec2 9) : S64x8.Idx → EReal) := by
  funext y
  unfold iblk2
  rw [View.read_apply]
  show (V c (Pipeline.arrRef spec2 9) : S64x8.Idx → EReal) _ = _
  congr 1
  funext a
  apply Fin.ext
  have hi := (idx2 t).2.2.2.2.2.2.2.2.2.1
  match a with
  | ⟨0, _⟩ => show win2_9.index t (0 : Fin 2) * 64 + 1 * (y 0).val = (y 0).val; rw [hi.1]; omega
  | ⟨1, _⟩ => show win2_9.index t (1 : Fin 2) * 8 + 1 * (y 1).val = (y 1).val; rw [hi.2]; omega

/-- Window 10's block is its whole array at every point. -/
theorem iblk2_10_eq (c : Dev nD) (t : Fin cfg2.N) :
    (iblk2 V c 10 t : S1x8.Idx → EReal) = (V c (Pipeline.arrRef spec2 10) : S1x8.Idx → EReal) := by
  funext y
  unfold iblk2
  rw [View.read_apply]
  show (V c (Pipeline.arrRef spec2 10) : S1x8.Idx → EReal) _ = _
  congr 1
  funext a
  apply Fin.ext
  have hi := (idx2 t).2.2.2.2.2.2.2.2.2.2.1
  match a with
  | ⟨0, _⟩ => show win2_10.index t (0 : Fin 2) * 1 + 1 * (y 0).val = (y 0).val; rw [hi.1]; omega
  | ⟨1, _⟩ => show win2_10.index t (1 : Fin 2) * 8 + 1 * (y 1).val = (y 1).val; rw [hi.2]; omega

/-! ## From tiles to the array -/

/-- The output tile's entry (r, j) at point t sits at row 4096·t + r of the array. -/
theorem emb2_11 (t : Fin cfg2.N) (r : Fin 4096) (j : Fin 8) (R : Fin 262144) (hR : R.val = t.val * 4096 + r.val) :
    ((cfg2.win 11).blk t).view.emb (ix2 r j) = (ix2 R j : S262144x8.Idx) := by
  funext a
  apply Fin.ext
  have hi := (idx2 t).2.2.2.2.2.2.2.2.2.2.2
  match a with
  | ⟨0, _⟩ => show win2_11.index t (0 : Fin 2) * 4096 + 1 * r.val = R.val; rw [hi.1, hR]; omega
  | ⟨1, _⟩ => show win2_11.index t (1 : Fin 2) * 8 + 1 * j.val = j.val; rw [hi.2]; omega

/-- The whole result array: the stage's function of the eleven arrays the region finds. -/
abbrev G2 (c : Dev nD) : S262144x8.Idx → EReal :=
  Cert.Spec.tagTwoLin (M := 262144) (V c (Pipeline.arrRef spec2 0)) (V c (Pipeline.arrRef spec2 1)) (V c (Pipeline.arrRef spec2 2)) (V c (Pipeline.arrRef spec2 3))
    (V c (Pipeline.arrRef spec2 4)) (V c (Pipeline.arrRef spec2 5)) (V c (Pipeline.arrRef spec2 6)) (V c (Pipeline.arrRef spec2 7))
    (V c (Pipeline.arrRef spec2 8)) (V c (Pipeline.arrRef spec2 9)) (V c (Pipeline.arrRef spec2 10))

/-- What point t writes back is tile t of the whole result array: the body's value at (r, j) of the tile is the
    stage's value at row 4096·t + r, because that row of the result reads only that row of the operands. -/
theorem flushed2_eq (c : Dev nD) (t : Fin cfg2.N) :
    (dat2 V c).flushed 11 t = ((cfg2.win 11).blk t).view.read (Elt Ideal) (G2 V c) := by
  show (cfg2.win 11).cut (grid2.coords t) ((dat2 V c).after 11 t) = _
  rw [after2_11]
  refine funext fun (y : S4096x8.Idx) => ?_
  obtain ⟨r, j, rfl⟩ : ∃ (r : Fin 4096) (j : Fin 8), y = ix2 r j := ⟨y 0, y 1, eq_ix2 y⟩
  have ht : t.val < 64 := lt_of_lt_of_eq t.isLt (N_2 : cfg2.N = 64)
  have hr := r.isLt
  obtain ⟨R, hR⟩ : ∃ R : Fin 262144, R.val = t.val * 4096 + r.val := ⟨⟨t.val * 4096 + r.val, by omega⟩, rfl⟩
  show out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (ix2 r j)
    = G2 V c (((cfg2.win 11).blk t).view.emb (ix2 r j))
  rw [emb2_11 t r j R hR]
  refine (out2_11_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) r j).trans ?_
  rw [iblk2_4_eq V c t, iblk2_5_eq V c t, iblk2_6_eq V c t, iblk2_7_eq V c t, iblk2_8_eq V c t, iblk2_9_eq V c t, iblk2_10_eq V c t]
  exact tagTwoLinAt_rows _ _ _ _ _ _ _ _ _ _ _ _ _ _ _ r R j (fun k => iblk2_0_apply V c t r k R hR) (fun k => iblk2_1_apply V c t r k R hR)
    (fun k => iblk2_2_apply V c t r k R hR) (fun k => iblk2_3_apply V c t r k R hR)

/-- An index of the result array is in point t's tile iff each coordinate is in the tile's range on its axis. -/
theorem mem_blk2 (t : Fin cfg2.N) (i : S262144x8.Idx) :
    i ∈ ((cfg2.win 11).blk t).view.set ↔ ∀ a : Fin 2, win2_11.index t a * S4096x8.size a ≤ (i a).val ∧ (i a).val < win2_11.index t a * S4096x8.size a + S4096x8.size a := by
  show i ∈ ((View.whole main_v184).slice (win2_11.rect t)).set ↔ _
  rw [View.set_slice_whole, Rect.mem_set_unit]
  exact Iff.rfl

/-- Every row is in some tile: row R is in tile R / 4096. -/
theorem cover2 (i : S262144x8.Idx) : ∃ t : Fin cfg2.N, (cfg2.win 11).flush t = true ∧ i ∈ ((cfg2.win 11).blk t).view.set := by
  have hi0 : (i 0).val < 262144 := (i 0).isLt
  have hi1 : (i 1).val < 8 := (i 1).isLt
  have hN : cfg2.N = 64 := N_2
  obtain ⟨t, ht⟩ : ∃ t : Fin cfg2.N, t.val = (i 0).val / 4096 := ⟨⟨(i 0).val / 4096, by rw [hN]; omega⟩, rfl⟩
  refine ⟨t, flush2_11 t, ?_⟩
  rw [mem_blk2]
  have hi := (idx2 t).2.2.2.2.2.2.2.2.2.2.2
  intro a
  match a with
  | ⟨0, _⟩ => show win2_11.index t (0 : Fin 2) * 4096 ≤ (i 0).val ∧ (i 0).val < win2_11.index t (0 : Fin 2) * 4096 + 4096; rw [hi.1, ht]; omega
  | ⟨1, _⟩ => show win2_11.index t (1 : Fin 2) * 8 ≤ (i 1).val ∧ (i 1).val < win2_11.index t (1 : Fin 2) * 8 + 8; rw [hi.2]; omega

/-- THE RESULT ARRAY after the region: entry by entry u·L + lb, where u is the positive part of
    ((((h0·W0 + h1·W1) + h2·W2) + h3·W3) + b), of the eleven arrays the region finds. -/
theorem final2 (c : Dev nD) : (dat2 (F := Ideal) V c).arrAt 11 cfg2.N
    = Cert.Spec.tagTwoLin (M := 262144) (V c (Pipeline.arrRef spec2 0)) (V c (Pipeline.arrRef spec2 1)) (V c (Pipeline.arrRef spec2 2)) (V c (Pipeline.arrRef spec2 3))
        (V c (Pipeline.arrRef spec2 4)) (V c (Pipeline.arrRef spec2 5)) (V c (Pipeline.arrRef spec2 6)) (V c (Pipeline.arrRef spec2 7))
        (V c (Pipeline.arrRef spec2 8)) (V c (Pipeline.arrRef spec2 9)) (V c (Pipeline.arrRef spec2 10)) :=
  (dat2 V c).arrAt_eq_of_cover 11 (G2 V c) (fun t _ => flushed2_eq V c t) cover2

end Cert.KernelIdeal.RegVal

end
-- ==== Proof.RefDense2.lean ====
/-
  The reference's third dense stage is the specification's third stage.

  The generated read-back gives four products of 262144×64 arrays (the second stage's result and its three hop results)
  with 64×64 matrices, added left to right, plus a bias row broadcast over the rows, then the positive part: the
  specification's second convolution. The output layer is the product of that with a 64×8 matrix plus a bias row. Read
  at the entry (r, j), each product is the sum over k of the left operand at (r, k) times the right operand at (k, j);
  under the output layer's sum the convolution is read at (r, k), where it is the specification's convolution at (r, k).
-/
import proofs.«142313_j62955630624977_2_alg».proof.Proof.ReadPatched
import proofs.«142313_j62955630624977_2_alg».proof.Proof.Spec

noncomputable section

open scoped BigOperators

namespace Cert.ReferenceIdeal.RefDense

open Cert.ReferenceIdeal Cert.ReferenceIdeal.Gen Cert.ReferenceIdeal.Read Idealize.ShloMosaic
  Idealize.ShloMosaic.ValueIdx

/-! The index functions of the read-back at the entry (r, j), written with the coordinate constructors. -/

theorem lidx155 (r : Fin 262144) (j : Fin 64) (k : Fin 64) : lidx_main_v155 (ix2 r j) k = ix2 r k :=
  funext fun a => by match a with | ⟨0, _⟩ => rfl | ⟨1, _⟩ => rfl

theorem ridx155 (r : Fin 262144) (j : Fin 64) (k : Fin 64) : ridx_main_v155 (ix2 r j) k = ix2 k j :=
  funext fun a => by match a with | ⟨0, _⟩ => rfl | ⟨1, _⟩ => rfl

theorem lidx170 (r : Fin 262144) (j : Fin 64) (k : Fin 64) : lidx_main_v170 (ix2 r j) k = ix2 r k :=
  funext fun a => by match a with | ⟨0, _⟩ => rfl | ⟨1, _⟩ => rfl

theorem ridx170 (r : Fin 262144) (j : Fin 64) (k : Fin 64) : ridx_main_v170 (ix2 r j) k = ix2 k j :=
  funext fun a => by match a with | ⟨0, _⟩ => rfl | ⟨1, _⟩ => rfl

theorem lidx186 (r : Fin 262144) (j : Fin 64) (k : Fin 64) : lidx_main_v186 (ix2 r j) k = ix2 r k :=
  funext fun a => by match a with | ⟨0, _⟩ => rfl | ⟨1, _⟩ => rfl

theorem ridx186 (r : Fin 262144) (j : Fin 64) (k : Fin 64) : ridx_main_v186 (ix2 r j) k = ix2 k j :=
  funext fun a => by match a with | ⟨0, _⟩ => rfl | ⟨1, _⟩ => rfl

theorem lidx202 (r : Fin 262144) (j : Fin 64) (k : Fin 64) : lidx_main_v202 (ix2 r j) k = ix2 r k :=
  funext fun a => by match a with | ⟨0, _⟩ => rfl | ⟨1, _⟩ => rfl

theorem ridx202 (r : Fin 262144) (j : Fin 64) (k : Fin 64) : ridx_main_v202 (ix2 r j) k = ix2 k j :=
  funext fun a => by match a with | ⟨0, _⟩ => rfl | ⟨1, _⟩ => rfl

theorem bidx205 (r : Fin 262144) (j : Fin 64) : idx_main_v205 (ix2 r j) = ix2 (0 : Fin 1) j :=
  funext fun a => by match a with | ⟨0, _⟩ => rfl | ⟨1, _⟩ => rfl

theorem lidx208 (r : Fin 262144) (j : Fin 8) (k : Fin 64) : lidx_main_v208 (ix2 r j) k = ix2 r k :=
  funext fun a => by match a with | ⟨0, _⟩ => rfl | ⟨1, _⟩ => rfl

theorem ridx208 (r : Fin 262144) (j : Fin 8) (k : Fin 64) : ridx_main_v208 (ix2 r j) k = ix2 k j :=
  funext fun a => by match a with | ⟨0, _⟩ => rfl | ⟨1, _⟩ => rfl

theorem bidx210 (r : Fin 262144) (j : Fin 8) : idx_main_v210 (ix2 r j) = ix2 (0 : Fin 1) j :=
  funext fun a => by match a with | ⟨0, _⟩ => rfl | ⟨1, _⟩ => rfl

/-- The reference's value after the third stage's positive part is the specification's second convolution of the second
    stage's result, its three hop results, the four weight slices and the bias row. -/
theorem v207_eq (x0 : (⟨S262144x5, .f32⟩ : BufTy).Contents (Elt Ideal))
    (x1 : (⟨S262144x6, .f32⟩ : BufTy).Contents (Elt Ideal))
    (x2 : (⟨S2x4000000, .i32⟩ : BufTy).Contents (Elt Ideal))
    (x3 : (⟨S2x2000000, .i32⟩ : BufTy).Contents (Elt Ideal))
    (x4 : (⟨S2x2000000, .i32⟩ : BufTy).Contents (Elt Ideal))
    (x5 : (⟨S2x2000000, .i32⟩ : BufTy).Contents (Elt Ideal))
    (x6 : (⟨S2000000, .f32⟩ : BufTy).Contents (Elt Ideal))
    (x7 : (⟨S3x5x64, .f32⟩ : BufTy).Contents (Elt Ideal))
    (x8 : (⟨S64, .f32⟩ : BufTy).Contents (Elt Ideal))
    (x9 : (⟨S4x64x64, .f32⟩ : BufTy).Contents (Elt Ideal))
    (x10 : (⟨S64, .f32⟩ : BufTy).Contents (Elt Ideal))
    (x11 : (⟨S64x64, .f32⟩ : BufTy).Contents (Elt Ideal))
    (x12 : (⟨S64, .f32⟩ : BufTy).Contents (Elt Ideal))
    (x13 : (⟨S6x64, .f32⟩ : BufTy).Contents (Elt Ideal))
    (x14 : (⟨S64x64, .f32⟩ : BufTy).Contents (Elt Ideal))
    (x15 : (⟨S64, .f32⟩ : BufTy).Contents (Elt Ideal))
    (x16 : (⟨S64x64, .f32⟩ : BufTy).Contents (Elt Ideal)) :
    val_main_v207 (F := Ideal) x0 x1 x2 x3 x4 x5 x6 x7 x8 x9 x10 x11 x12 x13 x14 x15 x16
      = Cert.Spec.tagTwo (M := 262144) (val_main_v122 x0 x1 x2 x3 x4 x6 x7 x8 x11 x12 x13 x14 x15 x16)
          (val_main_v167 x0 x1 x2 x3 x4 x5 x6 x7 x8 x11 x12 x13 x14 x15 x16)
          (val_main_v183 x0 x1 x2 x3 x4 x5 x6 x7 x8 x11 x12 x13 x14 x15 x16)
          (val_main_v199 x0 x1 x2 x3 x4 x5 x6 x7 x8 x11 x12 x13 x14 x15 x16)
          (val_main_v154 x9) (val_main_v169 x9) (val_main_v185 x9) (val_main_v201 x9) (val_main_v204 x10) := by
  funext i
  obtain ⟨r, j, rfl⟩ : ∃ (r : Fin 262144) (j : Fin 64), i = ix2 r j := ⟨i 0, i 1, eq_ix2 i⟩
  rw [val_main_v207_apply, val_main_v206_apply, val_main_v203_apply, val_main_v187_apply, val_main_v171_apply,
    val_main_v155_apply, val_main_v170_apply, val_main_v186_apply, val_main_v202_apply, val_main_v205_apply,
    val_main_call5_v0_apply, val_main_call5_cst_apply, Cert.Spec.tagTwo_apply]
  generalize val_main_v122 (F := Ideal) x0 x1 x2 x3 x4 x6 x7 x8 x11 x12 x13 x14 x15 x16 = h0
  generalize val_main_v167 (F := Ideal) x0 x1 x2 x3 x4 x5 x6 x7 x8 x11 x12 x13 x14 x15 x16 = h1
  generalize val_main_v183 (F := Ideal) x0 x1 x2 x3 x4 x5 x6 x7 x8 x11 x12 x13 x14 x15 x16 = h2
  generalize val_main_v199 (F := Ideal) x0 x1 x2 x3 x4 x5 x6 x7 x8 x11 x12 x13 x14 x15 x16 = h3
  generalize val_main_v154 (F := Ideal) x9 = w0
  generalize val_main_v169 (F := Ideal) x9 = w1
  generalize val_main_v185 (F := Ideal) x9 = w2
  generalize val_main_v201 (F := Ideal) x9 = w3
  generalize val_main_v204 (F := Ideal) x10 = b
  simp only [lidx155, ridx155, lidx170, ridx170, lidx186, ridx186, lidx202, ridx202, bidx205, Ideal.addf_def,
    Ideal.maximumf_def, Ideal.ofBits_def, Ideal.ofBits_zero_f32, Cert.Spec.tagTwoAt, Cert.Spec.mm]

/-- The reference's result is the specification's third stage: the second convolution followed by the output layer. -/
theorem v211_eq (x0 : (⟨S262144x5, .f32⟩ : BufTy).Contents (Elt Ideal))
    (x1 : (⟨S262144x6, .f32⟩ : BufTy).Contents (Elt Ideal))
    (x2 : (⟨S2x4000000, .i32⟩ : BufTy).Contents (Elt Ideal))
    (x3 : (⟨S2x2000000, .i32⟩ : BufTy).Contents (Elt Ideal))
    (x4 : (⟨S2x2000000, .i32⟩ : BufTy).Contents (Elt Ideal))
    (x5 : (⟨S2x2000000, .i32⟩ : BufTy).Contents (Elt Ideal))
    (x6 : (⟨S2000000, .f32⟩ : BufTy).Contents (Elt Ideal))
    (x7 : (⟨S3x5x64, .f32⟩ : BufTy).Contents (Elt Ideal))
    (x8 : (⟨S64, .f32⟩ : BufTy).Contents (Elt Ideal))
    (x9 : (⟨S4x64x64, .f32⟩ : BufTy).Contents (Elt Ideal))
    (x10 : (⟨S64, .f32⟩ : BufTy).Contents (Elt Ideal))
    (x11 : (⟨S64x64, .f32⟩ : BufTy).Contents (Elt Ideal))
    (x12 : (⟨S64, .f32⟩ : BufTy).Contents (Elt Ideal))
    (x13 : (⟨S6x64, .f32⟩ : BufTy).Contents (Elt Ideal))
    (x14 : (⟨S64x64, .f32⟩ : BufTy).Contents (Elt Ideal))
    (x15 : (⟨S64, .f32⟩ : BufTy).Contents (Elt Ideal))
    (x16 : (⟨S64x64, .f32⟩ : BufTy).Contents (Elt Ideal))
    (x17 : (⟨S64x8, .f32⟩ : BufTy).Contents (Elt Ideal))
    (x18 : (⟨S8, .f32⟩ : BufTy).Contents (Elt Ideal)) :
    val_main_v211 (F := Ideal) x0 x1 x2 x3 x4 x5 x6 x7 x8 x9 x10 x11 x12 x13 x14 x15 x16 x17 x18
      = Cert.Spec.tagTwoLin (M := 262144) (val_main_v122 x0 x1 x2 x3 x4 x6 x7 x8 x11 x12 x13 x14 x15 x16)
          (val_main_v167 x0 x1 x2 x3 x4 x5 x6 x7 x8 x11 x12 x13 x14 x15 x16)
          (val_main_v183 x0 x1 x2 x3 x4 x5 x6 x7 x8 x11 x12 x13 x14 x15 x16)
          (val_main_v199 x0 x1 x2 x3 x4 x5 x6 x7 x8 x11 x12 x13 x14 x15 x16)
          (val_main_v154 x9) (val_main_v169 x9) (val_main_v185 x9) (val_main_v201 x9) (val_main_v204 x10) x17
          (val_main_v209 x18) := by
  funext i
  obtain ⟨r, j, rfl⟩ : ∃ (r : Fin 262144) (j : Fin 8), i = ix2 r j := ⟨i 0, i 1, eq_ix2 i⟩
  rw [val_main_v211_apply, val_main_v208_apply, val_main_v210_apply, v207_eq, Cert.Spec.tagTwoLin_apply]
  generalize val_main_v122 (F := Ideal) x0 x1 x2 x3 x4 x6 x7 x8 x11 x12 x13 x14 x15 x16 = h0
  generalize val_main_v167 (F := Ideal) x0 x1 x2 x3 x4 x5 x6 x7 x8 x11 x12 x13 x14 x15 x16 = h1
  generalize val_main_v183 (F := Ideal) x0 x1 x2 x3 x4 x5 x6 x7 x8 x11 x12 x13 x14 x15 x16 = h2
  generalize val_main_v199 (F := Ideal) x0 x1 x2 x3 x4 x5 x6 x7 x8 x11 x12 x13 x14 x15 x16 = h3
  generalize val_main_v154 (F := Ideal) x9 = w0
  generalize val_main_v169 (F := Ideal) x9 = w1
  generalize val_main_v185 (F := Ideal) x9 = w2
  generalize val_main_v201 (F := Ideal) x9 = w3
  generalize val_main_v204 (F := Ideal) x10 = b
  generalize val_main_v209 (F := Ideal) x18 = lb
  simp only [lidx208, ridx208, bidx210, Ideal.addf_def, Cert.Spec.tagTwoLinAt, Cert.Spec.mm]

end Cert.ReferenceIdeal.RefDense

end
-- ==== Proof.Stage2.lean ====
/-
  The kernel program's result, as the reference's result.

  The third region writes, tile by tile, the second convolution's dense part followed by the output layer; over the
  whole array that is the specification's third dense stage of the region's operands, and the reference's result is
  the same dense stage of the same operands.
-/
import proofs.«142313_j62955630624977_2_alg».proof.Proof.Bridge2
import proofs.«142313_j62955630624977_2_alg».proof.Proof.RegVal2
import proofs.«142313_j62955630624977_2_alg».proof.Proof.RefDense2
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The result array at the program's last boundary is the reference's result stage of the launch arrays. -/
theorem result : W10 m ρ c (Proc.devRef .tc main_v184)
    = Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine ((W10_arr m ρ c 11).trans (Cert.KernelIdeal.RegVal.final2 (V9 m ρ) c)).trans ?_
  refine Eq.trans ?_ (Cert.ReferenceIdeal.RefDense.v211_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).symm
  show Cert.Spec.tagTwoLin (V9 m ρ c main_v106) (V9 m ρ c main_v149) (V9 m ρ c main_v161) (V9 m ρ c main_v173) (V9 m ρ c main_v175)
    (V9 m ρ c main_v177) (V9 m ρ c main_v179) (V9 m ρ c main_v181) (V9 m ρ c main_v182) (V9 m ρ c main_arg17) (V9 m ρ c main_v183) = _
  rw [in2_0 m ρ c, in2_1 m ρ c, in2_2 m ρ c, in2_3 m ρ c, in2_4 m ρ c, in2_5 m ρ c, in2_6 m ρ c, in2_7 m ρ c, in2_8 m ρ c,
    show V9 m ρ c main_arg17 = (m ((c : Thread nD τ).loc main_arg17)) from W9_arg17 m ρ c, in2_10 m ρ c]

end Cert.Bridge

end
-- ==== Proof.Algebraic.lean ====
/-
  The two idealized programs end with equal results.

  The kernel program's result array ends, at its last boundary, at the reference's result stage applied to the kernel
  program's own launch arrays; the reference's result is that stage applied to its launch arrays, which agree with the
  kernel program's one by one. So both runs end at one array, entry for entry, as extended reals.
-/
import proofs.«142313_j62955630624977_2_alg».proof.Defs
import proofs.«142313_j62955630624977_2_alg».proof.Proof.KRun
import proofs.«142313_j62955630624977_2_alg».proof.Proof.Stage2
import proofs.«142313_j62955630624977_2_alg».proof.Proof.RunPatched
import proofs.«142313_j62955630624977_2_alg».proof.Proof.ReadPatched
import proofs.«142313_j62955630624977_2_alg».proof.Proof.Gen.KernelIdeal
import proofs.«142313_j62955630624977_2_alg».proof.Proof.Gen.ReferenceIdeal
import proofs.«142313_j62955630624977_2_alg».proof.Proof.Gen.Pre_finite_inputs

set_option maxRecDepth 16384

noncomputable section

namespace Cert.Proof.Claims

open Idealize.ShloMosaic Idealize.ShloMosaic.TcCoe Idealize.SL.Sem

/-- The reference program runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end at the same result array. -/
theorem algebraic : Cert.algebraic_KernelIdeal_ReferenceIdeal := by
  intro m ρ m' ρ' _ hagree
  refine ⟨fun c => Cert.ReferenceIdeal.Read.val_main_v211 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun _ h c => ⟨(h c).1.trans (Cert.Bridge.result m ρ c), (h c).2⟩) (Cert.KernelIdeal.KRun.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v211_eq m' c, h0, h1, h2, h3, h4, h5, h6, h7, h8, h9, h10, h11, h12, h13, h14, h15, h16, h17, h18]

end Cert.Proof.Claims

end
-- ==== Proof.lean ====
/-
  The certificate of the graph network: a kernel program of three row-tiled dense regions among host gathers and
  scatter-adds, against a reference that computes the same network with whole matrix products on the host.

  Both programs compute, from the same launch arrays: the degree-normalised neighbourhood sums of the game features
  over the game graph (one and two hops), the first convolution's dense part (three products, a bias, the positive
  part); the attribute-weighted sum and the mean of those features over the two bipartite edge lists, the graph
  convolution and the mean aggregation's dense parts; the normalised neighbourhood sums of the state features over the
  state graph (one to three hops), the second convolution's dense part and the output layer. The host operations of the
  two programs are the same operations in the same order; the dense parts are the same sums in the same association,
  the kernel program's taken tile by tile over 4096 rows at a time. At the ideal instance a change of float format is the
  identity, so the kernel program's narrower intermediate arrays are the reference's arrays.

  The three frames: the two kernel programs' are generated whole; the reference's is its generated run with the result
  dropped. The idealization rewrote no operation, so there is nothing to preserve. The equality of results:
  Proof/Algebraic.lean, over Proof/KRun.lean (the kernel program's run with its result named), Proof/RegVal0–2.lean (each
  region's output array as a dense stage of its operands), Proof/RefDense0–2.lean (the reference's stages as the same
  dense stages), Proof/Bridge0–2.lean and Proof/Stage0–2.lean (each region's operands are the reference's stages).
-/
import proofs.«142313_j62955630624977_2_alg».proof.Defs
import proofs.«142313_j62955630624977_2_alg».proof.Proof.Gen.Kernel
import proofs.«142313_j62955630624977_2_alg».proof.Proof.Gen.Kernel.Skeleton
import proofs.«142313_j62955630624977_2_alg».proof.Proof.Gen.Kernel.Launch
import proofs.«142313_j62955630624977_2_alg».proof.Proof.Gen.Kernel.Points
import proofs.«142313_j62955630624977_2_alg».proof.Proof.Gen.Kernel.Frame
import proofs.«142313_j62955630624977_2_alg».proof.Proof.Gen.KernelIdeal
import proofs.«142313_j62955630624977_2_alg».proof.Proof.Gen.KernelIdeal.Skeleton
import proofs.«142313_j62955630624977_2_alg».proof.Proof.Gen.KernelIdeal.Launch
import proofs.«142313_j62955630624977_2_alg».proof.Proof.Gen.KernelIdeal.Points
import proofs.«142313_j62955630624977_2_alg».proof.Proof.Gen.KernelIdeal.Frame
import proofs.«142313_j62955630624977_2_alg».proof.Proof.Gen.ReferenceIdeal
import proofs.«142313_j62955630624977_2_alg».proof.Proof.Gen.Pre_finite_inputs
import proofs.«142313_j62955630624977_2_alg».proof.Proof.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Claims.frame_ri,
    trivial,
    Claims.algebraic⟩

end Cert.Proof

end
